-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S1x128x128 : Shape := ⟨3, ![1, 128, 128]⟩
abbrev S1x128 : Shape := ⟨2, ![1, 128]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1x128x128 : S_.BroadcastsInDim S1x128x128 (![] : Fin 0 → Fin S1x128x128.rank)
  reducesTo_S1x128x128_S_d0_1_2 : S1x128x128.ReducesTo [0, 1, 2] S_
  bcast_S_S1x128 : S_.BroadcastsInDim S1x128 (![] : Fin 0 → Fin S1x128.rank)
  reducesTo_S1x128_S_d0_1 : S1x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S1x128 .f32) (main_arg6 : FVec F S128x128 .f32) (main_arg7 : FVec F S128 .f32) (main_v13 : IVec S_ 1) (main_v16 : IVec S1x128x128 1) : IVec S_ 1 :=
  let main_c_5 : IVec S_ 1 := constantI S_ 1 1#1
  let main_v17 : IVec S_ 1 := (fun x v => Host.reduce IntOp.andi x v reducesTo_S1x128x128_S_d0_1_2 h_S_) main_v16 main_c_5
  let main_v18 : IVec S_ 1 := andi main_v13 main_v17
  let main_v19 : FVec F S1x128 .f32 := Host.absf main_arg5
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S1x128x128 .f32) (main_arg3 : FVec F S1x128 .f32) (main_arg4 : FVec F S1x128x128 .f32) (main_arg5 : FVec F S1x128 .f32) (main_arg6 : FVec F S128x128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1x128x128 .f32 := Host.absf main_arg2
  let main_cst_0 : FVec F S_ .f32 := constant S_ .f32 0x7F800000#32
  let main_v5 : FVec F S1x128x128 .f32 := broadcastInDim S1x128x128 ![] bcast_S_S1x128x128 main_cst_0
  let main_v6 : IVec S1x128x128 1 := cmpf .olt main_v4 main_v5
  let main_c_1 : IVec S_ 1 := constantI S_ 1 1#1
  let main_v7 : IVec S_ 1 := (fun x v => Host.reduce IntOp.andi x v reducesTo_S1x128x128_S_d0_1_2 h_S_) main_v6 main_c_1
  let main_v8 : IVec S_ 1 := andi main_v3 main_v7
  let main_v9 : FVec F S1x128 .f32 := Host.absf main_arg3
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_v14 : FVec F S1x128x128 .f32 := Host.absf main_arg4
  let main_cst_4 : FVec F S_ .f32 := constant S_ .f32 0x7F800000#32
  let main_v15 : FVec F S1x128x128 .f32 := broadcastInDim S1x128x128 ![] bcast_S_S1x128x128 main_cst_4
  let main_v16 : IVec S1x128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S1x128x128 : Shape := ⟨3, ![1, 128, 128]⟩
abbrev S1x128 : Shape := ⟨2, ![1, 128]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S5000x128 : Shape := ⟨2, ![5000, 128]⟩
abbrev S_ : Shape := ⟨0, ![]⟩
abbrev S800000x1 : Shape := ⟨2, ![800000, 1]⟩
abbrev S800000x128 : Shape := ⟨2, ![800000, 128]⟩
abbrev S1 : Shape := ⟨1, ![1]⟩

abbrev nBuf : Space → Nat
  | .hbm => 132
  | .vmem => 18
  | .smem => 0
  | _ => 0

abbrev hbmTy0_0 (i : Nat) : BufTy := match i % 128 with
  | 0 => ⟨S50000x128, .f32⟩
  | 1 => ⟨S2x800000, .i32⟩
  | 2 => ⟨S1x128x128, .f32⟩
  | 3 => ⟨S1x128, .f32⟩
  | 4 => ⟨S1x128x128, .f32⟩
  | 5 => ⟨S1x128, .f32⟩
  | 6 => ⟨S128x128, .f32⟩
  | 7 => ⟨S128, .f32⟩
  | 8 => ⟨S1x800000, .i32⟩
  | 9 => ⟨S800000, .i32⟩
  | 10 => ⟨S1x800000, .i32⟩
  | 11 => ⟨S800000, .i32⟩
  | 12 => ⟨S128x128, .f32⟩
  | 13 => ⟨S128, .f32⟩
  | 14 => ⟨S128x128, .f32⟩
  | 15 => ⟨S128, .f32⟩
  | 16 => ⟨S50000x128, .bf16⟩
  | 17 => ⟨S128x128, .bf16⟩
  | 18 => ⟨S1x128, .f32⟩
  | 19 => ⟨S50000x128, .f32⟩
  | 20 => ⟨S50000x128, .bf16⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000x128, .bf16⟩
  | 30 => ⟨S800000x128, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000x128, .bf16⟩
  | 40 => ⟨S800000x128, .f32⟩
  | 41 => ⟨S800000x128, .f32⟩
  | 42 => ⟨S_, .f32⟩
  | 43 => ⟨S800000, .f32⟩
  | 44 => ⟨S_, .f32⟩
  | 45 => ⟨S_, .f32⟩
  | 46 => ⟨S800000, .f32⟩
  | 47 => ⟨S800000, .i1⟩
  | 48 => ⟨S_, .f32⟩
  | 49 => ⟨S800000, .f32⟩
  | 50 => ⟨S800000, .f32⟩
  | 51 => ⟨S800000, .f32⟩
  | 52 => ⟨S_, .f32⟩
  | 53 => ⟨S_, .f32⟩
  | 54 => ⟨S_, .f32⟩
  | 55 => ⟨S_, .f32⟩
  | 56 => ⟨S1, .f32⟩
  | 57 => ⟨S800000, .f32⟩
  | 58 => ⟨S800000, .f32⟩
  | 59 => ⟨S800000, .f32⟩
  | 60 => ⟨S_, .f32⟩
  | 61 => ⟨S_, .f32⟩
  | 62 => ⟨S1, .f32⟩
  | 63 => ⟨S800000, .f32⟩
  | 64 => ⟨S800000, .f32⟩
  | 65 => ⟨S800000x1, .f32⟩
  | 66 => ⟨S800000x128, .f32⟩
  | 67 => ⟨S800000x128, .f32⟩
  | 68 => ⟨S_, .f32⟩
  | 69 => ⟨S50000x128, .f32⟩
  | 70 => ⟨S800000x1, .i32⟩
  | 71 => ⟨S50000x128, .f32⟩
  | 72 => ⟨S50000x128, .bf16⟩
  | 73 => ⟨S128x128, .bf16⟩
  | 74 => ⟨S1x128, .f32⟩
  | 75 => ⟨S50000x128, .f32⟩
  | 76 => ⟨S50000x128, .bf16⟩
  | 77 => ⟨S_, .i32⟩
  | 78 => ⟨S800000, .i32⟩
  | 79 => ⟨S800000, .i1⟩
  | 80 => ⟨S_, .i32⟩
  | 81 => ⟨S800000, .i32⟩
  | 82 => ⟨S800000, .i32⟩
  | 83 => ⟨S800000, .i32⟩
  | 84 => ⟨S800000x1, .i32⟩
  | 85 => ⟨S800000x128, .bf16⟩
  | 86 => ⟨S800000x128, .f32⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S800000x128, .bf16⟩
  | 96 => ⟨S800000x128, .f32⟩
  | 97 => ⟨S800000x128, .f32⟩
  | 98 => ⟨S_, .f32⟩
  | 99 => ⟨S800000, .f32⟩
  | 100 => ⟨S_, .f32⟩
  | 101 => ⟨S_, .f32⟩
  | 102 => ⟨S800000, .f32⟩
  | 103 => ⟨S800000, .i1⟩
  | 104 => ⟨S_, .f32⟩
  | 105 => ⟨S800000, .f32⟩
  | 106 => ⟨S800000, .f32⟩
  | 107 => ⟨S800000, .f32⟩
  | 108 => ⟨S_, .f32⟩
  | 109 => ⟨S_, .f32⟩
  | 110 => ⟨S_, .f32⟩
  | 111 => ⟨S_, .f32⟩
  | 112 => ⟨S1, .f32⟩
  | 113 => ⟨S800000, .f32⟩
  | 114 => ⟨S800000, .f32⟩
  | 115 => ⟨S800000, .f32⟩
  | 116 => ⟨S_, .f32⟩
  | 117 => ⟨S_, .f32⟩
  | 118 => ⟨S1, .f32⟩
  | 119 => ⟨S800000, .f32⟩
  | 120 => ⟨S800000, .f32⟩
  | 121 => ⟨S800000x1, .f32⟩
  | 122 => ⟨S800000x128, .f32⟩
  | 123 => ⟨S800000x128, .f32⟩
  | 124 => ⟨S_, .f32⟩
  | 125 => ⟨S50000x128, .f32⟩
  | 126 => ⟨S800000x1, .i32⟩
  | 127 => ⟨S50000x128, .f32⟩
  | _ => ⟨S50000x128, .f32⟩

abbrev hbmTy0_1 (i : Nat) : BufTy := match i % 128 with
  | 0 => ⟨S50000x128, .bf16⟩
  | 1 => ⟨S128x128, .bf16⟩
  | 2 => ⟨S1x128, .f32⟩
  | 3 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .bf16⟩
  | .local _ .vmem, ⟨1, _⟩ => ⟨S5000x128, .bf16⟩
  | .local _ .vmem, ⟨2, _⟩ => ⟨S128x128, .bf16⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .bf16⟩
  | .local _ .vmem, ⟨7, _⟩ => ⟨S5000x128, .bf16⟩
  | .local _ .vmem, ⟨8, _⟩ => ⟨S128x128, .bf16⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .bf16⟩
  | .local _ .vmem, ⟨13, _⟩ => ⟨S5000x128, .bf16⟩
  | .local _ .vmem, ⟨14, _⟩ => ⟨S128x128, .bf16⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_1 : Ref sig .tc := ⟨.hbm, 31, rfl⟩
abbrev main_v21 : Ref sig .tc := ⟨.hbm, 32, rfl⟩
abbrev main_v22 : Ref sig .tc := ⟨.hbm, 33, rfl⟩
abbrev main_c_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst : Ref sig .tc := ⟨.hbm, 42, rfl⟩
abbrev main_v30 : Ref sig .tc := ⟨.hbm, 43, rfl⟩
abbrev main_cst_3 : Ref sig .tc := ⟨.hbm, 44, rfl⟩
abbrev main_call0_cst : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_v31 : Ref sig .tc := ⟨.hbm, 51, rfl⟩
abbrev main_cst_4 : Ref sig .tc := ⟨.hbm, 52, rfl⟩
abbrev main_v32 : Ref sig .tc := ⟨.hbm, 53, rfl⟩
abbrev main_cst_5 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_6 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_7 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_c_8 : Ref sig .tc := ⟨.hbm, 77, rfl⟩
abbrev main_v53 : Ref sig .tc := ⟨.hbm, 78, rfl⟩
abbrev main_v54 : Ref sig .tc := ⟨.hbm, 79, rfl⟩
abbrev main_c_9 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_c_10 : Ref sig .tc := ⟨.hbm, 87, rfl⟩
abbrev main_v61 : Ref sig .tc := ⟨.hbm, 88, rfl⟩
abbrev main_v62 : Ref sig .tc := ⟨.hbm, 89, rfl⟩
abbrev main_c_11 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_12 : Ref sig .tc := ⟨.hbm, 98, rfl⟩
abbrev main_v70 : Ref sig .tc := ⟨.hbm, 99, rfl⟩
abbrev main_cst_13 : Ref sig .tc := ⟨.hbm, 100, rfl⟩
abbrev main_call1_cst : Ref sig .tc := ⟨.hbm, 101, rfl⟩
abbrev main_call1_v0 : Ref sig .tc := ⟨.hbm, 102, rfl⟩
abbrev main_call1_v1 : Ref sig .tc := ⟨.hbm, 103, rfl⟩
abbrev main_call1_v2 : Ref sig .tc := ⟨.hbm, 104, rfl⟩
abbrev main_call1_v3 : Ref sig .tc := ⟨.hbm, 105, rfl⟩
abbrev main_call1_v4 : Ref sig .tc := ⟨.hbm, 106, rfl⟩
abbrev main_v71 : Ref sig .tc := ⟨.hbm, 107, rfl⟩
abbrev main_cst_14 : Ref sig .tc := ⟨.hbm, 108, rfl⟩
abbrev main_v72 : Ref sig .tc := ⟨.hbm, 109, rfl⟩
abbrev main_cst_15 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_cst_16 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_cst_17 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S1x128x128_S128x128 : S1x128x128.ShapeCasts S128x128
  shapeCasts_S1x128_S128 : S1x128.ShapeCasts S128
  bitsLt_bf16_f32 : FTy.bits .bf16 < FTy.bits .f32
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S800000 : S_.BroadcastsInDim S800000 (![] : Fin 0 → Fin S800000.rank)
  bcast_S800000_S800000x1_0 : S800000.BroadcastsInDim S800000x1 (![0] : Fin 1 → Fin S800000x1.rank)
  reducesTo_S800000x128_S800000_d1 : S800000x128.ReducesTo [1] S800000
  h_S_ : 0 < S_.numel
  reducesTo_S800000_S_d0 : S800000.ReducesTo [0] S_
  bcast_S_S1 : S_.BroadcastsInDim S1 (![] : Fin 0 → Fin S1.rank)
  bcast_S1_S800000_0 : S1.BroadcastsInDim S800000 (![0] : Fin 1 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .bf16 = 32 ∨ (Rect.block (s := S50000x128) S5000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .bf16 = 32 ∨ (Rect.block (s := S50000x128) S5000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .bf16 = 32 ∨ (Rect.block (s := S128x128) S128x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .bf16 = 32 ∨ (Rect.block (s := S50000x128) S5000x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .bf16 = 32 ∨ (Rect.block (s := S128x128) S128x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_v8) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v48) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v51) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v88) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v89) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v90) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v91) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S1x128x128 : Shape := ⟨3, ![1, 128, 128]⟩
abbrev S1x128 : Shape := ⟨2, ![1, 128]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1 : Shape := ⟨1, ![1]⟩

abbrev nBuf : Space → Nat
  | .hbm => 150
  | .vmem => 0
  | .smem => 0
  | _ => 0

abbrev hbmTy0_0 (i : Nat) : BufTy := match i % 128 with
  | 0 => ⟨S50000x128, .f32⟩
  | 1 => ⟨S2x800000, .i32⟩
  | 2 => ⟨S1x128x128, .f32⟩
  | 3 => ⟨S1x128, .f32⟩
  | 4 => ⟨S1x128x128, .f32⟩
  | 5 => ⟨S1x128, .f32⟩
  | 6 => ⟨S128x128, .f32⟩
  | 7 => ⟨S128, .f32⟩
  | 8 => ⟨S1x800000, .i32⟩
  | 9 => ⟨S800000, .i32⟩
  | 10 => ⟨S1x800000, .i32⟩
  | 11 => ⟨S800000, .i32⟩
  | 12 => ⟨S128x128, .f32⟩
  | 13 => ⟨S50000x128, .f32⟩
  | 14 => ⟨S128, .f32⟩
  | 15 => ⟨S1x128, .f32⟩
  | 16 => ⟨S50000x128, .f32⟩
  | 17 => ⟨S50000x128, .f32⟩
  | 18 => ⟨S_, .f32⟩
  | 19 => ⟨S50000x128, .f32⟩
  | 20 => ⟨S50000x128, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000x128, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000x128, .f32⟩
  | 39 => ⟨S800000x128, .f32⟩
  | 40 => ⟨S_, .f32⟩
  | 41 => ⟨S800000, .f32⟩
  | 42 => ⟨S_, .f32⟩
  | 43 => ⟨S_, .f32⟩
  | 44 => ⟨S800000, .f32⟩
  | 45 => ⟨S800000, .i1⟩
  | 46 => ⟨S_, .f32⟩
  | 47 => ⟨S800000, .f32⟩
  | 48 => ⟨S800000, .f32⟩
  | 49 => ⟨S800000, .f32⟩
  | 50 => ⟨S_, .f32⟩
  | 51 => ⟨S_, .f32⟩
  | 52 => ⟨S_, .f32⟩
  | 53 => ⟨S_, .f32⟩
  | 54 => ⟨S1, .f32⟩
  | 55 => ⟨S800000, .f32⟩
  | 56 => ⟨S800000, .f32⟩
  | 57 => ⟨S800000, .f32⟩
  | 58 => ⟨S_, .f32⟩
  | 59 => ⟨S_, .f32⟩
  | 60 => ⟨S1, .f32⟩
  | 61 => ⟨S800000, .f32⟩
  | 62 => ⟨S800000, .f32⟩
  | 63 => ⟨S800000x1, .f32⟩
  | 64 => ⟨S_, .i32⟩
  | 65 => ⟨S800000, .i32⟩
  | 66 => ⟨S800000, .i1⟩
  | 67 => ⟨S_, .i32⟩
  | 68 => ⟨S800000, .i32⟩
  | 69 => ⟨S800000, .i32⟩
  | 70 => ⟨S800000, .i32⟩
  | 71 => ⟨S800000x1, .i32⟩
  | 72 => ⟨S800000x128, .f32⟩
  | 73 => ⟨S800000x128, .f32⟩
  | 74 => ⟨S800000x128, .f32⟩
  | 75 => ⟨S_, .f32⟩
  | 76 => ⟨S50000x128, .f32⟩
  | 77 => ⟨S800000x1, .i32⟩
  | 78 => ⟨S50000x128, .f32⟩
  | 79 => ⟨S128x128, .f32⟩
  | 80 => ⟨S50000x128, .f32⟩
  | 81 => ⟨S128, .f32⟩
  | 82 => ⟨S1x128, .f32⟩
  | 83 => ⟨S50000x128, .f32⟩
  | 84 => ⟨S50000x128, .f32⟩
  | 85 => ⟨S_, .f32⟩
  | 86 => ⟨S50000x128, .f32⟩
  | 87 => ⟨S50000x128, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000x128, .f32⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S800000x1, .i32⟩
  | 105 => ⟨S800000x128, .f32⟩
  | 106 => ⟨S800000x128, .f32⟩
  | 107 => ⟨S_, .f32⟩
  | 108 => ⟨S800000, .f32⟩
  | 109 => ⟨S_, .f32⟩
  | 110 => ⟨S_, .f32⟩
  | 111 => ⟨S800000, .f32⟩
  | 112 => ⟨S800000, .i1⟩
  | 113 => ⟨S_, .f32⟩
  | 114 => ⟨S800000, .f32⟩
  | 115 => ⟨S800000, .f32⟩
  | 116 => ⟨S800000, .f32⟩
  | 117 => ⟨S_, .f32⟩
  | 118 => ⟨S_, .f32⟩
  | 119 => ⟨S_, .f32⟩
  | 120 => ⟨S_, .f32⟩
  | 121 => ⟨S1, .f32⟩
  | 122 => ⟨S800000, .f32⟩
  | 123 => ⟨S800000, .f32⟩
  | 124 => ⟨S800000, .f32⟩
  | 125 => ⟨S_, .f32⟩
  | 126 => ⟨S_, .f32⟩
  | 127 => ⟨S1, .f32⟩
  | _ => ⟨S50000x128, .f32⟩

abbrev hbmTy0_1 (i : Nat) : BufTy := match i % 128 with
  | 0 => ⟨S800000, .f32⟩
  | 1 => ⟨S800000, .f32⟩
  | 2 => ⟨S800000x1, .f32⟩
  | 3 => ⟨S_, .i32⟩
  | 4 => ⟨S800000, .i32⟩
  | 5 => ⟨S800000, .i1⟩
  | 6 => ⟨S_, .i32⟩
  | 7 => ⟨S800000, .i32⟩
  | 8 => ⟨S800000, .i32⟩
  | 9 => ⟨S800000, .i32⟩
  | 10 => ⟨S800000x1, .i32⟩
  | 11 => ⟨S800000x128, .f32⟩
  | 12 => ⟨S800000x128, .f32⟩
  | 13 => ⟨S800000x128, .f32⟩
  | 14 => ⟨S_, .f32⟩
  | 15 => ⟨S50000x128, .f32⟩
  | 16 => ⟨S800000x1, .i32⟩
  | 17 => ⟨S50000x128, .f32⟩
  | 18 => ⟨S50000x128, .f32⟩
  | 19 => ⟨S1x128, .f32⟩
  | 20 => ⟨S50000x128, .f32⟩
  | 21 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_call0_cst : Ref sig .tc := ⟨.hbm, 18, rfl⟩
abbrev main_call0_v0 : Ref sig .tc := ⟨.hbm, 19, rfl⟩
abbrev main_v10 : Ref sig .tc := ⟨.hbm, 20, rfl⟩
abbrev main_c : Ref sig .tc := ⟨.hbm, 21, rfl⟩
abbrev main_v11 : Ref sig .tc := ⟨.hbm, 22, rfl⟩
abbrev main_v12 : Ref sig .tc := ⟨.hbm, 23, rfl⟩
abbrev main_c_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_1 : Ref sig .tc := ⟨.hbm, 30, rfl⟩
abbrev main_v18 : Ref sig .tc := ⟨.hbm, 31, rfl⟩
abbrev main_v19 : Ref sig .tc := ⟨.hbm, 32, rfl⟩
abbrev main_c_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst : Ref sig .tc := ⟨.hbm, 40, rfl⟩
abbrev main_v26 : Ref sig .tc := ⟨.hbm, 41, rfl⟩
abbrev main_cst_3 : Ref sig .tc := ⟨.hbm, 42, rfl⟩
abbrev main_call1_cst : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_v27 : Ref sig .tc := ⟨.hbm, 49, rfl⟩
abbrev main_cst_4 : Ref sig .tc := ⟨.hbm, 50, rfl⟩
abbrev main_v28 : Ref sig .tc := ⟨.hbm, 51, rfl⟩
abbrev main_cst_5 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_6 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_c_7 : Ref sig .tc := ⟨.hbm, 64, rfl⟩
abbrev main_v39 : Ref sig .tc := ⟨.hbm, 65, rfl⟩
abbrev main_v40 : Ref sig .tc := ⟨.hbm, 66, rfl⟩
abbrev main_c_8 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_9 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_call2_cst : Ref sig .tc := ⟨.hbm, 85, rfl⟩
abbrev main_call2_v0 : Ref sig .tc := ⟨.hbm, 86, rfl⟩
abbrev main_v57 : Ref sig .tc := ⟨.hbm, 87, rfl⟩
abbrev main_c_10 : Ref sig .tc := ⟨.hbm, 88, rfl⟩
abbrev main_v58 : Ref sig .tc := ⟨.hbm, 89, rfl⟩
abbrev main_v59 : Ref sig .tc := ⟨.hbm, 90, rfl⟩
abbrev main_c_11 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_c_12 : Ref sig .tc := ⟨.hbm, 97, rfl⟩
abbrev main_v65 : Ref sig .tc := ⟨.hbm, 98, rfl⟩
abbrev main_v66 : Ref sig .tc := ⟨.hbm, 99, rfl⟩
abbrev main_c_13 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_cst_14 : Ref sig .tc := ⟨.hbm, 107, rfl⟩
abbrev main_v73 : Ref sig .tc := ⟨.hbm, 108, rfl⟩
abbrev main_cst_15 : Ref sig .tc := ⟨.hbm, 109, rfl⟩
abbrev main_call3_cst : Ref sig .tc := ⟨.hbm, 110, rfl⟩
abbrev main_call3_v0 : Ref sig .tc := ⟨.hbm, 111, rfl⟩
abbrev main_call3_v1 : Ref sig .tc := ⟨.hbm, 112, rfl⟩
abbrev main_call3_v2 : Ref sig .tc := ⟨.hbm, 113, rfl⟩
abbrev main_call3_v3 : Ref sig .tc := ⟨.hbm, 114, rfl⟩
abbrev main_call3_v4 : Ref sig .tc := ⟨.hbm, 115, rfl⟩
abbrev main_v74 : Ref sig .tc := ⟨.hbm, 116, rfl⟩
abbrev main_cst_16 : Ref sig .tc := ⟨.hbm, 117, rfl⟩
abbrev main_v75 : Ref sig .tc := ⟨.hbm, 118, rfl⟩
abbrev main_cst_17 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_cst_18 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_c_19 : Ref sig .tc := ⟨.hbm, 131, rfl⟩
abbrev main_v86 : Ref sig .tc := ⟨.hbm, 132, rfl⟩
abbrev main_v87 : Ref sig .tc := ⟨.hbm, 133, rfl⟩
abbrev main_c_20 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_cst_21 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S1x128x128_S128x128 : S1x128x128.ShapeCasts S128x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  reducesTo_S800000x128_S800000_d1 : S800000x128.ReducesTo [1] S800000
  h_S_ : 0 < S_.numel
  reducesTo_S800000_S_d0 : S800000.ReducesTo [0] S_
  bcast_S_S1 : S_.BroadcastsInDim S1 (![] : Fin 0 → Fin S1.rank)
  bcast_S1_S800000_0 : S1.BroadcastsInDim S800000 (![0] : Fin 1 → Fin S800000.rank)
  bcast_S800000x1_S800000x128_0_1 : S800000x1.BroadcastsInDim S800000x128 (![0, 1] : Fin 2 → Fin S800000x128.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.KRun.lean ====
/-
  The idealized kernel program's run, with its result named.

  The program is three kernel launches among stretches of host operations.  The contents of every buffer at each
  boundary between two of these segments are a fold from the launch memory: a host stretch applies its operations in
  order, a launch replaces its output array by what its grid points write back and leaves every other buffer alone.
  Every weakly fair execution terminates in a state whose buffers hold the last boundary's contents; here that is
  read at the result buffer as well as at the arguments, which gives the result as a fold of the arguments.
-/
import proofs.«142639_j6081673691821_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates, nothing faulting, with
    the result buffer at the last boundary's contents and the argument arrays as launched. -/
theorem run_result : θ_run defs (onTc (τ := τ) (main (F := F))) ⟨m, fun _ => 0, ρ⟩ (fun r => ∀ c : Dev nD,
      r.2.mem ((c.tc : Thread nD τ).loc main_v91) = W10 m ρ c (Proc.devRef .tc main_v91)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v91 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

/-- The last launch's output array is the program's result buffer, so the result is what that launch's grid points
    leave in it, from the contents the launch is entered with. -/
theorem result_arr (c : Dev nD) :
    W10 m ρ c (Proc.devRef .tc main_v91) = (dat2 (V9 m ρ) c).arrAt 3 cfg2.N :=
  W10_arr m ρ c 3

end Cert.KernelIdeal.Whole

end
-- ==== Proof.RefLine.lean ====
/-
  The reference program as one straight line of host operations.

  The reference computes, on the host, three dense layers with an attention step after each of the first two:
  a layer is a matrix product with a 128 × 128 weight plus a bias row (followed by a maximum with zero in the
  first two layers); an attention step gathers the rows of its input named by the two index vectors, takes the
  inner product of each pair of rows, applies a leaky rectifier, normalises the 800000 scores by a softmax over
  all of them, weights the second row of each pair by its normalised score and adds the weighted rows into the
  rows named by the first index vector.  The functions the program calls (the rectifier, the leaky rectifier and
  the selection inside it) are written out at their calls over the buffers of each call, so that the whole
  program is a list of operations; the list is cut where a layer ends and where an attention step ends, so that
  each part can later be read by itself as a function of the buffer contents it starts from.
-/
import proofs.«142639_j6081673691821_2_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- The two index vectors cut out of the index array, then the first layer: product with the first weight, bias row added, maximum with zero. -/
abbrev layer0 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.reshape main_arg2 main_v4 rfl shapeCasts_S1x128x128_S128x128,
    StableHlo.binary main_arg0 main_v4 main_v5 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.reshape main_arg3 main_v6 rfl shapeCasts_S1x128_S128,
    StableHlo.unary main_v6 main_v7 (broadcastInDim S1x128 ![1] bcast_S128_S1x128_1 : (⟨S128, .f32⟩ : BufTy).Contents (Elt F) → (⟨S1x128, .f32⟩ : BufTy).Contents (Elt F)),
    StableHlo.unary main_v7 main_v8 (broadcastInDim S50000x128 ![0, 1] bcast_S1x128_S50000x128_0_1 : (⟨S1x128, .f32⟩ : BufTy).Contents (Elt F) → (⟨S50000x128, .f32⟩ : BufTy).Contents (Elt F)),
    StableHlo.binary main_v5 main_v8 main_v9 (addf : (⟨S50000x128, .f32⟩ : BufTy).Contents (Elt F) → (⟨S50000x128, .f32⟩ : BufTy).Contents (Elt F) → (⟨S50000x128, .f32⟩ : BufTy).Contents (Elt F)),
    StableHlo.TRef.nullary main_call0.cst (constant S_ .f32 0x00000000#32),
    StableHlo.TRef.unary main_call0.cst main_call0.v0 (broadcastInDim S50000x128 ![] bcast_S_S50000x128),
    StableHlo.TRef.binary (.of main_v9 : StableHlo.TRef sig ⟨S50000x128, .f32⟩) main_call0.v0 main_call0.v1 maximumf ]

/-- The first attention step, from the first layer's result and the two index vectors. -/
abbrev attend0 : List (HloOp τ sig (Elt F)) :=
  [ StableHlo.nullary main_c (constantI S_ 32 0#32),
    StableHlo.unary main_c main_v11 (broadcastInDim S800000 ![] bcast_S_S800000 : (⟨S_, .i32⟩ : BufTy).Contents (Elt F) → (⟨S800000, .i32⟩ : BufTy).Contents (Elt F)),
    StableHlo.binary main_v1 main_v11 main_v12 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v13 (broadcastInDim S800000 ![] bcast_S_S800000 : (⟨S_, .i32⟩ : BufTy).Contents (Elt F) → (⟨S800000, .i32⟩ : BufTy).Contents (Elt F)),
    StableHlo.binary main_v1 main_v13 main_v14 (addi : (⟨S800000, .i32⟩ : BufTy).Contents (Elt F) → (⟨S800000, .i32⟩ : BufTy).Contents (Elt F) → (⟨S800000, .i32⟩ : BufTy).Contents (Elt F)),
    StableHlo.ternary main_v12 main_v14 main_v1 main_v15 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v15 main_v16 (broadcastInDim S800000x1 ![0] bcast_S800000_S800000x1_0 : (⟨S800000, .i32⟩ : BufTy).Contents (Elt F) → (⟨S800000x1, .i32⟩ : BufTy).Contents (Elt F)),
    StableHlo.binary main_v10 main_v16 main_v17 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_c_1 (constantI S_ 32 0#32),
    StableHlo.unary main_c_1 main_v18 (broadcastInDim S800000 ![] bcast_S_S800000 : (⟨S_, .i32⟩ : BufTy).Contents (Elt F) → (⟨S800000, .i32⟩ : BufTy).Contents (Elt F)),
    StableHlo.binary main_v3 main_v18 main_v19 (cmpi .slt : (⟨S800000, .i32⟩ : BufTy).Contents (Elt F) → (⟨S800000, .i32⟩ : BufTy).Contents (Elt F) → (⟨S800000, .i1⟩ : BufTy).Contents (Elt F)),
    StableHlo.nullary main_c_2 (constantI S_ 32 50000#32),
    StableHlo.unary main_c_2 main_v20 (broadcastInDim S800000 ![] bcast_S_S800000 : (⟨S_, .i32⟩ : BufTy).Contents (Elt F) → (⟨S800000, .i32⟩ : BufTy).Contents (Elt F)),
    StableHlo.binary main_v3 main_v20 main_v21 (addi : (⟨S800000, .i32⟩ : BufTy).Contents (Elt F) → (⟨S800000, .i32⟩ : BufTy).Contents (Elt F) → (⟨S800000, .i32⟩ : BufTy).Contents (Elt F)),
    StableHlo.ternary main_v19 main_v21 main_v3 main_v22 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v22 main_v23 (broadcastInDim S800000x1 ![0] bcast_S800000_S800000x1_0 : (⟨S800000, .i32⟩ : BufTy).Contents (Elt F) → (⟨S800000x1, .i32⟩ : BufTy).Contents (Elt F)),
    StableHlo.binary main_v10 main_v23 main_v24 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.binary main_v17 main_v24 main_v25 (mulf : (⟨S800000x128, .f32⟩ : BufTy).Contents (Elt F) → (⟨S800000x128, .f32⟩ : BufTy).Contents (Elt F) → (⟨S800000x128, .f32⟩ : BufTy).Contents (Elt F)),
    StableHlo.nullary main_cst (constant S_ .f32 0x00000000#32),
    StableHlo.binary main_v25 main_cst main_v26 ((fun x v => Host.reduceAdd x v reducesTo_S800000x128_S800000_d1 h_S_) : (⟨S800000x128, .f32⟩ : BufTy).Contents (Elt F) → (⟨S_, .f32⟩ : BufTy).Contents (Elt F) → (⟨S800000, .f32⟩ : BufTy).Contents (Elt F)),
    StableHlo.nullary main_cst_3 (constant S_ .f32 0x3E4CCCCD#32),
    StableHlo.TRef.nullary main_call1.cst (constant S_ .f32 0x00000000#32),
    StableHlo.TRef.unary main_call1.cst main_call1.v0 (broadcastInDim S800000 ![] bcast_S_S800000),
    StableHlo.TRef.binary (.of main_v26 : StableHlo.TRef sig ⟨S800000, .f32⟩) main_call1.v0 main_call1.v1 (cmpf .oge),
    StableHlo.TRef.unary (.of main_cst_3 : StableHlo.TRef sig ⟨S_, .f32⟩) main_call1.v2 id,
    StableHlo.TRef.unary main_call1.v2 main_call1.v3 (broadcastInDim S800000 ![] bcast_S_S800000),
    StableHlo.TRef.binary main_call1.v3 (.of main_v26 : StableHlo.TRef sig ⟨S800000, .f32⟩) main_call1.v4 mulf,
    StableHlo.TRef.ternary main_call1.v1 (.of main_v26 : StableHlo.TRef sig ⟨S800000, .f32⟩) main_call1.v4 main_call1.call0.v0 select,
    StableHlo.nullary main_cst_4 (constant S_ .f32 0xFF800000#32),
    StableHlo.binary main_v27 main_cst_4 main_v28 ((fun x v => Host.reduce FloatOps.maximumf x v reducesTo_S800000_S_d0 h_S_) : (⟨S800000, .f32⟩ : BufTy).Contents (Elt F) → (⟨S_, .f32⟩ : BufTy).Contents (Elt F) → (⟨S_, .f32⟩ : BufTy).Contents (Elt F)),
    StableHlo.nullary main_cst_5 (constant S_ .f32 0xFF800000#32),
    StableHlo.binary main_cst_5 main_v28 main_v29 (maximumf : (⟨S_, .f32⟩ : BufTy).Contents (Elt F) → (⟨S_, .f32⟩ : BufTy).Contents (Elt F) → (⟨S_, .f32⟩ : BufTy).Contents (Elt F)),
    StableHlo.unary main_v29 main_v30 (broadcastInDim S1 ![] bcast_S_S1 : (⟨S_, .f32⟩ : BufTy).Contents (Elt F) → (⟨S1, .f32⟩ : BufTy).Contents (Elt F)),
    StableHlo.unary main_v30 main_v31 (broadcastInDim S800000 ![0] bcast_S1_S800000_0 : (⟨S1, .f32⟩ : BufTy).Contents (Elt F) → (⟨S800000, .f32⟩ : BufTy).Contents (Elt F)),
    StableHlo.binary main_v27 main_v31 main_v32 (subf : (⟨S800000, .f32⟩ : BufTy).Contents (Elt F) → (⟨S800000, .f32⟩ : BufTy).Contents (Elt F) → (⟨S800000, .f32⟩ : BufTy).Contents (Elt F)),
    StableHlo.unary main_v32 main_v33 (Host.exp : (⟨S800000, .f32⟩ : BufTy).Contents (Elt F) → (⟨S800000, .f32⟩ : BufTy).Contents (Elt F)),
    StableHlo.nullary main_cst_6 (constant S_ .f32 0x00000000#32),
    StableHlo.binary main_v33 main_cst_6 main_v34 ((fun x v => Host.reduceAdd x v reducesTo_S800000_S_d0 h_S_) : (⟨S800000, .f32⟩ : BufTy).Contents (Elt F) → (⟨S_, .f32⟩ : BufTy).Contents (Elt F) → (⟨S_, .f32⟩ : BufTy).Contents (Elt F)),
    StableHlo.unary main_v34 main_v35 (broadcastInDim S1 ![] bcast_S_S1 : (⟨S_, .f32⟩ : BufTy).Contents (Elt F) → (⟨S1, .f32⟩ : BufTy).Contents (Elt F)),
    StableHlo.unary main_v35 main_v36 (broadcastInDim S800000 ![0] bcast_S1_S800000_0 : (⟨S1, .f32⟩ : BufTy).Contents (Elt F) → (⟨S800000, .f32⟩ : BufTy).Contents (Elt F)),
    StableHlo.binary main_v33 main_v36 main_v37 (Host.divf : (⟨S800000, .f32⟩ : BufTy).Contents (Elt F) → (⟨S800000, .f32⟩ : BufTy).Contents (Elt F) → (⟨S800000, .f32⟩ : BufTy).Contents (Elt F)),
    StableHlo.unary main_v37 main_v38 (broadcastInDim S800000x1 ![0] bcast_S800000_S800000x1_0 : (⟨S800000, .f32⟩ : BufTy).Contents (Elt F) → (⟨S800000x1, .f32⟩ : BufTy).Contents (Elt F)),
    StableHlo.nullary main_c_7 (constantI S_ 32 0#32),
    StableHlo.unary main_c_7 main_v39 (broadcastInDim S800000 ![] bcast_S_S800000 : (⟨S_, .i32⟩ : BufTy).Contents (Elt F) → (⟨S800000, .i32⟩ : BufTy).Contents (Elt F)),
    StableHlo.binary main_v3 main_v39 main_v40 (cmpi .slt : (⟨S800000, .i32⟩ : BufTy).Contents (Elt F) → (⟨S800000, .i32⟩ : BufTy).Contents (Elt F) → (⟨S800000, .i1⟩ : BufTy).Contents (Elt F)),
    StableHlo.nullary main_c_8 (constantI S_ 32 50000#32),
    StableHlo.unary main_c_8 main_v41 (broadcastInDim S800000 ![] bcast_S_S800000 : (⟨S_, .i32⟩ : BufTy).Contents (Elt F) → (⟨S800000, .i32⟩ : BufTy).Contents (Elt F)),
    StableHlo.binary main_v3 main_v41 main_v42 (addi : (⟨S800000, .i32⟩ : BufTy).Contents (Elt F) → (⟨S800000, .i32⟩ : BufTy).Contents (Elt F) → (⟨S800000, .i32⟩ : BufTy).Contents (Elt F)),
    StableHlo.ternary main_v40 main_v42 main_v3 main_v43 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v43 main_v44 (broadcastInDim S800000x1 ![0] bcast_S800000_S800000x1_0 : (⟨S800000, .i32⟩ : BufTy).Contents (Elt F) → (⟨S800000x1, .i32⟩ : BufTy).Contents (Elt F)),
    StableHlo.binary main_v10 main_v44 main_v45 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_v38 main_v46 (broadcastInDim S800000x128 ![0, 1] bcast_S800000x1_S800000x128_0_1 : (⟨S800000x1, .f32⟩ : BufTy).Contents (Elt F) → (⟨S800000x128, .f32⟩ : BufTy).Contents (Elt F)),
    StableHlo.binary main_v46 main_v45 main_v47 (mulf : (⟨S800000x128, .f32⟩ : BufTy).Contents (Elt F) → (⟨S800000x128, .f32⟩ : BufTy).Contents (Elt F) → (⟨S800000x128, .f32⟩ : BufTy).Contents (Elt F)),
    StableHlo.nullary main_cst_9 (constant S_ .f32 0x00000000#32),
    StableHlo.unary main_cst_9 main_v48 (broadcastInDim S50000x128 ![] bcast_S_S50000x128 : (⟨S_, .f32⟩ : BufTy).Contents (Elt F) → (⟨S50000x128, .f32⟩ : BufTy).Contents (Elt F)),
    StableHlo.unary main_v1 main_v49 (broadcastInDim S800000x1 ![0] bcast_S800000_S800000x1_0 : (⟨S800000, .i32⟩ : BufTy).Contents (Elt F) → (⟨S800000x1, .i32⟩ : BufTy).Contents (Elt F)),
    StableHlo.ternary main_v48 main_v49 main_v47 main_v50 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ]

/-- The second layer: product with the second weight, bias row added, maximum with zero. -/
abbrev layer1 : List (HloOp τ sig (Elt F)) :=
  [ StableHlo.reshape main_arg4 main_v51 rfl shapeCasts_S1x128x128_S128x128,
    StableHlo.binary main_v50 main_v51 main_v52 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.reshape main_arg5 main_v53 rfl shapeCasts_S1x128_S128,
    StableHlo.unary main_v53 main_v54 (broadcastInDim S1x128 ![1] bcast_S128_S1x128_1 : (⟨S128, .f32⟩ : BufTy).Contents (Elt F) → (⟨S1x128, .f32⟩ : BufTy).Contents (Elt F)),
    StableHlo.unary main_v54 main_v55 (broadcastInDim S50000x128 ![0, 1] bcast_S1x128_S50000x128_0_1 : (⟨S1x128, .f32⟩ : BufTy).Contents (Elt F) → (⟨S50000x128, .f32⟩ : BufTy).Contents (Elt F)),
    StableHlo.binary main_v52 main_v55 main_v56 (addf : (⟨S50000x128, .f32⟩ : BufTy).Contents (Elt F) → (⟨S50000x128, .f32⟩ : BufTy).Contents (Elt F) → (⟨S50000x128, .f32⟩ : BufTy).Contents (Elt F)),
    StableHlo.TRef.nullary main_call2.cst (constant S_ .f32 0x00000000#32),
    StableHlo.TRef.unary main_call2.cst main_call2.v0 (broadcastInDim S50000x128 ![] bcast_S_S50000x128),
    StableHlo.TRef.binary (.of main_v56 : StableHlo.TRef sig ⟨S50000x128, .f32⟩) main_call2.v0 main_call2.v1 maximumf ]

/-- The second attention step, from the second layer's result and the two index vectors. -/
abbrev attend1 : List (HloOp τ sig (Elt F)) :=
  [ StableHlo.nullary main_c_10 (constantI S_ 32 0#32),
    StableHlo.unary main_c_10 main_v58 (broadcastInDim S800000 ![] bcast_S_S800000 : (⟨S_, .i32⟩ : BufTy).Contents (Elt F) → (⟨S800000, .i32⟩ : BufTy).Contents (Elt F)),
    StableHlo.binary main_v1 main_v58 main_v59 (cmpi .slt : (⟨S800000, .i32⟩ : BufTy).Contents (Elt F) → (⟨S800000, .i32⟩ : BufTy).Contents (Elt F) → (⟨S800000, .i1⟩ : BufTy).Contents (Elt F)),
    StableHlo.nullary main_c_11 (constantI S_ 32 50000#32),
    StableHlo.unary main_c_11 main_v60 (broadcastInDim S800000 ![] bcast_S_S800000 : (⟨S_, .i32⟩ : BufTy).Contents (Elt F) → (⟨S800000, .i32⟩ : BufTy).Contents (Elt F)),
    StableHlo.binary main_v1 main_v60 main_v61 (addi : (⟨S800000, .i32⟩ : BufTy).Contents (Elt F) → (⟨S800000, .i32⟩ : BufTy).Contents (Elt F) → (⟨S800000, .i32⟩ : BufTy).Contents (Elt F)),
    StableHlo.ternary main_v59 main_v61 main_v1 main_v62 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v62 main_v63 (broadcastInDim S800000x1 ![0] bcast_S800000_S800000x1_0 : (⟨S800000, .i32⟩ : BufTy).Contents (Elt F) → (⟨S800000x1, .i32⟩ : BufTy).Contents (Elt F)),
    StableHlo.binary main_v57 main_v63 main_v64 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_c_12 (constantI S_ 32 0#32),
    StableHlo.unary main_c_12 main_v65 (broadcastInDim S800000 ![] bcast_S_S800000 : (⟨S_, .i32⟩ : BufTy).Contents (Elt F) → (⟨S800000, .i32⟩ : BufTy).Contents (Elt F)),
    StableHlo.binary main_v3 main_v65 main_v66 (cmpi .slt : (⟨S800000, .i32⟩ : BufTy).Contents (Elt F) → (⟨S800000, .i32⟩ : BufTy).Contents (Elt F) → (⟨S800000, .i1⟩ : BufTy).Contents (Elt F)),
    StableHlo.nullary main_c_13 (constantI S_ 32 50000#32),
    StableHlo.unary main_c_13 main_v67 (broadcastInDim S800000 ![] bcast_S_S800000 : (⟨S_, .i32⟩ : BufTy).Contents (Elt F) → (⟨S800000, .i32⟩ : BufTy).Contents (Elt F)),
    StableHlo.binary main_v3 main_v67 main_v68 (addi : (⟨S800000, .i32⟩ : BufTy).Contents (Elt F) → (⟨S800000, .i32⟩ : BufTy).Contents (Elt F) → (⟨S800000, .i32⟩ : BufTy).Contents (Elt F)),
    StableHlo.ternary main_v66 main_v68 main_v3 main_v69 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v69 main_v70 (broadcastInDim S800000x1 ![0] bcast_S800000_S800000x1_0 : (⟨S800000, .i32⟩ : BufTy).Contents (Elt F) → (⟨S800000x1, .i32⟩ : BufTy).Contents (Elt F)),
    StableHlo.binary main_v57 main_v70 main_v71 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.binary main_v64 main_v71 main_v72 (mulf : (⟨S800000x128, .f32⟩ : BufTy).Contents (Elt F) → (⟨S800000x128, .f32⟩ : BufTy).Contents (Elt F) → (⟨S800000x128, .f32⟩ : BufTy).Contents (Elt F)),
    StableHlo.nullary main_cst_14 (constant S_ .f32 0x00000000#32),
    StableHlo.binary main_v72 main_cst_14 main_v73 ((fun x v => Host.reduceAdd x v reducesTo_S800000x128_S800000_d1 h_S_) : (⟨S800000x128, .f32⟩ : BufTy).Contents (Elt F) → (⟨S_, .f32⟩ : BufTy).Contents (Elt F) → (⟨S800000, .f32⟩ : BufTy).Contents (Elt F)),
    StableHlo.nullary main_cst_15 (constant S_ .f32 0x3E4CCCCD#32),
    StableHlo.TRef.nullary main_call3.cst (constant S_ .f32 0x00000000#32),
    StableHlo.TRef.unary main_call3.cst main_call3.v0 (broadcastInDim S800000 ![] bcast_S_S800000),
    StableHlo.TRef.binary (.of main_v73 : StableHlo.TRef sig ⟨S800000, .f32⟩) main_call3.v0 main_call3.v1 (cmpf .oge),
    StableHlo.TRef.unary (.of main_cst_15 : StableHlo.TRef sig ⟨S_, .f32⟩) main_call3.v2 id,
    StableHlo.TRef.unary main_call3.v2 main_call3.v3 (broadcastInDim S800000 ![] bcast_S_S800000),
    StableHlo.TRef.binary main_call3.v3 (.of main_v73 : StableHlo.TRef sig ⟨S800000, .f32⟩) main_call3.v4 mulf,
    StableHlo.TRef.ternary main_call3.v1 (.of main_v73 : StableHlo.TRef sig ⟨S800000, .f32⟩) main_call3.v4 main_call3.call0.v0 select,
    StableHlo.nullary main_cst_16 (constant S_ .f32 0xFF800000#32),
    StableHlo.binary main_v74 main_cst_16 main_v75 ((fun x v => Host.reduce FloatOps.maximumf x v reducesTo_S800000_S_d0 h_S_) : (⟨S800000, .f32⟩ : BufTy).Contents (Elt F) → (⟨S_, .f32⟩ : BufTy).Contents (Elt F) → (⟨S_, .f32⟩ : BufTy).Contents (Elt F)),
    StableHlo.nullary main_cst_17 (constant S_ .f32 0xFF800000#32),
    StableHlo.binary main_cst_17 main_v75 main_v76 (maximumf : (⟨S_, .f32⟩ : BufTy).Contents (Elt F) → (⟨S_, .f32⟩ : BufTy).Contents (Elt F) → (⟨S_, .f32⟩ : BufTy).Contents (Elt F)),
    StableHlo.unary main_v76 main_v77 (broadcastInDim S1 ![] bcast_S_S1 : (⟨S_, .f32⟩ : BufTy).Contents (Elt F) → (⟨S1, .f32⟩ : BufTy).Contents (Elt F)),
    StableHlo.unary main_v77 main_v78 (broadcastInDim S800000 ![0] bcast_S1_S800000_0 : (⟨S1, .f32⟩ : BufTy).Contents (Elt F) → (⟨S800000, .f32⟩ : BufTy).Contents (Elt F)),
    StableHlo.binary main_v74 main_v78 main_v79 (subf : (⟨S800000, .f32⟩ : BufTy).Contents (Elt F) → (⟨S800000, .f32⟩ : BufTy).Contents (Elt F) → (⟨S800000, .f32⟩ : BufTy).Contents (Elt F)),
    StableHlo.unary main_v79 main_v80 (Host.exp : (⟨S800000, .f32⟩ : BufTy).Contents (Elt F) → (⟨S800000, .f32⟩ : BufTy).Contents (Elt F)),
    StableHlo.nullary main_cst_18 (constant S_ .f32 0x00000000#32),
    StableHlo.binary main_v80 main_cst_18 main_v81 ((fun x v => Host.reduceAdd x v reducesTo_S800000_S_d0 h_S_) : (⟨S800000, .f32⟩ : BufTy).Contents (Elt F) → (⟨S_, .f32⟩ : BufTy).Contents (Elt F) → (⟨S_, .f32⟩ : BufTy).Contents (Elt F)),
    StableHlo.unary main_v81 main_v82 (broadcastInDim S1 ![] bcast_S_S1 : (⟨S_, .f32⟩ : BufTy).Contents (Elt F) → (⟨S1, .f32⟩ : BufTy).Contents (Elt F)),
    StableHlo.unary main_v82 main_v83 (broadcastInDim S800000 ![0] bcast_S1_S800000_0 : (⟨S1, .f32⟩ : BufTy).Contents (Elt F) → (⟨S800000, .f32⟩ : BufTy).Contents (Elt F)),
    StableHlo.binary main_v80 main_v83 main_v84 (Host.divf : (⟨S800000, .f32⟩ : BufTy).Contents (Elt F) → (⟨S800000, .f32⟩ : BufTy).Contents (Elt F) → (⟨S800000, .f32⟩ : BufTy).Contents (Elt F)),
    StableHlo.unary main_v84 main_v85 (broadcastInDim S800000x1 ![0] bcast_S800000_S800000x1_0 : (⟨S800000, .f32⟩ : BufTy).Contents (Elt F) → (⟨S800000x1, .f32⟩ : BufTy).Contents (Elt F)),
    StableHlo.nullary main_c_19 (constantI S_ 32 0#32),
    StableHlo.unary main_c_19 main_v86 (broadcastInDim S800000 ![] bcast_S_S800000 : (⟨S_, .i32⟩ : BufTy).Contents (Elt F) → (⟨S800000, .i32⟩ : BufTy).Contents (Elt F)),
    StableHlo.binary main_v3 main_v86 main_v87 (cmpi .slt : (⟨S800000, .i32⟩ : BufTy).Contents (Elt F) → (⟨S800000, .i32⟩ : BufTy).Contents (Elt F) → (⟨S800000, .i1⟩ : BufTy).Contents (Elt F)),
    StableHlo.nullary main_c_20 (constantI S_ 32 50000#32),
    StableHlo.unary main_c_20 main_v88 (broadcastInDim S800000 ![] bcast_S_S800000 : (⟨S_, .i32⟩ : BufTy).Contents (Elt F) → (⟨S800000, .i32⟩ : BufTy).Contents (Elt F)),
    StableHlo.binary main_v3 main_v88 main_v89 (addi : (⟨S800000, .i32⟩ : BufTy).Contents (Elt F) → (⟨S800000, .i32⟩ : BufTy).Contents (Elt F) → (⟨S800000, .i32⟩ : BufTy).Contents (Elt F)),
    StableHlo.ternary main_v87 main_v89 main_v3 main_v90 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v90 main_v91 (broadcastInDim S800000x1 ![0] bcast_S800000_S800000x1_0 : (⟨S800000, .i32⟩ : BufTy).Contents (Elt F) → (⟨S800000x1, .i32⟩ : BufTy).Contents (Elt F)),
    StableHlo.binary main_v57 main_v91 main_v92 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_v85 main_v93 (broadcastInDim S800000x128 ![0, 1] bcast_S800000x1_S800000x128_0_1 : (⟨S800000x1, .f32⟩ : BufTy).Contents (Elt F) → (⟨S800000x128, .f32⟩ : BufTy).Contents (Elt F)),
    StableHlo.binary main_v93 main_v92 main_v94 (mulf : (⟨S800000x128, .f32⟩ : BufTy).Contents (Elt F) → (⟨S800000x128, .f32⟩ : BufTy).Contents (Elt F) → (⟨S800000x128, .f32⟩ : BufTy).Contents (Elt F)),
    StableHlo.nullary main_cst_21 (constant S_ .f32 0x00000000#32),
    StableHlo.unary main_cst_21 main_v95 (broadcastInDim S50000x128 ![] bcast_S_S50000x128 : (⟨S_, .f32⟩ : BufTy).Contents (Elt F) → (⟨S50000x128, .f32⟩ : BufTy).Contents (Elt F)),
    StableHlo.unary main_v1 main_v96 (broadcastInDim S800000x1 ![0] bcast_S800000_S800000x1_0 : (⟨S800000, .i32⟩ : BufTy).Contents (Elt F) → (⟨S800000x1, .i32⟩ : BufTy).Contents (Elt F)),
    StableHlo.ternary main_v95 main_v96 main_v94 main_v97 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ]

/-- The last layer: product with the third weight, bias row added. -/
abbrev layer2 : List (HloOp τ sig (Elt F)) :=
  [ StableHlo.binary main_v97 main_arg6 main_v98 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg7 main_v99 (broadcastInDim S1x128 ![1] bcast_S128_S1x128_1 : (⟨S128, .f32⟩ : BufTy).Contents (Elt F) → (⟨S1x128, .f32⟩ : BufTy).Contents (Elt F)),
    StableHlo.unary main_v99 main_v100 (broadcastInDim S50000x128 ![0, 1] bcast_S1x128_S50000x128_0_1 : (⟨S1x128, .f32⟩ : BufTy).Contents (Elt F) → (⟨S50000x128, .f32⟩ : BufTy).Contents (Elt F)),
    StableHlo.binary main_v98 main_v100 main_v101 (addf : (⟨S50000x128, .f32⟩ : BufTy).Contents (Elt F) → (⟨S50000x128, .f32⟩ : BufTy).Contents (Elt F) → (⟨S50000x128, .f32⟩ : BufTy).Contents (Elt F)) ]

/-- The whole program: the five parts in order. -/
abbrev ops : List (HloOp τ sig (Elt F)) := layer0 ++ (attend0 ++ (layer1 ++ (attend1 ++ layer2)))

theorem layer0_sub : (layer0 : List (HloOp τ sig (Elt F))).Forall fun op => op.bufs ⊆ tcRefs τ sig :=
  ⟨unary_bufs_sub .., reshape_bufs_sub .., unary_bufs_sub .., reshape_bufs_sub .., reshape_bufs_sub .., binary_bufs_sub .., reshape_bufs_sub .., unary_bufs_sub .., unary_bufs_sub .., binary_bufs_sub .., nullary_bufs_sub .., unary_bufs_sub .., binary_bufs_sub ..⟩

theorem attend0_sub : (attend0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., nullary_bufs_sub .., nullary_bufs_sub .., unary_bufs_sub .., binary_bufs_sub .., unary_bufs_sub .., unary_bufs_sub .., binary_bufs_sub .., ternary_bufs_sub .., nullary_bufs_sub .., binary_bufs_sub .., nullary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩

theorem layer1_sub : (layer1 : List (HloOp τ sig (Elt F))).Forall fun op => op.bufs ⊆ tcRefs τ sig :=
  ⟨reshape_bufs_sub .., binary_bufs_sub .., reshape_bufs_sub .., unary_bufs_sub .., unary_bufs_sub .., binary_bufs_sub .., nullary_bufs_sub .., unary_bufs_sub .., binary_bufs_sub ..⟩

theorem attend1_sub : (attend1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., nullary_bufs_sub .., nullary_bufs_sub .., unary_bufs_sub .., binary_bufs_sub .., unary_bufs_sub .., unary_bufs_sub .., binary_bufs_sub .., ternary_bufs_sub .., nullary_bufs_sub .., binary_bufs_sub .., nullary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩

theorem layer2_sub : (layer2 : List (HloOp τ sig (Elt F))).Forall fun op => op.bufs ⊆ tcRefs τ sig :=
  ⟨binary_bufs_sub .., unary_bufs_sub .., unary_bufs_sub .., binary_bufs_sub ..⟩

theorem ops_sub : (ops : List (HloOp τ sig (Elt F))).Forall fun op => op.bufs ⊆ tcRefs τ sig := by
  simp only [ops, List.forall_append]
  exact ⟨layer0_sub, attend0_sub, layer1_sub, attend1_sub, layer2_sub⟩

theorem layer0_fresh : (layer0 : List (HloOp τ sig (Elt F))).Forall fun op => op.fresh = ∅ := by
  simp only [List.Forall]; repeat' constructor
theorem attend0_fresh : (attend0 : List (HloOp τ sig (Elt F))).Forall fun op => op.fresh = ∅ := by
  simp only [List.Forall]; repeat' constructor
theorem layer1_fresh : (layer1 : List (HloOp τ sig (Elt F))).Forall fun op => op.fresh = ∅ := by
  simp only [List.Forall]; repeat' constructor
theorem attend1_fresh : (attend1 : List (HloOp τ sig (Elt F))).Forall fun op => op.fresh = ∅ := by
  simp only [List.Forall]; repeat' constructor
theorem layer2_fresh : (layer2 : List (HloOp τ sig (Elt F))).Forall fun op => op.fresh = ∅ := by
  simp only [List.Forall]; repeat' constructor

/-- No operation of the line allocates a buffer. -/
theorem ops_fresh : ∀ op ∈ (ops : List (HloOp τ sig (Elt F))), op.fresh = ∅ := by
  refine List.forall_iff_forall_mem.mp ?_
  simp only [ops, List.forall_append]
  exact ⟨layer0_fresh, attend0_fresh, layer1_fresh, attend1_fresh, layer2_fresh⟩

set_option maxRecDepth 8192 in
/-- The program is that line: with the called functions' bodies put in place of the calls and sequencing
    reassociated, both sides are the same chain of steps. -/
theorem main_eq (c : Dev nD) : main (F := F) c = seq ops := by
  simp only [main, main_part0, main_part1, main_part2, fn_relu.body, fn_leaky_relu.body, fn_where.body, seq, ops, layer0, attend0,
    layer1, attend1, layer2, List.cons_append, List.nil_append, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- From any memory with zero counters every weakly fair execution of the reference terminates, and every final
    state has each buffer at the contents the operations leave, in order, from the launch contents. -/
theorem run_line (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.Line

end
-- ==== Proof.RefFrame.lean ====
/-
  The reference never writes an argument.

  No operation of the reference's line writes one of the eight argument buffers — every operation writes the buffer of
  the value it defines —, so each argument holds, after the whole line, what it held at the launch.
-/
import proofs.«142639_j6081673691821_2_alg».proof.Proof.RefLine

set_option maxRecDepth 8192

noncomputable section

namespace Cert.ReferenceIdeal.Line

open Cert.ReferenceIdeal Cert.ReferenceIdeal.Gen Idealize.ShloMosaic Idealize.ShloMosaic.TcCoe Idealize.ShloMosaic.StableHlo

variable {F : FTy → Type} [FloatOps F]

/-- Argument 0 is as launched after the whole line. -/
theorem ops_keep_arg0 (U : Valuation τ sig (Elt F)) : after (ops (F := F)) U (Proc.devRef .tc main_arg0) = U (Proc.devRef .tc main_arg0) :=
  after_of_forall_not_mem (b := Proc.devRef .tc main_arg0) _ _ (List.forall_iff_forall_mem.mp (by
    simp only [ops, layer0, attend0, layer1, attend1, layer2, List.cons_append, List.nil_append, List.Forall, nullary_writes,
      unary_writes, binary_writes, ternary_writes, quaternary_writes, reshape_writes, binaryIndexed_writes, Finset.mem_singleton]
    repeat' apply And.intro
    all_goals exact devRef_ne_of_ne (by decide)))

/-- Argument 1 is as launched after the whole line. -/
theorem ops_keep_arg1 (U : Valuation τ sig (Elt F)) : after (ops (F := F)) U (Proc.devRef .tc main_arg1) = U (Proc.devRef .tc main_arg1) :=
  after_of_forall_not_mem (b := Proc.devRef .tc main_arg1) _ _ (List.forall_iff_forall_mem.mp (by
    simp only [ops, layer0, attend0, layer1, attend1, layer2, List.cons_append, List.nil_append, List.Forall, nullary_writes,
      unary_writes, binary_writes, ternary_writes, quaternary_writes, reshape_writes, binaryIndexed_writes, Finset.mem_singleton]
    repeat' apply And.intro
    all_goals exact devRef_ne_of_ne (by decide)))

/-- Argument 2 is as launched after the whole line. -/
theorem ops_keep_arg2 (U : Valuation τ sig (Elt F)) : after (ops (F := F)) U (Proc.devRef .tc main_arg2) = U (Proc.devRef .tc main_arg2) :=
  after_of_forall_not_mem (b := Proc.devRef .tc main_arg2) _ _ (List.forall_iff_forall_mem.mp (by
    simp only [ops, layer0, attend0, layer1, attend1, layer2, List.cons_append, List.nil_append, List.Forall, nullary_writes,
      unary_writes, binary_writes, ternary_writes, quaternary_writes, reshape_writes, binaryIndexed_writes, Finset.mem_singleton]
    repeat' apply And.intro
    all_goals exact devRef_ne_of_ne (by decide)))

/-- Argument 3 is as launched after the whole line. -/
theorem ops_keep_arg3 (U : Valuation τ sig (Elt F)) : after (ops (F := F)) U (Proc.devRef .tc main_arg3) = U (Proc.devRef .tc main_arg3) :=
  after_of_forall_not_mem (b := Proc.devRef .tc main_arg3) _ _ (List.forall_iff_forall_mem.mp (by
    simp only [ops, layer0, attend0, layer1, attend1, layer2, List.cons_append, List.nil_append, List.Forall, nullary_writes,
      unary_writes, binary_writes, ternary_writes, quaternary_writes, reshape_writes, binaryIndexed_writes, Finset.mem_singleton]
    repeat' apply And.intro
    all_goals exact devRef_ne_of_ne (by decide)))

/-- Argument 4 is as launched after the whole line. -/
theorem ops_keep_arg4 (U : Valuation τ sig (Elt F)) : after (ops (F := F)) U (Proc.devRef .tc main_arg4) = U (Proc.devRef .tc main_arg4) :=
  after_of_forall_not_mem (b := Proc.devRef .tc main_arg4) _ _ (List.forall_iff_forall_mem.mp (by
    simp only [ops, layer0, attend0, layer1, attend1, layer2, List.cons_append, List.nil_append, List.Forall, nullary_writes,
      unary_writes, binary_writes, ternary_writes, quaternary_writes, reshape_writes, binaryIndexed_writes, Finset.mem_singleton]
    repeat' apply And.intro
    all_goals exact devRef_ne_of_ne (by decide)))

/-- Argument 5 is as launched after the whole line. -/
theorem ops_keep_arg5 (U : Valuation τ sig (Elt F)) : after (ops (F := F)) U (Proc.devRef .tc main_arg5) = U (Proc.devRef .tc main_arg5) :=
  after_of_forall_not_mem (b := Proc.devRef .tc main_arg5) _ _ (List.forall_iff_forall_mem.mp (by
    simp only [ops, layer0, attend0, layer1, attend1, layer2, List.cons_append, List.nil_append, List.Forall, nullary_writes,
      unary_writes, binary_writes, ternary_writes, quaternary_writes, reshape_writes, binaryIndexed_writes, Finset.mem_singleton]
    repeat' apply And.intro
    all_goals exact devRef_ne_of_ne (by decide)))

/-- Argument 6 is as launched after the whole line. -/
theorem ops_keep_arg6 (U : Valuation τ sig (Elt F)) : after (ops (F := F)) U (Proc.devRef .tc main_arg6) = U (Proc.devRef .tc main_arg6) :=
  after_of_forall_not_mem (b := Proc.devRef .tc main_arg6) _ _ (List.forall_iff_forall_mem.mp (by
    simp only [ops, layer0, attend0, layer1, attend1, layer2, List.cons_append, List.nil_append, List.Forall, nullary_writes,
      unary_writes, binary_writes, ternary_writes, quaternary_writes, reshape_writes, binaryIndexed_writes, Finset.mem_singleton]
    repeat' apply And.intro
    all_goals exact devRef_ne_of_ne (by decide)))

/-- Argument 7 is as launched after the whole line. -/
theorem ops_keep_arg7 (U : Valuation τ sig (Elt F)) : after (ops (F := F)) U (Proc.devRef .tc main_arg7) = U (Proc.devRef .tc main_arg7) :=
  after_of_forall_not_mem (b := Proc.devRef .tc main_arg7) _ _ (List.forall_iff_forall_mem.mp (by
    simp only [ops, layer0, attend0, layer1, attend1, layer2, List.cons_append, List.nil_append, List.Forall, nullary_writes,
      unary_writes, binary_writes, ternary_writes, quaternary_writes, reshape_writes, binaryIndexed_writes, Finset.mem_singleton]
    repeat' apply And.intro
    all_goals exact devRef_ne_of_ne (by decide)))

end Cert.ReferenceIdeal.Line

end
-- ==== Proof.LibDense.lean ====
/-
  A dense layer read entry by entry, at the exact (extended-real) values.

  A dense layer takes an M × K array x, a K × N weight W and a bias of length N and returns the M × N array whose
  (p, q) entry is  Σ_c x(p, c) · W(c, q) + bias(q).  A kernel computes it on a block of rows with its matrix unit
  (a product accumulated into zeros) and adds the bias laid out as a 1 × N row repeated down the block; a host
  program computes it with a general product of the whole arrays and adds the bias laid out first as a 1 × N row
  and then as an M × N array.  Here both are read at an entry as that one expression, the sum running over the
  contracted coordinate itself.  Also here: a leading axis of extent one dropped or added reads at an entry as the
  same array at the entry with that coordinate left out or set to zero.
-/
import Idealize.ShloMosaic.Lib.ValueIdx
import Idealize.ShloMosaic.Lib.Pipeline.Value
import Idealize.ShloMosaic.Lib.StackMember
import Idealize.ShloMosaic.PureOps.Ideal.Laws

noncomputable section

namespace Cert.Lib.Dense

open Idealize.ShloMosaic Idealize.ShloMosaic.ValueIdx
open scoped BigOperators

variable {M K N : Nat}

/-- Entry (p, q) of x · W with the bias β added to every row:  Σ_c x(p, c) · W(c, q) + β(q). -/
def denseAt (x : (⟨2, ![M, K]⟩ : Shape).Idx → EReal) (W : (⟨2, ![K, N]⟩ : Shape).Idx → EReal) (β : Fin N → EReal)
    (p : Fin M) (q : Fin N) : EReal :=
  (∑ c : Fin K, x (ix2 p c) * W (ix2 c q)) + β q

/-- The M × N array of those entries. -/
def dense (x : (⟨2, ![M, K]⟩ : Shape).Idx → EReal) (W : (⟨2, ![K, N]⟩ : Shape).Idx → EReal) (β : Fin N → EReal) :
    (⟨2, ![M, N]⟩ : Shape).Idx → EReal :=
  fun i => denseAt x W β (i 0) (i 1)

theorem dense_ix2 (x : (⟨2, ![M, K]⟩ : Shape).Idx → EReal) (W : (⟨2, ![K, N]⟩ : Shape).Idx → EReal) (β : Fin N → EReal)
    (p : Fin M) (q : Fin N) : dense x W β (ix2 p q) = denseAt x W β p q := rfl

/-- The product of an M × K by a K × N matrix accumulated into zeros, at (a, b), is the sum over the contracted
    coordinate of the products of the entries. -/
theorem matmul_plain_zero_apply {φ₁ φ₂ : FTy} (prec : Option ContractPrecision)
    (A : FVec Ideal ⟨2, ![M, K]⟩ φ₁) (B : FVec Ideal ⟨2, ![K, N]⟩ φ₂) (a : Fin M) (b : Fin N) :
    FloatOps.matmul (DotDims.plain M K N) prec A B (constant (F := Ideal) ⟨2, ![M, N]⟩ .f32 0x00000000#32) (ix2 a b)
      = ∑ c : Fin K, A (ix2 a c) * B (ix2 c b) := by
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

/-- A 1 × N row repeated down M rows (a vector broadcast), at (p, q), is the row at q. -/
theorem broadcastTo_row_apply {α : Type} (r : (⟨2, ![1, N]⟩ : Shape).Idx → α)
    (h : (⟨2, ![1, N]⟩ : Shape).Broadcasts ⟨2, ![M, N]⟩) (p : Fin M) (q : Fin N) :
    broadcastTo ⟨2, ![M, N]⟩ r h (ix2 p q) = r (ix2 (0 : Fin 1) q) := by
  refine broadcastTo_apply r h (ix2 p q) (ix2 (0 : Fin 1) q) fun a => ?_
  match a with
  | ⟨0, _⟩ => rfl
  | ⟨1, _⟩ =>
    show q.val = if N = 1 then 0 else q.val
    split
    · have := q.isLt; omega
    · rfl

/-- A 1 × N row laid out as an M × N array (a broadcast along both axes in place), at (p, q), is the row at q. -/
theorem broadcastInDim_row_apply {α : Type} (r : (⟨2, ![1, N]⟩ : Shape).Idx → α)
    (h : (⟨2, ![1, N]⟩ : Shape).BroadcastsInDim ⟨2, ![M, N]⟩ (![0, 1] : Fin 2 → Fin 2)) (p : Fin M) (q : Fin N) :
    broadcastInDim ⟨2, ![M, N]⟩ (![0, 1] : Fin 2 → Fin 2) h r (ix2 p q) = r (ix2 (0 : Fin 1) q) := by
  refine broadcastInDim_apply _ h r (ix2 p q) (ix2 (0 : Fin 1) q) fun a => ?_
  match a with
  | ⟨0, _⟩ => rfl
  | ⟨1, _⟩ =>
    show q.val = if N = 1 then 0 else q.val
    split
    · have := q.isLt; omega
    · rfl

/-- A vector of length N laid out as a 1 × N row, at (0, q), is the vector at q. -/
theorem broadcastInDim_vec_row_apply {α : Type} (v : (⟨1, ![N]⟩ : Shape).Idx → α)
    (h : (⟨1, ![N]⟩ : Shape).BroadcastsInDim ⟨2, ![1, N]⟩ (![1] : Fin 1 → Fin 2)) (q : Fin N) :
    broadcastInDim ⟨2, ![1, N]⟩ (![1] : Fin 1 → Fin 2) h v (ix2 (0 : Fin 1) q) = v (ix1 q) := by
  refine broadcastInDim_apply _ h v (ix2 (0 : Fin 1) q) (ix1 q) fun a => ?_
  match a with
  | ⟨0, _⟩ =>
    show q.val = if N = 1 then 0 else q.val
    split
    · have := q.isLt; omega
    · rfl

/-- A vector of length N reshaped to a 1 × N row, at (0, q), is the vector at q. -/
theorem shapeCast_vec_row_apply {α : Type} (v : (⟨1, ![N]⟩ : Shape).Idx → α)
    (h : (⟨1, ![N]⟩ : Shape).ShapeCasts ⟨2, ![1, N]⟩) (q : Fin N) :
    shapeCast ⟨2, ![1, N]⟩ v h (ix2 (0 : Fin 1) q) = v (ix1 q) := by
  refine shapeCast_apply v h _ _ ?_
  rw [Shape.rowMajor_val_two, Shape.rowMajor_val_one]
  show q.val = 0 * N + q.val
  omega

/-- The host's layer: the general product of the whole arrays, plus the bias laid out as a row and then as an
    array, is the array of dense entries. -/
theorem host_dense_eq {φ₁ φ₂ : FTy} (prec : Option ContractPrecision)
    (x : FVec Ideal ⟨2, ![M, K]⟩ φ₁) (W : FVec Ideal ⟨2, ![K, N]⟩ φ₂) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) :
    addf (Host.dotGeneral (DotDims.plain M K N) prec x W)
        (broadcastInDim ⟨2, ![M, N]⟩ (![0, 1] : Fin 2 → Fin 2) h2 (broadcastInDim ⟨2, ![1, N]⟩ (![1] : Fin 1 → Fin 2) h1 b))
      = dense x W (fun q => b (ix1 q)) := by
  funext i
  obtain ⟨p, q, rfl⟩ : ∃ (p : Fin M) (q : Fin N), i = ix2 p q := ⟨i 0, i 1, eq_ix2 i⟩
  rw [addf_apply, StackMember.dotGeneral_plain_apply, broadcastInDim_row_apply, broadcastInDim_vec_row_apply]
  rfl

/-- The kernel's layer on a block of rows: the product into zeros plus the bias row repeated down the block, at (p, q),
    is the dense entry. -/
theorem block_dense_apply {φ₁ φ₂ : FTy} (prec : Option ContractPrecision)
    (x : FVec Ideal ⟨2, ![M, K]⟩ φ₁) (W : FVec Ideal ⟨2, ![K, N]⟩ φ₂) (r : FVec Ideal ⟨2, ![1, N]⟩ .f32)
    (h : (⟨2, ![1, N]⟩ : Shape).Broadcasts ⟨2, ![M, N]⟩) (p : Fin M) (q : Fin N) :
    addf (FloatOps.matmul (DotDims.plain M K N) prec x W (constant (F := Ideal) ⟨2, ![M, N]⟩ .f32 0x00000000#32))
        (broadcastTo ⟨2, ![M, N]⟩ r h) (ix2 p q)
      = denseAt x W (fun q => r (ix2 (0 : Fin 1) q)) p q := by
  rw [addf_apply, matmul_plain_zero_apply, broadcastTo_row_apply]
  rfl

end Cert.Lib.Dense

end
-- ==== Proof.KLayer0.lean ====
/-
  What the first kernel launch leaves in its output array.

  The launch runs ten grid points; point t loads rows 5000·t … 5000·t + 4999 of its 50000 × 128 input, the whole
  128 × 128 weight and the 1 × 128 bias row, and stores, for each of its rows p and each column q,
  max(Σ_c x(p, c) · W(c, q) + bias(q), 0)  (the matrix unit's product into zeros, the bias row repeated down the
  block, the maximum with zero).  A row of the output depends only on the same row of the input, so the block point t writes back is
  rows 5000·t … of ONE function of the whole arrays; the ten blocks tile the output, so the output array ends as that
  function.  All of it is stated at any contents V of the buffers when the launch is entered.
-/
import proofs.«142639_j6081673691821_2_alg».proof.Proof.Gen.KernelIdeal.Frame
import proofs.«142639_j6081673691821_2_alg».proof.Proof.LibDense

set_option maxRecDepth 16384

noncomputable section

namespace Cert.KernelIdeal.Layer0

open Cert.KernelIdeal Cert.KernelIdeal.Gen Idealize.ShloMosaic Idealize.ShloMosaic.TcCoe Idealize.SL.Sem
open Idealize.ShloMosaic.ValueIdx Cert.Lib.Dense
open Idealize.ShloMosaic.Pipeline (Dat)

theorem hz : (![0, 0] : Fin 2 → Nat) = fun _ => 0 := funext fun a => by fin_cases a <;> rfl

/-- The output as one function of the input X, the weight Wt and the bias row B, entry by entry. -/
def G (X : S50000x128.Idx → EReal) (Wt : S128x128.Idx → EReal) (B : S1x128.Idx → EReal) : S50000x128.Idx → EReal :=
  fun i => max (dense X Wt (fun q => B (ix2 (0 : Fin 1) q)) i) (Ideal.ofBits .f32 0x00000000#32)

/-- What a point stores at row p, column q of its block, from the blocks it loaded. -/
theorem pay_apply (x0 : Vec Ideal S5000x128 .bf16) (x1 : Vec Ideal S128x128 .bf16) (x2 : Vec Ideal S1x128 .f32)
    (p : Fin 5000) (q : Fin 128) :
    k0_pay1 x0 x1 x2 (ix2 p q) = max (denseAt x0 x1 (fun q => x2 (ix2 (0 : Fin 1) q)) p q) (Ideal.ofBits .f32 0x00000000#32) := by
  unfold k0_pay1
  rw [shapeCast_self, shapeCast_self, shapeCast_self]
  exact congrArg (fun e => max e (Ideal.ofBits .f32 0x00000000#32)) (block_dense_apply none x0 x1 x2 _ p q)

/-- If the loaded input block's row p is row r of X, and the other two blocks are the whole weight and bias row, the
    stored entry is the function's entry at row r. -/
theorem point_value (X : S50000x128.Idx → EReal) (Wt : S128x128.Idx → EReal) (B : S1x128.Idx → EReal)
    (x0 : Vec Ideal S5000x128 .bf16) (x1 : Vec Ideal S128x128 .bf16) (x2 : Vec Ideal S1x128 .f32)
    (p : Fin 5000) (q : Fin 128) (r : Fin 50000)
    (h0 : ∀ c : Fin 128, x0 (ix2 p c) = X (ix2 r c)) (h1 : x1 = Wt) (h2 : x2 = B) :
    k0_pay1 x0 x1 x2 (ix2 p q) = G X Wt B (ix2 r q) := by
  rw [pay_apply]
  subst h1 h2
  show max (denseAt x0 x1 (fun q => x2 (ix2 (0 : Fin 1) q)) p q) (Ideal.ofBits .f32 0x00000000#32) = max (denseAt X x1 (fun q => x2 (ix2 (0 : Fin 1) q)) r q) (Ideal.ofBits .f32 0x00000000#32)
  unfold denseAt
  simp only [h0]

/-- The printed index maps over the grid: the input's and the output's blocks move together down the rows, the weight
    and the bias row stay, and point t's row block is the t-th. -/
theorem idx_facts : ∀ t : Fin cfg0.N, win0_0.index t (0 : Fin 2) = win0_3.index t (0 : Fin 2)
    ∧ win0_0.index t (1 : Fin 2) = 0 ∧ win0_3.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val :=
  (by decide +kernel : ∀ t : Fin grid0.N, _)

variable (V : (c : Dev nD) → (b : Ref sig .tc) → Buf (Elt Ideal) ((c : Thread nD τ).loc b))

/-- What point t writes back is block t of the function of the arrays as the launch finds them. -/
theorem flushed_eq (c : Dev nD) (t : Fin cfg0.N) :
    (dat0 V c).flushed 3 t = ((cfg0.win 3).blk t).view.read (Elt Ideal) (G (V c main_v8) (V c main_v9) (V c main_v10)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S1x128) hz]
  obtain ⟨e0, e1, e2, e3, e4, e5, e6, e7⟩ := idx_facts t
  have ht : t.val < 10 := lt_of_lt_of_eq t.isLt N_0
  funext j
  obtain ⟨p, q, rfl⟩ : ∃ (p : Fin 5000) (q : Fin 128), j = ix2 p q := ⟨j 0, j 1, eq_ix2 j⟩
  have hp : p.val < 5000 := p.isLt
  have ei : ((cfg0.win 3).blk t).view.emb (ix2 p q) = ix2 (⟨t.val * 5000 + p.val, by omega⟩ : Fin 50000) q := by
    funext a; apply Fin.ext
    match a with
    | ⟨0, _⟩ => show win0_3.index t (0 : Fin 2) * 5000 + 1 * p.val = t.val * 5000 + p.val; omega
    | ⟨1, _⟩ => show win0_3.index t (1 : Fin 2) * 128 + 1 * q.val = q.val; omega
  show k0_pay1 (iblk0 V c 0 t) (iblk0 V c 1 t) (iblk0 V c 2 t) (ix2 p q)
    = G (V c main_v8) (V c main_v9) (V c main_v10) (((cfg0.win 3).blk t).view.emb (ix2 p q))
  rw [ei]
  refine point_value (V c main_v8) (V c main_v9) (V c main_v10) (iblk0 V c 0 t) (iblk0 V c 1 t) (iblk0 V c 2 t) p q
    (⟨t.val * 5000 + p.val, by omega⟩ : Fin 50000) (fun cc => ?_) ?_ ?_
  · show V c main_v8 (((cfg0.win 0).blk t).view.emb (ix2 p cc)) = V c main_v8 (ix2 (⟨t.val * 5000 + p.val, by omega⟩ : Fin 50000) cc)
    refine congrArg _ (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * cc.val = cc.val; omega
  · funext y
    show V c main_v9 (((cfg0.win 1).blk t).view.emb y) = V c main_v9 y
    refine congrArg _ (funext fun a => Fin.ext ?_)
    match a with
    | ⟨0, _⟩ => show win0_1.index t (0 : Fin 2) * 128 + 1 * (y 0).val = (y 0).val; omega
    | ⟨1, _⟩ => show win0_1.index t (1 : Fin 2) * 128 + 1 * (y 1).val = (y 1).val; omega
  · funext y
    show V c main_v10 (((cfg0.win 2).blk t).view.emb y) = V c main_v10 y
    refine congrArg _ (funext fun a => Fin.ext ?_)
    match a with
    | ⟨0, _⟩ => show win0_2.index t (0 : Fin 2) * 1 + 1 * (y 0).val = (y 0).val; omega
    | ⟨1, _⟩ => show win0_2.index t (1 : Fin 2) * 128 + 1 * (y 1).val = (y 1).val; omega

/-- An entry of the output array is in point t's block iff each coordinate is in the block's range on its axis. -/
theorem mem_blk (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v11).slice (win0_3.rect t)).set ↔ _
  rw [View.set_slice_whole, Rect.mem_set_unit]
  exact Iff.rfl

/-- Every entry of the output array is in some point's block: row r is in block r / 5000. -/
theorem cover (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : (i 0).val / 5000 < cfg0.N := by rw [show cfg0.N = 10 from N_0]; omega
  obtain ⟨e0, e1, e2, e3, e4, e5, e6, e7⟩ := idx_facts ⟨(i 0).val / 5000, hN⟩
  refine ⟨⟨(i 0).val / 5000, hN⟩, flush0_3 _, ?_⟩
  rw [mem_blk]
  intro a
  have e7' : win0_3.index ⟨(i 0).val / 5000, hN⟩ (0 : Fin 2) = (i 0).val / 5000 := e7
  match a with
  | ⟨0, _⟩ =>
    show win0_3.index ⟨(i 0).val / 5000, hN⟩ (0 : Fin 2) * 5000 ≤ (i 0).val
      ∧ (i 0).val < win0_3.index ⟨(i 0).val / 5000, hN⟩ (0 : Fin 2) * 5000 + 5000
    omega
  | ⟨1, _⟩ =>
    show win0_3.index ⟨(i 0).val / 5000, hN⟩ (1 : Fin 2) * 128 ≤ (i 1).val
      ∧ (i 1).val < win0_3.index ⟨(i 0).val / 5000, hN⟩ (1 : Fin 2) * 128 + 128
    omega

/-- The output array after the launch is the function of the arrays as the launch finds them. -/
theorem final (c : Dev nD) : (dat0 V c).arrAt 3 cfg0.N = G (V c main_v8) (V c main_v9) (V c main_v10) :=
  (dat0 V c).arrAt_eq_of_cover 3 (G (V c main_v8) (V c main_v9) (V c main_v10)) (fun t _ => flushed_eq V c t) cover

end Cert.KernelIdeal.Layer0

end
-- ==== Proof.KLayer1.lean ====
/-
  What the second kernel launch leaves in its output array.

  The launch runs ten grid points; point t loads rows 5000·t … 5000·t + 4999 of its 50000 × 128 input, the whole
  128 × 128 weight and the 1 × 128 bias row, and stores, for each of its rows p and each column q,
  max(Σ_c x(p, c) · W(c, q) + bias(q), 0)  (the matrix unit's product into zeros, the bias row repeated down the
  block, the maximum with zero).  A row of the output depends only on the same row of the input, so the block point t writes back is
  rows 5000·t … of ONE function of the whole arrays; the ten blocks tile the output, so the output array ends as that
  function.  All of it is stated at any contents V of the buffers when the launch is entered.
-/
import proofs.«142639_j6081673691821_2_alg».proof.Proof.Gen.KernelIdeal.Frame
import proofs.«142639_j6081673691821_2_alg».proof.Proof.LibDense

set_option maxRecDepth 16384

noncomputable section

namespace Cert.KernelIdeal.Layer1

open Cert.KernelIdeal Cert.KernelIdeal.Gen Idealize.ShloMosaic Idealize.ShloMosaic.TcCoe Idealize.SL.Sem
open Idealize.ShloMosaic.ValueIdx Cert.Lib.Dense
open Idealize.ShloMosaic.Pipeline (Dat)

theorem hz : (![0, 0] : Fin 2 → Nat) = fun _ => 0 := funext fun a => by fin_cases a <;> rfl

/-- The output as one function of the input X, the weight Wt and the bias row B, entry by entry. -/
def G (X : S50000x128.Idx → EReal) (Wt : S128x128.Idx → EReal) (B : S1x128.Idx → EReal) : S50000x128.Idx → EReal :=
  fun i => max (dense X Wt (fun q => B (ix2 (0 : Fin 1) q)) i) (Ideal.ofBits .f32 0x00000000#32)

/-- What a point stores at row p, column q of its block, from the blocks it loaded. -/
theorem pay_apply (x0 : Vec Ideal S5000x128 .bf16) (x1 : Vec Ideal S128x128 .bf16) (x2 : Vec Ideal S1x128 .f32)
    (p : Fin 5000) (q : Fin 128) :
    k1_pay1 x0 x1 x2 (ix2 p q) = max (denseAt x0 x1 (fun q => x2 (ix2 (0 : Fin 1) q)) p q) (Ideal.ofBits .f32 0x00000000#32) := by
  unfold k1_pay1
  rw [shapeCast_self, shapeCast_self, shapeCast_self]
  exact congrArg (fun e => max e (Ideal.ofBits .f32 0x00000000#32)) (block_dense_apply none x0 x1 x2 _ p q)

/-- If the loaded input block's row p is row r of X, and the other two blocks are the whole weight and bias row, the
    stored entry is the function's entry at row r. -/
theorem point_value (X : S50000x128.Idx → EReal) (Wt : S128x128.Idx → EReal) (B : S1x128.Idx → EReal)
    (x0 : Vec Ideal S5000x128 .bf16) (x1 : Vec Ideal S128x128 .bf16) (x2 : Vec Ideal S1x128 .f32)
    (p : Fin 5000) (q : Fin 128) (r : Fin 50000)
    (h0 : ∀ c : Fin 128, x0 (ix2 p c) = X (ix2 r c)) (h1 : x1 = Wt) (h2 : x2 = B) :
    k1_pay1 x0 x1 x2 (ix2 p q) = G X Wt B (ix2 r q) := by
  rw [pay_apply]
  subst h1 h2
  show max (denseAt x0 x1 (fun q => x2 (ix2 (0 : Fin 1) q)) p q) (Ideal.ofBits .f32 0x00000000#32) = max (denseAt X x1 (fun q => x2 (ix2 (0 : Fin 1) q)) r q) (Ideal.ofBits .f32 0x00000000#32)
  unfold denseAt
  simp only [h0]

/-- The printed index maps over the grid: the input's and the output's blocks move together down the rows, the weight
    and the bias row stay, and point t's row block is the t-th. -/
theorem idx_facts : ∀ t : Fin cfg1.N, win1_0.index t (0 : Fin 2) = win1_3.index t (0 : Fin 2)
    ∧ win1_0.index t (1 : Fin 2) = 0 ∧ win1_3.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val :=
  (by decide +kernel : ∀ t : Fin grid1.N, _)

variable (V : (c : Dev nD) → (b : Ref sig .tc) → Buf (Elt Ideal) ((c : Thread nD τ).loc b))

/-- What point t writes back is block t of the function of the arrays as the launch finds them. -/
theorem flushed_eq (c : Dev nD) (t : Fin cfg1.N) :
    (dat1 V c).flushed 3 t = ((cfg1.win 3).blk t).view.read (Elt Ideal) (G (V c main_v48) (V c main_v49) (V c main_v50)) := by
  show (cfg1.win 3).cut (grid1.coords t) ((dat1 V c).after 3 t) = _
  rw [after1_3]
  unfold out1_3
  rw [View.canon_unit_zero hz]
  simp only [View.ld_unit_zero (S := S5000x128) hz, View.ld_unit_zero (S := S128x128) hz, View.ld_unit_zero (S := S1x128) hz]
  obtain ⟨e0, e1, e2, e3, e4, e5, e6, e7⟩ := idx_facts t
  have ht : t.val < 10 := lt_of_lt_of_eq t.isLt N_1
  funext j
  obtain ⟨p, q, rfl⟩ : ∃ (p : Fin 5000) (q : Fin 128), j = ix2 p q := ⟨j 0, j 1, eq_ix2 j⟩
  have hp : p.val < 5000 := p.isLt
  have ei : ((cfg1.win 3).blk t).view.emb (ix2 p q) = ix2 (⟨t.val * 5000 + p.val, by omega⟩ : Fin 50000) q := by
    funext a; apply Fin.ext
    match a with
    | ⟨0, _⟩ => show win1_3.index t (0 : Fin 2) * 5000 + 1 * p.val = t.val * 5000 + p.val; omega
    | ⟨1, _⟩ => show win1_3.index t (1 : Fin 2) * 128 + 1 * q.val = q.val; omega
  show k1_pay1 (iblk1 V c 0 t) (iblk1 V c 1 t) (iblk1 V c 2 t) (ix2 p q)
    = G (V c main_v48) (V c main_v49) (V c main_v50) (((cfg1.win 3).blk t).view.emb (ix2 p q))
  rw [ei]
  refine point_value (V c main_v48) (V c main_v49) (V c main_v50) (iblk1 V c 0 t) (iblk1 V c 1 t) (iblk1 V c 2 t) p q
    (⟨t.val * 5000 + p.val, by omega⟩ : Fin 50000) (fun cc => ?_) ?_ ?_
  · show V c main_v48 (((cfg1.win 0).blk t).view.emb (ix2 p cc)) = V c main_v48 (ix2 (⟨t.val * 5000 + p.val, by omega⟩ : Fin 50000) cc)
    refine congrArg _ (funext fun a => Fin.ext ?_)
    match a with
    | ⟨0, _⟩ => show win1_0.index t (0 : Fin 2) * 5000 + 1 * p.val = t.val * 5000 + p.val; omega
    | ⟨1, _⟩ => show win1_0.index t (1 : Fin 2) * 128 + 1 * cc.val = cc.val; omega
  · funext y
    show V c main_v49 (((cfg1.win 1).blk t).view.emb y) = V c main_v49 y
    refine congrArg _ (funext fun a => Fin.ext ?_)
    match a with
    | ⟨0, _⟩ => show win1_1.index t (0 : Fin 2) * 128 + 1 * (y 0).val = (y 0).val; omega
    | ⟨1, _⟩ => show win1_1.index t (1 : Fin 2) * 128 + 1 * (y 1).val = (y 1).val; omega
  · funext y
    show V c main_v50 (((cfg1.win 2).blk t).view.emb y) = V c main_v50 y
    refine congrArg _ (funext fun a => Fin.ext ?_)
    match a with
    | ⟨0, _⟩ => show win1_2.index t (0 : Fin 2) * 1 + 1 * (y 0).val = (y 0).val; omega
    | ⟨1, _⟩ => show win1_2.index t (1 : Fin 2) * 128 + 1 * (y 1).val = (y 1).val; omega

/-- An entry of the output array is in point t's block iff each coordinate is in the block's range on its axis. -/
theorem mem_blk (t : Fin cfg1.N) (i : S50000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v51).slice (win1_3.rect t)).set ↔ _
  rw [View.set_slice_whole, Rect.mem_set_unit]
  exact Iff.rfl

/-- Every entry of the output array is in some point's block: row r is in block r / 5000. -/
theorem cover (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : (i 0).val / 5000 < cfg1.N := by rw [show cfg1.N = 10 from N_1]; omega
  obtain ⟨e0, e1, e2, e3, e4, e5, e6, e7⟩ := idx_facts ⟨(i 0).val / 5000, hN⟩
  refine ⟨⟨(i 0).val / 5000, hN⟩, flush1_3 _, ?_⟩
  rw [mem_blk]
  intro a
  have e7' : win1_3.index ⟨(i 0).val / 5000, hN⟩ (0 : Fin 2) = (i 0).val / 5000 := e7
  match a with
  | ⟨0, _⟩ =>
    show win1_3.index ⟨(i 0).val / 5000, hN⟩ (0 : Fin 2) * 5000 ≤ (i 0).val
      ∧ (i 0).val < win1_3.index ⟨(i 0).val / 5000, hN⟩ (0 : Fin 2) * 5000 + 5000
    omega
  | ⟨1, _⟩ =>
    show win1_3.index ⟨(i 0).val / 5000, hN⟩ (1 : Fin 2) * 128 ≤ (i 1).val
      ∧ (i 1).val < win1_3.index ⟨(i 0).val / 5000, hN⟩ (1 : Fin 2) * 128 + 128
    omega

/-- The output array after the launch is the function of the arrays as the launch finds them. -/
theorem final (c : Dev nD) : (dat1 V c).arrAt 3 cfg1.N = G (V c main_v48) (V c main_v49) (V c main_v50) :=
  (dat1 V c).arrAt_eq_of_cover 3 (G (V c main_v48) (V c main_v49) (V c main_v50)) (fun t _ => flushed_eq V c t) cover

end Cert.KernelIdeal.Layer1

end
-- ==== Proof.KLayer2.lean ====
/-
  What the third kernel launch leaves in its output array.

  The launch runs ten grid points; point t loads rows 5000·t … 5000·t + 4999 of its 50000 × 128 input, the whole
  128 × 128 weight and the 1 × 128 bias row, and stores, for each of its rows p and each column q,
  Σ_c x(p, c) · W(c, q) + bias(q)  (the matrix unit's product into zeros, the bias row repeated down the
  block).  A row of the output depends only on the same row of the input, so the block point t writes back is
  rows 5000·t … of ONE function of the whole arrays; the ten blocks tile the output, so the output array ends as that
  function.  All of it is stated at any contents V of the buffers when the launch is entered.
-/
import proofs.«142639_j6081673691821_2_alg».proof.Proof.Gen.KernelIdeal.Frame
import proofs.«142639_j6081673691821_2_alg».proof.Proof.LibDense

set_option maxRecDepth 16384

noncomputable section

namespace Cert.KernelIdeal.Layer2

open Cert.KernelIdeal Cert.KernelIdeal.Gen Idealize.ShloMosaic Idealize.ShloMosaic.TcCoe Idealize.SL.Sem
open Idealize.ShloMosaic.ValueIdx Cert.Lib.Dense
open Idealize.ShloMosaic.Pipeline (Dat)

theorem hz : (![0, 0] : Fin 2 → Nat) = fun _ => 0 := funext fun a => by fin_cases a <;> rfl

/-- The output as one function of the input X, the weight Wt and the bias row B, entry by entry. -/
def G (X : S50000x128.Idx → EReal) (Wt : S128x128.Idx → EReal) (B : S1x128.Idx → EReal) : S50000x128.Idx → EReal :=
  fun i => dense X Wt (fun q => B (ix2 (0 : Fin 1) q)) i

/-- What a point stores at row p, column q of its block, from the blocks it loaded. -/
theorem pay_apply (x0 : Vec Ideal S5000x128 .bf16) (x1 : Vec Ideal S128x128 .bf16) (x2 : Vec Ideal S1x128 .f32)
    (p : Fin 5000) (q : Fin 128) :
    k2_pay1 x0 x1 x2 (ix2 p q) = denseAt x0 x1 (fun q => x2 (ix2 (0 : Fin 1) q)) p q := by
  unfold k2_pay1
  rw [shapeCast_self, shapeCast_self, shapeCast_self]
  exact block_dense_apply none x0 x1 x2 _ p q

/-- If the loaded input block's row p is row r of X, and the other two blocks are the whole weight and bias row, the
    stored entry is the function's entry at row r. -/
theorem point_value (X : S50000x128.Idx → EReal) (Wt : S128x128.Idx → EReal) (B : S1x128.Idx → EReal)
    (x0 : Vec Ideal S5000x128 .bf16) (x1 : Vec Ideal S128x128 .bf16) (x2 : Vec Ideal S1x128 .f32)
    (p : Fin 5000) (q : Fin 128) (r : Fin 50000)
    (h0 : ∀ c : Fin 128, x0 (ix2 p c) = X (ix2 r c)) (h1 : x1 = Wt) (h2 : x2 = B) :
    k2_pay1 x0 x1 x2 (ix2 p q) = G X Wt B (ix2 r q) := by
  rw [pay_apply]
  subst h1 h2
  show denseAt x0 x1 (fun q => x2 (ix2 (0 : Fin 1) q)) p q = denseAt X x1 (fun q => x2 (ix2 (0 : Fin 1) q)) r q
  unfold denseAt
  simp only [h0]

/-- The printed index maps over the grid: the input's and the output's blocks move together down the rows, the weight
    and the bias row stay, and point t's row block is the t-th. -/
theorem idx_facts : ∀ t : Fin cfg2.N, win2_0.index t (0 : Fin 2) = win2_3.index t (0 : Fin 2)
    ∧ win2_0.index t (1 : Fin 2) = 0 ∧ win2_3.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val :=
  (by decide +kernel : ∀ t : Fin grid2.N, _)

variable (V : (c : Dev nD) → (b : Ref sig .tc) → Buf (Elt Ideal) ((c : Thread nD τ).loc b))

/-- What point t writes back is block t of the function of the arrays as the launch finds them. -/
theorem flushed_eq (c : Dev nD) (t : Fin cfg2.N) :
    (dat2 V c).flushed 3 t = ((cfg2.win 3).blk t).view.read (Elt Ideal) (G (V c main_v88) (V c main_v89) (V c main_v90)) := by
  show (cfg2.win 3).cut (grid2.coords t) ((dat2 V c).after 3 t) = _
  rw [after2_3]
  unfold out2_3
  rw [View.canon_unit_zero hz]
  simp only [View.ld_unit_zero (S := S5000x128) hz, View.ld_unit_zero (S := S128x128) hz, View.ld_unit_zero (S := S1x128) hz]
  obtain ⟨e0, e1, e2, e3, e4, e5, e6, e7⟩ := idx_facts t
  have ht : t.val < 10 := lt_of_lt_of_eq t.isLt N_2
  funext j
  obtain ⟨p, q, rfl⟩ : ∃ (p : Fin 5000) (q : Fin 128), j = ix2 p q := ⟨j 0, j 1, eq_ix2 j⟩
  have hp : p.val < 5000 := p.isLt
  have ei : ((cfg2.win 3).blk t).view.emb (ix2 p q) = ix2 (⟨t.val * 5000 + p.val, by omega⟩ : Fin 50000) q := by
    funext a; apply Fin.ext
    match a with
    | ⟨0, _⟩ => show win2_3.index t (0 : Fin 2) * 5000 + 1 * p.val = t.val * 5000 + p.val; omega
    | ⟨1, _⟩ => show win2_3.index t (1 : Fin 2) * 128 + 1 * q.val = q.val; omega
  show k2_pay1 (iblk2 V c 0 t) (iblk2 V c 1 t) (iblk2 V c 2 t) (ix2 p q)
    = G (V c main_v88) (V c main_v89) (V c main_v90) (((cfg2.win 3).blk t).view.emb (ix2 p q))
  rw [ei]
  refine point_value (V c main_v88) (V c main_v89) (V c main_v90) (iblk2 V c 0 t) (iblk2 V c 1 t) (iblk2 V c 2 t) p q
    (⟨t.val * 5000 + p.val, by omega⟩ : Fin 50000) (fun cc => ?_) ?_ ?_
  · show V c main_v88 (((cfg2.win 0).blk t).view.emb (ix2 p cc)) = V c main_v88 (ix2 (⟨t.val * 5000 + p.val, by omega⟩ : Fin 50000) cc)
    refine congrArg _ (funext fun a => Fin.ext ?_)
    match a with
    | ⟨0, _⟩ => show win2_0.index t (0 : Fin 2) * 5000 + 1 * p.val = t.val * 5000 + p.val; omega
    | ⟨1, _⟩ => show win2_0.index t (1 : Fin 2) * 128 + 1 * cc.val = cc.val; omega
  · funext y
    show V c main_v89 (((cfg2.win 1).blk t).view.emb y) = V c main_v89 y
    refine congrArg _ (funext fun a => Fin.ext ?_)
    match a with
    | ⟨0, _⟩ => show win2_1.index t (0 : Fin 2) * 128 + 1 * (y 0).val = (y 0).val; omega
    | ⟨1, _⟩ => show win2_1.index t (1 : Fin 2) * 128 + 1 * (y 1).val = (y 1).val; omega
  · funext y
    show V c main_v90 (((cfg2.win 2).blk t).view.emb y) = V c main_v90 y
    refine congrArg _ (funext fun a => Fin.ext ?_)
    match a with
    | ⟨0, _⟩ => show win2_2.index t (0 : Fin 2) * 1 + 1 * (y 0).val = (y 0).val; omega
    | ⟨1, _⟩ => show win2_2.index t (1 : Fin 2) * 128 + 1 * (y 1).val = (y 1).val; omega

/-- An entry of the output array is in point t's block iff each coordinate is in the block's range on its axis. -/
theorem mem_blk (t : Fin cfg2.N) (i : S50000x128.Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole main_v91).slice (win2_3.rect t)).set ↔ _
  rw [View.set_slice_whole, Rect.mem_set_unit]
  exact Iff.rfl

/-- Every entry of the output array is in some point's block: row r is in block r / 5000. -/
theorem cover (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  have hN : (i 0).val / 5000 < cfg2.N := by rw [show cfg2.N = 10 from N_2]; omega
  obtain ⟨e0, e1, e2, e3, e4, e5, e6, e7⟩ := idx_facts ⟨(i 0).val / 5000, hN⟩
  refine ⟨⟨(i 0).val / 5000, hN⟩, flush2_3 _, ?_⟩
  rw [mem_blk]
  intro a
  have e7' : win2_3.index ⟨(i 0).val / 5000, hN⟩ (0 : Fin 2) = (i 0).val / 5000 := e7
  match a with
  | ⟨0, _⟩ =>
    show win2_3.index ⟨(i 0).val / 5000, hN⟩ (0 : Fin 2) * 5000 ≤ (i 0).val
      ∧ (i 0).val < win2_3.index ⟨(i 0).val / 5000, hN⟩ (0 : Fin 2) * 5000 + 5000
    omega
  | ⟨1, _⟩ =>
    show win2_3.index ⟨(i 0).val / 5000, hN⟩ (1 : Fin 2) * 128 ≤ (i 1).val
      ∧ (i 1).val < win2_3.index ⟨(i 0).val / 5000, hN⟩ (1 : Fin 2) * 128 + 128
    omega

/-- The output array after the launch is the function of the arrays as the launch finds them. -/
theorem final (c : Dev nD) : (dat2 V c).arrAt 3 cfg2.N = G (V c main_v88) (V c main_v89) (V c main_v90) :=
  (dat2 V c).arrAt_eq_of_cover 3 (G (V c main_v88) (V c main_v89) (V c main_v90)) (fun t _ => flushed_eq V c t) cover

end Cert.KernelIdeal.Layer2

end
-- ==== Proof.KStretch.lean ====
/-
  The kernel program's stretches of host operations, read from any buffer contents.

  Before the first launch the program cuts the two index vectors out of the index array, drops the leading axis of
  extent one from the first two layers' weights and biases, narrows the float format of the first launch's input and
  weight (the identity on exact values) and lays the bias out as a 1 × 128 row.  Between two launches it runs an
  attention step and prepares the next launch's weight and bias row the same way.  Here each stretch is read at the
  buffers the next launch takes, and at the buffers a later stretch still reads, which it leaves alone.
-/
import proofs.«142639_j6081673691821_2_alg».proof.Proof.Gen.KernelIdeal.Launch
import Idealize.ShloMosaic.PureOps.Ideal
import Idealize.ShloMosaic.Lib.StableHlo.Run

noncomputable section

namespace Cert.KernelIdeal.Stretch

open Cert.KernelIdeal Cert.KernelIdeal.Gen Idealize.ShloMosaic Idealize.ShloMosaic.TcCoe Idealize.ShloMosaic.StableHlo

/-- Buffer contents of the kernel program at the exact values. -/
abbrev KV := Valuation τ sig (Elt Ideal)

/-- A weight given as 1 × 128 × 128, as the 128 × 128 matrix it is. -/
def wOf (x : FVec Ideal S1x128x128 .f32) : FVec Ideal S128x128 .f32 := shapeCast S128x128 x shapeCasts_S1x128x128_S128x128
/-- A bias given as 1 × 128, as the vector of length 128 it is. -/
def bOf (x : FVec Ideal S1x128 .f32) : FVec Ideal S128 .f32 := shapeCast S128 x shapeCasts_S1x128_S128
/-- A bias vector laid out as a 1 × 128 row. -/
def bRow (x : FVec Ideal S128 .f32) : FVec Ideal S1x128 .f32 := shapeCast S1x128 x shapeCasts_S128_S1x128
/-- The first row of the 2 × 800000 index array, as a vector. -/
def rowOf (e : IVec S2x800000 32) : IVec S800000 32 :=
  shapeCast S800000 (extractStridedSlice S1x800000 ![0, 0] e slices_S2x800000_S1x800000_0_0) shapeCasts_S1x800000_S800000
/-- The second row of the index array, as a vector. -/
def colOf (e : IVec S2x800000 32) : IVec S800000 32 :=
  shapeCast S800000 (extractStridedSlice S1x800000 ![1, 0] e slices_S2x800000_S1x800000_1_0) shapeCasts_S1x800000_S800000

/-- The stretch before the first launch. -/
abbrev s0 (V : KV) : KV := after (hostOps0 (F := Ideal)) V
/-- The stretch between the first and the second launch. -/
abbrev s1 (V : KV) : KV := after (hostOps1_2 (F := Ideal)) (after hostOps1_1 (after hostOps1 V))
/-- The stretch between the second and the third launch. -/
abbrev s2 (V : KV) : KV := after (hostOps2_2 (F := Ideal)) (after hostOps2_1 (after hostOps2 V))

theorem s0_v8 (V : KV) : s0 V (Proc.devRef .tc main_v8) = (V (Proc.devRef .tc main_arg0) : FVec Ideal S50000x128 .f32) := by
  after_results_simp
  rfl
theorem s0_v9 (V : KV) : s0 V (Proc.devRef .tc main_v9) = wOf (V (Proc.devRef .tc main_arg2)) := by
  after_results_simp
  rfl
theorem s0_v10 (V : KV) : s0 V (Proc.devRef .tc main_v10) = bRow (bOf (V (Proc.devRef .tc main_arg3))) := by
  after_results_simp
  rfl
theorem s0_v1 (V : KV) : s0 V (Proc.devRef .tc main_v1) = rowOf (V (Proc.devRef .tc main_arg1)) := by
  after_results_simp
  rfl
theorem s0_v3 (V : KV) : s0 V (Proc.devRef .tc main_v3) = colOf (V (Proc.devRef .tc main_arg1)) := by
  after_results_simp
  rfl
theorem s0_v6 (V : KV) : s0 V (Proc.devRef .tc main_v6) = wOf (V (Proc.devRef .tc main_arg4)) := by
  after_results_simp
  rfl
theorem s0_v7 (V : KV) : s0 V (Proc.devRef .tc main_v7) = bOf (V (Proc.devRef .tc main_arg5)) := by
  after_results_simp
  rfl
theorem s0_keep_arg6 (V : KV) : s0 V (Proc.devRef .tc main_arg6) = V (Proc.devRef .tc main_arg6) := by
  after_results_simp
theorem s0_keep_arg7 (V : KV) : s0 V (Proc.devRef .tc main_arg7) = V (Proc.devRef .tc main_arg7) := by
  after_results_simp

theorem s1_v49 (V : KV) : s1 V (Proc.devRef .tc main_v49) = (V (Proc.devRef .tc main_v6) : FVec Ideal S128x128 .f32) := by
  after_results_simp
  rfl
theorem s1_v50 (V : KV) : s1 V (Proc.devRef .tc main_v50) = bRow (V (Proc.devRef .tc main_v7)) := by
  after_results_simp
  rfl
theorem s1_keep_v1 (V : KV) : s1 V (Proc.devRef .tc main_v1) = V (Proc.devRef .tc main_v1) := by
  after_results_simp
theorem s1_keep_v3 (V : KV) : s1 V (Proc.devRef .tc main_v3) = V (Proc.devRef .tc main_v3) := by
  after_results_simp
theorem s1_keep_v6 (V : KV) : s1 V (Proc.devRef .tc main_v6) = V (Proc.devRef .tc main_v6) := by
  after_results_simp
theorem s1_keep_v7 (V : KV) : s1 V (Proc.devRef .tc main_v7) = V (Proc.devRef .tc main_v7) := by
  after_results_simp
theorem s1_keep_arg6 (V : KV) : s1 V (Proc.devRef .tc main_arg6) = V (Proc.devRef .tc main_arg6) := by
  after_results_simp
theorem s1_keep_arg7 (V : KV) : s1 V (Proc.devRef .tc main_arg7) = V (Proc.devRef .tc main_arg7) := by
  after_results_simp

theorem s2_v89 (V : KV) : s2 V (Proc.devRef .tc main_v89) = (V (Proc.devRef .tc main_arg6) : FVec Ideal S128x128 .f32) := by
  after_results_simp
  rfl
theorem s2_v90 (V : KV) : s2 V (Proc.devRef .tc main_v90) = bRow (V (Proc.devRef .tc main_arg7)) := by
  after_results_simp
  rfl

end Cert.KernelIdeal.Stretch

end
-- ==== Proof.RefLayers.lean ====
/-
  The reference's three dense layers, and what each part of the reference leaves alone.

  Each of the reference's three layer parts, read from any buffer contents it starts from, leaves in its result buffer the
  dense layer of its input with its weight and bias (the first two followed by the maximum with zero); the weight and
  bias of the first two layers are the 1 × 128 × 128 and 1 × 128 arguments with their leading axis of extent one
  dropped.  The first part also cuts the two index vectors out of the 2 × 800000 index array.  Every part leaves alone
  the buffers that later parts still read: the index vectors and the later layers' weights and biases.
-/
import proofs.«142639_j6081673691821_2_alg».proof.Proof.RefLine
import proofs.«142639_j6081673691821_2_alg».proof.Proof.LibDense

noncomputable section

namespace Cert.ReferenceIdeal.Line

open Cert.ReferenceIdeal Cert.ReferenceIdeal.Gen Idealize.ShloMosaic Idealize.ShloMosaic.TcCoe Idealize.ShloMosaic.StableHlo
open Idealize.ShloMosaic.ValueIdx Cert.Lib.Dense

/-- Buffer contents of the reference at the exact values. -/
abbrev RV := Valuation τ sig (Elt Ideal)

/-- A weight given as 1 × 128 × 128, as the 128 × 128 matrix it is. -/
def wOf (x : FVec Ideal S1x128x128 .f32) : FVec Ideal S128x128 .f32 := shapeCast S128x128 x shapeCasts_S1x128x128_S128x128
/-- A bias given as 1 × 128, as the vector of length 128 it is. -/
def bOf (x : FVec Ideal S1x128 .f32) : FVec Ideal S128 .f32 := shapeCast S128 x shapeCasts_S1x128_S128
/-- The first row of the 2 × 800000 index array, as a vector. -/
def rowOf (e : IVec S2x800000 32) : IVec S800000 32 :=
  shapeCast S800000 (extractStridedSlice S1x800000 ![0, 0] e slices_S2x800000_S1x800000_0_0) shapeCasts_S1x800000_S800000
/-- The second row of the index array, as a vector. -/
def colOf (e : IVec S2x800000 32) : IVec S800000 32 :=
  shapeCast S800000 (extractStridedSlice S1x800000 ![1, 0] e slices_S2x800000_S1x800000_1_0) shapeCasts_S1x800000_S800000

/-- The host's layer as the reference spells it: the general product plus the bias laid out as a row, then as an array. -/
def hostLayer (x : FVec Ideal S50000x128 .f32) (W : FVec Ideal S128x128 .f32) (b : FVec Ideal S128 .f32) : FVec Ideal S50000x128 .f32 :=
  addf (Host.dotGeneral (DotDims.plain 50000 128 128) none x W)
    (broadcastInDim S50000x128 ![0, 1] bcast_S1x128_S50000x128_0_1 (broadcastInDim S1x128 ![1] bcast_S128_S1x128_1 b))

/-- It is the dense layer, entry by entry. -/
theorem hostLayer_eq (x : FVec Ideal S50000x128 .f32) (W : FVec Ideal S128x128 .f32) (b : FVec Ideal S128 .f32) :
    hostLayer x W b = dense x W (fun q => b (ix1 q)) :=
  host_dense_eq (φ₁ := .f32) (φ₂ := .f32) none x W b bcast_S128_S1x128_1 bcast_S1x128_S50000x128_0_1

/-- The maximum with an array of zeros. -/
def reluOf (x : FVec Ideal S50000x128 .f32) : FVec Ideal S50000x128 .f32 :=
  maximumf x (broadcastInDim S50000x128 ![] bcast_S_S50000x128 (constant S_ .f32 0x00000000#32))

/-- A dense layer followed by the maximum with zero. -/
def denseRelu (x : FVec Ideal S50000x128 .f32) (W : FVec Ideal S128x128 .f32) (b : FVec Ideal S128 .f32) : FVec Ideal S50000x128 .f32 :=
  fun i => max (dense x W (fun q => b (ix1 q)) i) (Ideal.ofBits .f32 0x00000000#32)

/-- The first layer part leaves the first layer of the input array in its result buffer. -/
theorem layer0_out (U : RV) :
    after (layer0 (F := Ideal)) U (Proc.devRef .tc main_v10)
      = denseRelu (U (Proc.devRef .tc main_arg0)) (wOf (U (Proc.devRef .tc main_arg2))) (bOf (U (Proc.devRef .tc main_arg3))) := by
  have e : after (layer0 (F := Ideal)) U (Proc.devRef .tc main_v10)
      = reluOf (hostLayer (U (Proc.devRef .tc main_arg0)) (wOf (U (Proc.devRef .tc main_arg2))) (bOf (U (Proc.devRef .tc main_arg3)))) := by
    after_results_simp
    rfl
  rw [e, hostLayer_eq]
  rfl

theorem layer0_row (U : RV) : after (layer0 (F := Ideal)) U (Proc.devRef .tc main_v1) = rowOf (U (Proc.devRef .tc main_arg1)) := by
  after_results_simp
  rfl
theorem layer0_col (U : RV) : after (layer0 (F := Ideal)) U (Proc.devRef .tc main_v3) = colOf (U (Proc.devRef .tc main_arg1)) := by
  after_results_simp
  rfl
theorem layer0_keep_arg4 (U : RV) : after (layer0 (F := Ideal)) U (Proc.devRef .tc main_arg4) = U (Proc.devRef .tc main_arg4) := by after_results_simp
theorem layer0_keep_arg5 (U : RV) : after (layer0 (F := Ideal)) U (Proc.devRef .tc main_arg5) = U (Proc.devRef .tc main_arg5) := by after_results_simp
theorem layer0_keep_arg6 (U : RV) : after (layer0 (F := Ideal)) U (Proc.devRef .tc main_arg6) = U (Proc.devRef .tc main_arg6) := by after_results_simp
theorem layer0_keep_arg7 (U : RV) : after (layer0 (F := Ideal)) U (Proc.devRef .tc main_arg7) = U (Proc.devRef .tc main_arg7) := by after_results_simp

theorem attend0_keep_v1 (U : RV) : after (attend0 (F := Ideal)) U (Proc.devRef .tc main_v1) = U (Proc.devRef .tc main_v1) := by after_results_simp
theorem attend0_keep_v3 (U : RV) : after (attend0 (F := Ideal)) U (Proc.devRef .tc main_v3) = U (Proc.devRef .tc main_v3) := by after_results_simp
theorem attend0_keep_arg4 (U : RV) : after (attend0 (F := Ideal)) U (Proc.devRef .tc main_arg4) = U (Proc.devRef .tc main_arg4) := by after_results_simp
theorem attend0_keep_arg5 (U : RV) : after (attend0 (F := Ideal)) U (Proc.devRef .tc main_arg5) = U (Proc.devRef .tc main_arg5) := by after_results_simp
theorem attend0_keep_arg6 (U : RV) : after (attend0 (F := Ideal)) U (Proc.devRef .tc main_arg6) = U (Proc.devRef .tc main_arg6) := by after_results_simp
theorem attend0_keep_arg7 (U : RV) : after (attend0 (F := Ideal)) U (Proc.devRef .tc main_arg7) = U (Proc.devRef .tc main_arg7) := by after_results_simp

/-- The second layer part leaves the second layer of the first attention step's result in its result buffer. -/
theorem layer1_out (U : RV) :
    after (layer1 (F := Ideal)) U (Proc.devRef .tc main_v57)
      = denseRelu (U (Proc.devRef .tc main_v50)) (wOf (U (Proc.devRef .tc main_arg4))) (bOf (U (Proc.devRef .tc main_arg5))) := by
  have e : after (layer1 (F := Ideal)) U (Proc.devRef .tc main_v57)
      = reluOf (hostLayer (U (Proc.devRef .tc main_v50)) (wOf (U (Proc.devRef .tc main_arg4))) (bOf (U (Proc.devRef .tc main_arg5)))) := by
    after_results_simp
    rfl
  rw [e, hostLayer_eq]
  rfl
theorem layer1_keep_v1 (U : RV) : after (layer1 (F := Ideal)) U (Proc.devRef .tc main_v1) = U (Proc.devRef .tc main_v1) := by after_results_simp
theorem layer1_keep_v3 (U : RV) : after (layer1 (F := Ideal)) U (Proc.devRef .tc main_v3) = U (Proc.devRef .tc main_v3) := by after_results_simp
theorem layer1_keep_arg4 (U : RV) : after (layer1 (F := Ideal)) U (Proc.devRef .tc main_arg4) = U (Proc.devRef .tc main_arg4) := by after_results_simp
theorem layer1_keep_arg5 (U : RV) : after (layer1 (F := Ideal)) U (Proc.devRef .tc main_arg5) = U (Proc.devRef .tc main_arg5) := by after_results_simp
theorem layer1_keep_arg6 (U : RV) : after (layer1 (F := Ideal)) U (Proc.devRef .tc main_arg6) = U (Proc.devRef .tc main_arg6) := by after_results_simp
theorem layer1_keep_arg7 (U : RV) : after (layer1 (F := Ideal)) U (Proc.devRef .tc main_arg7) = U (Proc.devRef .tc main_arg7) := by after_results_simp

theorem attend1_keep_v1 (U : RV) : after (attend1 (F := Ideal)) U (Proc.devRef .tc main_v1) = U (Proc.devRef .tc main_v1) := by after_results_simp
theorem attend1_keep_v3 (U : RV) : after (attend1 (F := Ideal)) U (Proc.devRef .tc main_v3) = U (Proc.devRef .tc main_v3) := by after_results_simp
theorem attend1_keep_arg4 (U : RV) : after (attend1 (F := Ideal)) U (Proc.devRef .tc main_arg4) = U (Proc.devRef .tc main_arg4) := by after_results_simp
theorem attend1_keep_arg5 (U : RV) : after (attend1 (F := Ideal)) U (Proc.devRef .tc main_arg5) = U (Proc.devRef .tc main_arg5) := by after_results_simp
theorem attend1_keep_arg6 (U : RV) : after (attend1 (F := Ideal)) U (Proc.devRef .tc main_arg6) = U (Proc.devRef .tc main_arg6) := by after_results_simp
theorem attend1_keep_arg7 (U : RV) : after (attend1 (F := Ideal)) U (Proc.devRef .tc main_arg7) = U (Proc.devRef .tc main_arg7) := by after_results_simp

/-- The last layer part leaves the last layer of the second attention step's result in the program's result buffer. -/
theorem layer2_out (U : RV) :
    after (layer2 (F := Ideal)) U (Proc.devRef .tc main_v101)
      = dense (U (Proc.devRef .tc main_v97) : FVec Ideal S50000x128 .f32) (U (Proc.devRef .tc main_arg6) : FVec Ideal S128x128 .f32)
          (fun q => (U (Proc.devRef .tc main_arg7) : FVec Ideal S128 .f32) (ix1 q)) := by
  have e : after (layer2 (F := Ideal)) U (Proc.devRef .tc main_v101)
      = hostLayer (U (Proc.devRef .tc main_v97)) (U (Proc.devRef .tc main_arg6)) (U (Proc.devRef .tc main_arg7)) := by
    after_results_simp
    rfl
  rw [e, hostLayer_eq]

/-- The reference's result from the launch contents, part by part. -/
theorem ops_cut (U : RV) :
    after (ops (F := Ideal)) U = after layer2 (after attend1 (after layer1 (after attend0 (after layer0 U)))) := by
  have app : ∀ (l₁ l₂ : List (HloOp τ sig (Elt Ideal))) (W : RV), after (l₁ ++ l₂) W = after l₂ (after l₁ W) := by
    intro l₁
    induction l₁ with
    | nil => intro _ _; rfl
    | cons op l ih => intro l₂ W; exact ih l₂ (op.result W)
  simp only [ops, app]

end Cert.ReferenceIdeal.Line

end
-- ==== Proof.LibAfterCut.lean ====
/-
  A line of host operations run in two parts.

  The contents of the buffers after a list of operations is a fold over the list, so the contents after a list cut at
  any position are the contents after its second part, started from the contents after its first part.  A buffer
  written in the first part and read in the second is thereby read from intermediate contents, so each part can be
  described by itself, as a function of the contents it starts from.
-/
import Idealize.ShloMosaic.Lib.StableHlo.Run

namespace Cert.Lib.AfterCut

open Idealize.ShloMosaic Idealize.ShloMosaic.StableHlo

variable {τ : Topo} {sig : RefSig} {Val : EltTy → Type}

/-- The contents after two lines, one after the other, are those after their concatenation. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- A line cut after its first `n` operations. -/
theorem after_cut (n : ℕ) (l : List (HloOp τ sig Val)) (V : Valuation τ sig Val) :
    after l V = after (l.drop n) (after (l.take n) V) := by
  rw [← after_append, List.take_append_drop]

end Cert.Lib.AfterCut
-- ==== Proof.BridgeAttend.lean ====
/-
  The attention step is shared.

  Both programs apply the same host operations for an attention step: gather the rows of the input named by the two
  index vectors, take the inner product of each pair, apply the leaky rectifier, normalise the scores by a softmax over
  all of them, weight the second row of each pair and add the weighted rows into the rows named by the first index
  vector.  The kernel program differs only in changing its input to a narrower float format before the gathers and
  back after them, which is the identity on exact values, and in gathering the second rows once where the reference
  gathers them twice.  So the step is never opened: it is enough that the two programs' stretches, started from buffer
  contents that agree on the input and the two index vectors, leave the same array.
-/
import proofs.«142639_j6081673691821_2_alg».proof.Proof.Gen.KernelIdeal.Launch
import proofs.«142639_j6081673691821_2_alg».proof.Proof.RefLine
import proofs.«142639_j6081673691821_2_alg».proof.Proof.LibAfterCut
import Idealize.ShloMosaic.PureOps.Ideal

noncomputable section

namespace Cert.Bridge

open Idealize.ShloMosaic Idealize.ShloMosaic.StableHlo Cert.Lib.AfterCut

/-- Buffer contents of the kernel program and of the reference, at the exact values. -/
abbrev KV := Valuation Cert.KernelIdeal.τ Cert.KernelIdeal.sig (Elt Ideal)
abbrev RV := Valuation Cert.ReferenceIdeal.τ Cert.ReferenceIdeal.sig (Elt Ideal)

/-- A change to a narrower float format is the identity on exact values … -/
theorem truncf_id {s : Shape} {φ ψ : FTy} (x : FVec Ideal s φ) (h : ψ.bits < φ.bits) : (truncf ψ x h : FVec Ideal s ψ) = x := rfl
/-- … and so is a change to a wider one. -/
theorem extf_id {s : Shape} {φ ψ : FTy} (x : FVec Ideal s φ) (h : φ.bits < ψ.bits) : (extf ψ x h : FVec Ideal s ψ) = x := rfl

section
open Cert.ReferenceIdeal Cert.ReferenceIdeal.Gen
/-- The rows of an array named by an index vector, as both programs gather them: a negative index first has 50000 added. -/
def rowsOf (h : FVec Ideal S50000x128 .f32) (v : IVec S800000 32) : FVec Ideal S800000x128 .f32 :=
  Host.gather gather_S50000x128_S800000x1_S800000x128_1_0_n_n_0_1_1128 h
    (broadcastInDim S800000x1 ![0] bcast_S800000_S800000x1_0
      (select (cmpi .slt v (broadcastInDim S800000 ![] bcast_S_S800000 (constantI S_ 32 0#32)))
        (addi v (broadcastInDim S800000 ![] bcast_S_S800000 (constantI S_ 32 50000#32))) v))
end

section
open Cert.KernelIdeal Cert.KernelIdeal.Gen Idealize.ShloMosaic.TcCoe
variable {F : FTy → Type} [FloatOps F]
/-- The kernel program's softmax over the scores (the first thirteen operations of its third list). -/
abbrev kSoft0 : List (HloOp τ sig (Elt F)) :=
  [ StableHlo.nullary main_cst_4 (constant S_ .f32 0xFF800000#32),
    StableHlo.binary main_v31 main_cst_4 main_v32 ((fun x v => Host.reduce FloatOps.maximumf x v reducesTo_S800000_S_d0 h_S_) : (⟨S800000, .f32⟩ : BufTy).Contents (Elt F) → (⟨S_, .f32⟩ : BufTy).Contents (Elt F) → (⟨S_, .f32⟩ : BufTy).Contents (Elt F)),
    StableHlo.nullary main_cst_5 (constant S_ .f32 0xFF800000#32),
    StableHlo.binary main_cst_5 main_v32 main_v33 (maximumf : (⟨S_, .f32⟩ : BufTy).Contents (Elt F) → (⟨S_, .f32⟩ : BufTy).Contents (Elt F) → (⟨S_, .f32⟩ : BufTy).Contents (Elt F)),
    StableHlo.unary main_v33 main_v34 (broadcastInDim S1 ![] bcast_S_S1 : (⟨S_, .f32⟩ : BufTy).Contents (Elt F) → (⟨S1, .f32⟩ : BufTy).Contents (Elt F)),
    StableHlo.unary main_v34 main_v35 (broadcastInDim S800000 ![0] bcast_S1_S800000_0 : (⟨S1, .f32⟩ : BufTy).Contents (Elt F) → (⟨S800000, .f32⟩ : BufTy).Contents (Elt F)),
    StableHlo.binary main_v31 main_v35 main_v36 (subf : (⟨S800000, .f32⟩ : BufTy).Contents (Elt F) → (⟨S800000, .f32⟩ : BufTy).Contents (Elt F) → (⟨S800000, .f32⟩ : BufTy).Contents (Elt F)),
    StableHlo.unary main_v36 main_v37 (Host.exp : (⟨S800000, .f32⟩ : BufTy).Contents (Elt F) → (⟨S800000, .f32⟩ : BufTy).Contents (Elt F)),
    StableHlo.nullary main_cst_6 (constant S_ .f32 0x00000000#32),
    StableHlo.binary main_v37 main_cst_6 main_v38 ((fun x v => Host.reduceAdd x v reducesTo_S800000_S_d0 h_S_) : (⟨S800000, .f32⟩ : BufTy).Contents (Elt F) → (⟨S_, .f32⟩ : BufTy).Contents (Elt F) → (⟨S_, .f32⟩ : BufTy).Contents (Elt F)),
    StableHlo.unary main_v38 main_v39 (broadcastInDim S1 ![] bcast_S_S1 : (⟨S_, .f32⟩ : BufTy).Contents (Elt F) → (⟨S1, .f32⟩ : BufTy).Contents (Elt F)),
    StableHlo.unary main_v39 main_v40 (broadcastInDim S800000 ![0] bcast_S1_S800000_0 : (⟨S1, .f32⟩ : BufTy).Contents (Elt F) → (⟨S800000, .f32⟩ : BufTy).Contents (Elt F)),
    StableHlo.binary main_v37 main_v40 main_v41 (Host.divf : (⟨S800000, .f32⟩ : BufTy).Contents (Elt F) → (⟨S800000, .f32⟩ : BufTy).Contents (Elt F) → (⟨S800000, .f32⟩ : BufTy).Contents (Elt F)) ]

/-- From the weights and the gathered rows to the step's result, then the next launch's weight and bias row. -/
abbrev kFin0 : List (HloOp τ sig (Elt F)) :=
  [ StableHlo.unary main_v41 main_v42 (broadcastInDim S800000x1 ![0] bcast_S800000_S800000x1_0 : (⟨S800000, .f32⟩ : BufTy).Contents (Elt F) → (⟨S800000x1, .f32⟩ : BufTy).Contents (Elt F)),
    StableHlo.unary main_v42 main_v43 (broadcastInDim S800000x128 ![0, 1] bcast_S800000x1_S800000x128_0_1 : (⟨S800000x1, .f32⟩ : BufTy).Contents (Elt F) → (⟨S800000x128, .f32⟩ : BufTy).Contents (Elt F)),
    StableHlo.binary main_v43 main_v28 main_v44 (mulf : (⟨S800000x128, .f32⟩ : BufTy).Contents (Elt F) → (⟨S800000x128, .f32⟩ : BufTy).Contents (Elt F) → (⟨S800000x128, .f32⟩ : BufTy).Contents (Elt F)),
    StableHlo.nullary main_cst_7 (constant S_ .f32 0x00000000#32),
    StableHlo.unary main_cst_7 main_v45 (broadcastInDim S50000x128 ![] bcast_S_S50000x128 : (⟨S_, .f32⟩ : BufTy).Contents (Elt F) → (⟨S50000x128, .f32⟩ : BufTy).Contents (Elt F)),
    StableHlo.unary main_v1 main_v46 (broadcastInDim S800000x1 ![0] bcast_S800000_S800000x1_0 : (⟨S800000, .i32⟩ : BufTy).Contents (Elt F) → (⟨S800000x1, .i32⟩ : BufTy).Contents (Elt F)),
    StableHlo.ternary main_v45 main_v46 main_v44 main_v47 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v47 main_v48 ((truncf .bf16 · bitsLt_bf16_f32) : (⟨S50000x128, .f32⟩ : BufTy).Contents (Elt F) → (⟨S50000x128, .bf16⟩ : BufTy).Contents (Elt F)),
    StableHlo.unary main_v6 main_v49 ((truncf .bf16 · bitsLt_bf16_f32) : (⟨S128x128, .f32⟩ : BufTy).Contents (Elt F) → (⟨S128x128, .bf16⟩ : BufTy).Contents (Elt F)),
    StableHlo.reshape main_v7 main_v50 rfl shapeCasts_S128_S1x128 ]

theorem kCut0 : (hostOps1_2 (F := F)) = kSoft0 ++ kFin0 := rfl
end

section
open Cert.ReferenceIdeal Cert.ReferenceIdeal.Gen Idealize.ShloMosaic.TcCoe
variable {F : FTy → Type} [FloatOps F]
/-- The reference: the two gathers, the inner products, and the rectifier's slope. -/
abbrev rScore0 : List (HloOp τ sig (Elt F)) :=
  [ StableHlo.nullary main_c (constantI S_ 32 0#32),
    StableHlo.unary main_c main_v11 (broadcastInDim S800000 ![] bcast_S_S800000 : (⟨S_, .i32⟩ : BufTy).Contents (Elt F) → (⟨S800000, .i32⟩ : BufTy).Contents (Elt F)),
    StableHlo.binary main_v1 main_v11 main_v12 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v13 (broadcastInDim S800000 ![] bcast_S_S800000 : (⟨S_, .i32⟩ : BufTy).Contents (Elt F) → (⟨S800000, .i32⟩ : BufTy).Contents (Elt F)),
    StableHlo.binary main_v1 main_v13 main_v14 (addi : (⟨S800000, .i32⟩ : BufTy).Contents (Elt F) → (⟨S800000, .i32⟩ : BufTy).Contents (Elt F) → (⟨S800000, .i32⟩ : BufTy).Contents (Elt F)),
    StableHlo.ternary main_v12 main_v14 main_v1 main_v15 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v15 main_v16 (broadcastInDim S800000x1 ![0] bcast_S800000_S800000x1_0 : (⟨S800000, .i32⟩ : BufTy).Contents (Elt F) → (⟨S800000x1, .i32⟩ : BufTy).Contents (Elt F)),
    StableHlo.binary main_v10 main_v16 main_v17 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_c_1 (constantI S_ 32 0#32),
    StableHlo.unary main_c_1 main_v18 (broadcastInDim S800000 ![] bcast_S_S800000 : (⟨S_, .i32⟩ : BufTy).Contents (Elt F) → (⟨S800000, .i32⟩ : BufTy).Contents (Elt F)),
    StableHlo.binary main_v3 main_v18 main_v19 (cmpi .slt : (⟨S800000, .i32⟩ : BufTy).Contents (Elt F) → (⟨S800000, .i32⟩ : BufTy).Contents (Elt F) → (⟨S800000, .i1⟩ : BufTy).Contents (Elt F)),
    StableHlo.nullary main_c_2 (constantI S_ 32 50000#32),
    StableHlo.unary main_c_2 main_v20 (broadcastInDim S800000 ![] bcast_S_S800000 : (⟨S_, .i32⟩ : BufTy).Contents (Elt F) → (⟨S800000, .i32⟩ : BufTy).Contents (Elt F)),
    StableHlo.binary main_v3 main_v20 main_v21 (addi : (⟨S800000, .i32⟩ : BufTy).Contents (Elt F) → (⟨S800000, .i32⟩ : BufTy).Contents (Elt F) → (⟨S800000, .i32⟩ : BufTy).Contents (Elt F)),
    StableHlo.ternary main_v19 main_v21 main_v3 main_v22 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v22 main_v23 (broadcastInDim S800000x1 ![0] bcast_S800000_S800000x1_0 : (⟨S800000, .i32⟩ : BufTy).Contents (Elt F) → (⟨S800000x1, .i32⟩ : BufTy).Contents (Elt F)),
    StableHlo.binary main_v10 main_v23 main_v24 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.binary main_v17 main_v24 main_v25 (mulf : (⟨S800000x128, .f32⟩ : BufTy).Contents (Elt F) → (⟨S800000x128, .f32⟩ : BufTy).Contents (Elt F) → (⟨S800000x128, .f32⟩ : BufTy).Contents (Elt F)),
    StableHlo.nullary main_cst (constant S_ .f32 0x00000000#32),
    StableHlo.binary main_v25 main_cst main_v26 ((fun x v => Host.reduceAdd x v reducesTo_S800000x128_S800000_d1 h_S_) : (⟨S800000x128, .f32⟩ : BufTy).Contents (Elt F) → (⟨S_, .f32⟩ : BufTy).Contents (Elt F) → (⟨S800000, .f32⟩ : BufTy).Contents (Elt F)),
    StableHlo.nullary main_cst_3 (constant S_ .f32 0x3E4CCCCD#32) ]

/-- The reference: the leaky rectifier. -/
abbrev rLeaky0 : List (HloOp τ sig (Elt F)) :=
  [ StableHlo.TRef.nullary main_call1.cst (constant S_ .f32 0x00000000#32),
    StableHlo.TRef.unary main_call1.cst main_call1.v0 (broadcastInDim S800000 ![] bcast_S_S800000),
    StableHlo.TRef.binary (.of main_v26 : StableHlo.TRef sig ⟨S800000, .f32⟩) main_call1.v0 main_call1.v1 (cmpf .oge),
    StableHlo.TRef.unary (.of main_cst_3 : StableHlo.TRef sig ⟨S_, .f32⟩) main_call1.v2 id,
    StableHlo.TRef.unary main_call1.v2 main_call1.v3 (broadcastInDim S800000 ![] bcast_S_S800000),
    StableHlo.TRef.binary main_call1.v3 (.of main_v26 : StableHlo.TRef sig ⟨S800000, .f32⟩) main_call1.v4 mulf,
    StableHlo.TRef.ternary main_call1.v1 (.of main_v26 : StableHlo.TRef sig ⟨S800000, .f32⟩) main_call1.v4 main_call1.call0.v0 select ]

/-- The reference: the softmax over the scores. -/
abbrev rSoft0 : List (HloOp τ sig (Elt F)) :=
  [ StableHlo.nullary main_cst_4 (constant S_ .f32 0xFF800000#32),
    StableHlo.binary main_v27 main_cst_4 main_v28 ((fun x v => Host.reduce FloatOps.maximumf x v reducesTo_S800000_S_d0 h_S_) : (⟨S800000, .f32⟩ : BufTy).Contents (Elt F) → (⟨S_, .f32⟩ : BufTy).Contents (Elt F) → (⟨S_, .f32⟩ : BufTy).Contents (Elt F)),
    StableHlo.nullary main_cst_5 (constant S_ .f32 0xFF800000#32),
    StableHlo.binary main_cst_5 main_v28 main_v29 (maximumf : (⟨S_, .f32⟩ : BufTy).Contents (Elt F) → (⟨S_, .f32⟩ : BufTy).Contents (Elt F) → (⟨S_, .f32⟩ : BufTy).Contents (Elt F)),
    StableHlo.unary main_v29 main_v30 (broadcastInDim S1 ![] bcast_S_S1 : (⟨S_, .f32⟩ : BufTy).Contents (Elt F) → (⟨S1, .f32⟩ : BufTy).Contents (Elt F)),
    StableHlo.unary main_v30 main_v31 (broadcastInDim S800000 ![0] bcast_S1_S800000_0 : (⟨S1, .f32⟩ : BufTy).Contents (Elt F) → (⟨S800000, .f32⟩ : BufTy).Contents (Elt F)),
    StableHlo.binary main_v27 main_v31 main_v32 (subf : (⟨S800000, .f32⟩ : BufTy).Contents (Elt F) → (⟨S800000, .f32⟩ : BufTy).Contents (Elt F) → (⟨S800000, .f32⟩ : BufTy).Contents (Elt F)),
    StableHlo.unary main_v32 main_v33 (Host.exp : (⟨S800000, .f32⟩ : BufTy).Contents (Elt F) → (⟨S800000, .f32⟩ : BufTy).Contents (Elt F)),
    StableHlo.nullary main_cst_6 (constant S_ .f32 0x00000000#32),
    StableHlo.binary main_v33 main_cst_6 main_v34 ((fun x v => Host.reduceAdd x v reducesTo_S800000_S_d0 h_S_) : (⟨S800000, .f32⟩ : BufTy).Contents (Elt F) → (⟨S_, .f32⟩ : BufTy).Contents (Elt F) → (⟨S_, .f32⟩ : BufTy).Contents (Elt F)),
    StableHlo.unary main_v34 main_v35 (broadcastInDim S1 ![] bcast_S_S1 : (⟨S_, .f32⟩ : BufTy).Contents (Elt F) → (⟨S1, .f32⟩ : BufTy).Contents (Elt F)),
    StableHlo.unary main_v35 main_v36 (broadcastInDim S800000 ![0] bcast_S1_S800000_0 : (⟨S1, .f32⟩ : BufTy).Contents (Elt F) → (⟨S800000, .f32⟩ : BufTy).Contents (Elt F)),
    StableHlo.binary main_v33 main_v36 main_v37 (Host.divf : (⟨S800000, .f32⟩ : BufTy).Contents (Elt F) → (⟨S800000, .f32⟩ : BufTy).Contents (Elt F) → (⟨S800000, .f32⟩ : BufTy).Contents (Elt F)) ]

/-- The reference: the second rows gathered again, weighted, and added into the rows named by the first index vector. -/
abbrev rFin0 : List (HloOp τ sig (Elt F)) :=
  [ StableHlo.unary main_v37 main_v38 (broadcastInDim S800000x1 ![0] bcast_S800000_S800000x1_0 : (⟨S800000, .f32⟩ : BufTy).Contents (Elt F) → (⟨S800000x1, .f32⟩ : BufTy).Contents (Elt F)),
    StableHlo.nullary main_c_7 (constantI S_ 32 0#32),
    StableHlo.unary main_c_7 main_v39 (broadcastInDim S800000 ![] bcast_S_S800000 : (⟨S_, .i32⟩ : BufTy).Contents (Elt F) → (⟨S800000, .i32⟩ : BufTy).Contents (Elt F)),
    StableHlo.binary main_v3 main_v39 main_v40 (cmpi .slt : (⟨S800000, .i32⟩ : BufTy).Contents (Elt F) → (⟨S800000, .i32⟩ : BufTy).Contents (Elt F) → (⟨S800000, .i1⟩ : BufTy).Contents (Elt F)),
    StableHlo.nullary main_c_8 (constantI S_ 32 50000#32),
    StableHlo.unary main_c_8 main_v41 (broadcastInDim S800000 ![] bcast_S_S800000 : (⟨S_, .i32⟩ : BufTy).Contents (Elt F) → (⟨S800000, .i32⟩ : BufTy).Contents (Elt F)),
    StableHlo.binary main_v3 main_v41 main_v42 (addi : (⟨S800000, .i32⟩ : BufTy).Contents (Elt F) → (⟨S800000, .i32⟩ : BufTy).Contents (Elt F) → (⟨S800000, .i32⟩ : BufTy).Contents (Elt F)),
    StableHlo.ternary main_v40 main_v42 main_v3 main_v43 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v43 main_v44 (broadcastInDim S800000x1 ![0] bcast_S800000_S800000x1_0 : (⟨S800000, .i32⟩ : BufTy).Contents (Elt F) → (⟨S800000x1, .i32⟩ : BufTy).Contents (Elt F)),
    StableHlo.binary main_v10 main_v44 main_v45 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_v38 main_v46 (broadcastInDim S800000x128 ![0, 1] bcast_S800000x1_S800000x128_0_1 : (⟨S800000x1, .f32⟩ : BufTy).Contents (Elt F) → (⟨S800000x128, .f32⟩ : BufTy).Contents (Elt F)),
    StableHlo.binary main_v46 main_v45 main_v47 (mulf : (⟨S800000x128, .f32⟩ : BufTy).Contents (Elt F) → (⟨S800000x128, .f32⟩ : BufTy).Contents (Elt F) → (⟨S800000x128, .f32⟩ : BufTy).Contents (Elt F)),
    StableHlo.nullary main_cst_9 (constant S_ .f32 0x00000000#32),
    StableHlo.unary main_cst_9 main_v48 (broadcastInDim S50000x128 ![] bcast_S_S50000x128 : (⟨S_, .f32⟩ : BufTy).Contents (Elt F) → (⟨S50000x128, .f32⟩ : BufTy).Contents (Elt F)),
    StableHlo.unary main_v1 main_v49 (broadcastInDim S800000x1 ![0] bcast_S800000_S800000x1_0 : (⟨S800000, .i32⟩ : BufTy).Contents (Elt F) → (⟨S800000x1, .i32⟩ : BufTy).Contents (Elt F)),
    StableHlo.ternary main_v48 main_v49 main_v47 main_v50 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ]

theorem rCut0 : (Cert.ReferenceIdeal.Line.attend0 (F := F)) = rScore0 ++ (rLeaky0 ++ (rSoft0 ++ rFin0)) := rfl
end

/-! ### Attention step 1, stage by stage -/

attribute [local irreducible] Host.gather Host.reduceAdd in
/-- Scores: from contents agreeing on the input and the two index vectors, both programs compute the same inner
    products of the gathered pairs of rows. -/
theorem score0_t (V : KV) (U : RV) (hh : V (Proc.devRef .tc Cert.KernelIdeal.main_v11) = U (Proc.devRef .tc Cert.ReferenceIdeal.main_v10)) (hr : V (Proc.devRef .tc Cert.KernelIdeal.main_v1) = U (Proc.devRef .tc Cert.ReferenceIdeal.main_v1)) (hc : V (Proc.devRef .tc Cert.KernelIdeal.main_v3) = U (Proc.devRef .tc Cert.ReferenceIdeal.main_v3)) :
    after (Cert.KernelIdeal.Gen.hostOps1 (F := Ideal)) V (Proc.devRef .tc Cert.KernelIdeal.main_v30) = after (rScore0 (F := Ideal)) U (Proc.devRef .tc Cert.ReferenceIdeal.main_v26) := by
  after_results_simp
  rw [hh, hr, hc]
  simp only [truncf_id, extf_id]
  rfl

attribute [local irreducible] Host.gather in
/-- The kernel program's gathered second rows are the rows of the reference's input named by its second index vector. -/
theorem score0_xc (V : KV) (U : RV) (hh : V (Proc.devRef .tc Cert.KernelIdeal.main_v11) = U (Proc.devRef .tc Cert.ReferenceIdeal.main_v10)) (hc : V (Proc.devRef .tc Cert.KernelIdeal.main_v3) = U (Proc.devRef .tc Cert.ReferenceIdeal.main_v3)) :
    after (Cert.KernelIdeal.Gen.hostOps1 (F := Ideal)) V (Proc.devRef .tc Cert.KernelIdeal.main_v28) = rowsOf (U (Proc.devRef .tc Cert.ReferenceIdeal.main_v10)) (U (Proc.devRef .tc Cert.ReferenceIdeal.main_v3)) := by
  after_results_simp
  rw [hh, hc]
  simp only [truncf_id, extf_id]
  rfl

/-- The rectifier's slope is the same constant. -/
theorem score0_a (V : KV) (U : RV) : after (Cert.KernelIdeal.Gen.hostOps1 (F := Ideal)) V (Proc.devRef .tc Cert.KernelIdeal.main_cst_3) = after (rScore0 (F := Ideal)) U (Proc.devRef .tc Cert.ReferenceIdeal.main_cst_3) := by
  after_results_simp
theorem score0_keepK_row (V : KV) : after (Cert.KernelIdeal.Gen.hostOps1 (F := Ideal)) V (Proc.devRef .tc Cert.KernelIdeal.main_v1) = V (Proc.devRef .tc Cert.KernelIdeal.main_v1) := by after_results_simp
theorem score0_keepR_h (U : RV) : after (rScore0 (F := Ideal)) U (Proc.devRef .tc Cert.ReferenceIdeal.main_v10) = U (Proc.devRef .tc Cert.ReferenceIdeal.main_v10) := by after_results_simp
theorem score0_keepR_row (U : RV) : after (rScore0 (F := Ideal)) U (Proc.devRef .tc Cert.ReferenceIdeal.main_v1) = U (Proc.devRef .tc Cert.ReferenceIdeal.main_v1) := by after_results_simp
theorem score0_keepR_col (U : RV) : after (rScore0 (F := Ideal)) U (Proc.devRef .tc Cert.ReferenceIdeal.main_v3) = U (Proc.devRef .tc Cert.ReferenceIdeal.main_v3) := by after_results_simp

/-- Leaky rectifier: equal scores and equal slope give equal rectified scores. -/
theorem leaky0_s (V : KV) (U : RV) (ht : V (Proc.devRef .tc Cert.KernelIdeal.main_v30) = U (Proc.devRef .tc Cert.ReferenceIdeal.main_v26)) (ha : V (Proc.devRef .tc Cert.KernelIdeal.main_cst_3) = U (Proc.devRef .tc Cert.ReferenceIdeal.main_cst_3)) :
    after (Cert.KernelIdeal.Gen.hostOps1_1 (F := Ideal)) V (Proc.devRef .tc Cert.KernelIdeal.main_v31) = after (rLeaky0 (F := Ideal)) U (Proc.devRef .tc Cert.ReferenceIdeal.main_v27) := by
  after_results_simp
  rw [ht, ha]
theorem leaky0_keepK_xc (V : KV) : after (Cert.KernelIdeal.Gen.hostOps1_1 (F := Ideal)) V (Proc.devRef .tc Cert.KernelIdeal.main_v28) = V (Proc.devRef .tc Cert.KernelIdeal.main_v28) := by after_results_simp
theorem leaky0_keepK_row (V : KV) : after (Cert.KernelIdeal.Gen.hostOps1_1 (F := Ideal)) V (Proc.devRef .tc Cert.KernelIdeal.main_v1) = V (Proc.devRef .tc Cert.KernelIdeal.main_v1) := by after_results_simp
theorem leaky0_keepR_h (U : RV) : after (rLeaky0 (F := Ideal)) U (Proc.devRef .tc Cert.ReferenceIdeal.main_v10) = U (Proc.devRef .tc Cert.ReferenceIdeal.main_v10) := by after_results_simp
theorem leaky0_keepR_row (U : RV) : after (rLeaky0 (F := Ideal)) U (Proc.devRef .tc Cert.ReferenceIdeal.main_v1) = U (Proc.devRef .tc Cert.ReferenceIdeal.main_v1) := by after_results_simp
theorem leaky0_keepR_col (U : RV) : after (rLeaky0 (F := Ideal)) U (Proc.devRef .tc Cert.ReferenceIdeal.main_v3) = U (Proc.devRef .tc Cert.ReferenceIdeal.main_v3) := by after_results_simp

attribute [local irreducible] Host.reduce Host.reduceAdd in
/-- Softmax: equal rectified scores give equal weights. -/
theorem soft0_w (V : KV) (U : RV) (hs : V (Proc.devRef .tc Cert.KernelIdeal.main_v31) = U (Proc.devRef .tc Cert.ReferenceIdeal.main_v27)) :
    after (kSoft0 (F := Ideal)) V (Proc.devRef .tc Cert.KernelIdeal.main_v41) = after (rSoft0 (F := Ideal)) U (Proc.devRef .tc Cert.ReferenceIdeal.main_v37) := by
  after_results_simp
  rw [hs]
theorem soft0_keepK_xc (V : KV) : after (kSoft0 (F := Ideal)) V (Proc.devRef .tc Cert.KernelIdeal.main_v28) = V (Proc.devRef .tc Cert.KernelIdeal.main_v28) := by after_results_simp
theorem soft0_keepK_row (V : KV) : after (kSoft0 (F := Ideal)) V (Proc.devRef .tc Cert.KernelIdeal.main_v1) = V (Proc.devRef .tc Cert.KernelIdeal.main_v1) := by after_results_simp
theorem soft0_keepR_h (U : RV) : after (rSoft0 (F := Ideal)) U (Proc.devRef .tc Cert.ReferenceIdeal.main_v10) = U (Proc.devRef .tc Cert.ReferenceIdeal.main_v10) := by after_results_simp
theorem soft0_keepR_row (U : RV) : after (rSoft0 (F := Ideal)) U (Proc.devRef .tc Cert.ReferenceIdeal.main_v1) = U (Proc.devRef .tc Cert.ReferenceIdeal.main_v1) := by after_results_simp
theorem soft0_keepR_col (U : RV) : after (rSoft0 (F := Ideal)) U (Proc.devRef .tc Cert.ReferenceIdeal.main_v3) = U (Proc.devRef .tc Cert.ReferenceIdeal.main_v3) := by after_results_simp

attribute [local irreducible] Host.gather Host.scatterAdd in
/-- The weighted rows added up: equal weights, the same gathered second rows and the same first index vector give the
    same array of sums. -/
theorem fin0_sum (V : KV) (U : RV) (hw : V (Proc.devRef .tc Cert.KernelIdeal.main_v41) = U (Proc.devRef .tc Cert.ReferenceIdeal.main_v37)) (hxc : V (Proc.devRef .tc Cert.KernelIdeal.main_v28) = rowsOf (U (Proc.devRef .tc Cert.ReferenceIdeal.main_v10)) (U (Proc.devRef .tc Cert.ReferenceIdeal.main_v3)))
    (hr : V (Proc.devRef .tc Cert.KernelIdeal.main_v1) = U (Proc.devRef .tc Cert.ReferenceIdeal.main_v1)) :
    after (kFin0 (F := Ideal)) V (Proc.devRef .tc Cert.KernelIdeal.main_v47) = after (rFin0 (F := Ideal)) U (Proc.devRef .tc Cert.ReferenceIdeal.main_v50) := by
  after_results_simp
  rw [hw, hxc, hr]
  rfl

/-- The kernel program then narrows the float format of the sums, which is the identity on exact values. -/
theorem fin0_narrow (V : KV) : after (kFin0 (F := Ideal)) V (Proc.devRef .tc Cert.KernelIdeal.main_v48) = after (kFin0 (F := Ideal)) V (Proc.devRef .tc Cert.KernelIdeal.main_v47) := by
  after_results_simp
  exact truncf_id _ _

/-- Attention step 1 is the same function of its input and the two index vectors in both programs: the kernel
    program's stretch of host operations and the reference's part, started from buffer contents that agree on those
    three arrays, leave the same array. -/
theorem attend0_eq (V : KV) (U : RV)
    (hh : V (Proc.devRef .tc Cert.KernelIdeal.main_v11) = U (Proc.devRef .tc Cert.ReferenceIdeal.main_v10)) (hr : V (Proc.devRef .tc Cert.KernelIdeal.main_v1) = U (Proc.devRef .tc Cert.ReferenceIdeal.main_v1)) (hc : V (Proc.devRef .tc Cert.KernelIdeal.main_v3) = U (Proc.devRef .tc Cert.ReferenceIdeal.main_v3)) :
    after (Cert.KernelIdeal.Gen.hostOps1_2 (F := Ideal)) (after (Cert.KernelIdeal.Gen.hostOps1_1 (F := Ideal)) (after (Cert.KernelIdeal.Gen.hostOps1 (F := Ideal)) V)) (Proc.devRef .tc Cert.KernelIdeal.main_v48)
      = after (Cert.ReferenceIdeal.Line.attend0 (F := Ideal)) U (Proc.devRef .tc Cert.ReferenceIdeal.main_v50) := by
  rw [kCut0 (F := Ideal), rCut0 (F := Ideal), after_append, after_append, after_append, after_append]
  have t1 := score0_t V U hh hr hc
  have x1 := score0_xc V U hh hc
  have a1 := score0_a V U
  have r1 : after (Cert.KernelIdeal.Gen.hostOps1 (F := Ideal)) V (Proc.devRef .tc Cert.KernelIdeal.main_v1) = after (rScore0 (F := Ideal)) U (Proc.devRef .tc Cert.ReferenceIdeal.main_v1) :=
    (score0_keepK_row V).trans (hr.trans (score0_keepR_row U).symm)
  have x1' : after (Cert.KernelIdeal.Gen.hostOps1 (F := Ideal)) V (Proc.devRef .tc Cert.KernelIdeal.main_v28) = rowsOf (after (rScore0 (F := Ideal)) U (Proc.devRef .tc Cert.ReferenceIdeal.main_v10)) (after (rScore0 (F := Ideal)) U (Proc.devRef .tc Cert.ReferenceIdeal.main_v3)) := by
    rw [score0_keepR_h, score0_keepR_col]; exact x1
  have s2 := leaky0_s (after (Cert.KernelIdeal.Gen.hostOps1 (F := Ideal)) V) (after (rScore0 (F := Ideal)) U) t1 a1
  have x2 : after (Cert.KernelIdeal.Gen.hostOps1_1 (F := Ideal)) (after (Cert.KernelIdeal.Gen.hostOps1 (F := Ideal)) V) (Proc.devRef .tc Cert.KernelIdeal.main_v28)
      = rowsOf (after (rLeaky0 (F := Ideal)) (after (rScore0 (F := Ideal)) U) (Proc.devRef .tc Cert.ReferenceIdeal.main_v10)) (after (rLeaky0 (F := Ideal)) (after (rScore0 (F := Ideal)) U) (Proc.devRef .tc Cert.ReferenceIdeal.main_v3)) := by
    rw [leaky0_keepK_xc, leaky0_keepR_h, leaky0_keepR_col]; exact x1'
  have r2 : after (Cert.KernelIdeal.Gen.hostOps1_1 (F := Ideal)) (after (Cert.KernelIdeal.Gen.hostOps1 (F := Ideal)) V) (Proc.devRef .tc Cert.KernelIdeal.main_v1) = after (rLeaky0 (F := Ideal)) (after (rScore0 (F := Ideal)) U) (Proc.devRef .tc Cert.ReferenceIdeal.main_v1) := by
    rw [leaky0_keepK_row, leaky0_keepR_row]; exact r1
  have w3 := soft0_w (after (Cert.KernelIdeal.Gen.hostOps1_1 (F := Ideal)) (after (Cert.KernelIdeal.Gen.hostOps1 (F := Ideal)) V)) (after (rLeaky0 (F := Ideal)) (after (rScore0 (F := Ideal)) U)) s2
  have x3 : after (kSoft0 (F := Ideal)) (after (Cert.KernelIdeal.Gen.hostOps1_1 (F := Ideal)) (after (Cert.KernelIdeal.Gen.hostOps1 (F := Ideal)) V)) (Proc.devRef .tc Cert.KernelIdeal.main_v28)
      = rowsOf (after (rSoft0 (F := Ideal)) (after (rLeaky0 (F := Ideal)) (after (rScore0 (F := Ideal)) U)) (Proc.devRef .tc Cert.ReferenceIdeal.main_v10)) (after (rSoft0 (F := Ideal)) (after (rLeaky0 (F := Ideal)) (after (rScore0 (F := Ideal)) U)) (Proc.devRef .tc Cert.ReferenceIdeal.main_v3)) := by
    rw [soft0_keepK_xc, soft0_keepR_h, soft0_keepR_col]; exact x2
  have r3 : after (kSoft0 (F := Ideal)) (after (Cert.KernelIdeal.Gen.hostOps1_1 (F := Ideal)) (after (Cert.KernelIdeal.Gen.hostOps1 (F := Ideal)) V)) (Proc.devRef .tc Cert.KernelIdeal.main_v1) = after (rSoft0 (F := Ideal)) (after (rLeaky0 (F := Ideal)) (after (rScore0 (F := Ideal)) U)) (Proc.devRef .tc Cert.ReferenceIdeal.main_v1) := by
    rw [soft0_keepK_row, soft0_keepR_row]; exact r2
  exact (fin0_narrow _).trans (fin0_sum _ _ w3 x3 r3)

section
open Cert.KernelIdeal Cert.KernelIdeal.Gen Idealize.ShloMosaic.TcCoe
variable {F : FTy → Type} [FloatOps F]
/-- The kernel program's softmax over the scores (the first thirteen operations of its third list). -/
abbrev kSoft1 : List (HloOp τ sig (Elt F)) :=
  [ StableHlo.nullary main_cst_14 (constant S_ .f32 0xFF800000#32),
    StableHlo.binary main_v71 main_cst_14 main_v72 ((fun x v => Host.reduce FloatOps.maximumf x v reducesTo_S800000_S_d0 h_S_) : (⟨S800000, .f32⟩ : BufTy).Contents (Elt F) → (⟨S_, .f32⟩ : BufTy).Contents (Elt F) → (⟨S_, .f32⟩ : BufTy).Contents (Elt F)),
    StableHlo.nullary main_cst_15 (constant S_ .f32 0xFF800000#32),
    StableHlo.binary main_cst_15 main_v72 main_v73 (maximumf : (⟨S_, .f32⟩ : BufTy).Contents (Elt F) → (⟨S_, .f32⟩ : BufTy).Contents (Elt F) → (⟨S_, .f32⟩ : BufTy).Contents (Elt F)),
    StableHlo.unary main_v73 main_v74 (broadcastInDim S1 ![] bcast_S_S1 : (⟨S_, .f32⟩ : BufTy).Contents (Elt F) → (⟨S1, .f32⟩ : BufTy).Contents (Elt F)),
    StableHlo.unary main_v74 main_v75 (broadcastInDim S800000 ![0] bcast_S1_S800000_0 : (⟨S1, .f32⟩ : BufTy).Contents (Elt F) → (⟨S800000, .f32⟩ : BufTy).Contents (Elt F)),
    StableHlo.binary main_v71 main_v75 main_v76 (subf : (⟨S800000, .f32⟩ : BufTy).Contents (Elt F) → (⟨S800000, .f32⟩ : BufTy).Contents (Elt F) → (⟨S800000, .f32⟩ : BufTy).Contents (Elt F)),
    StableHlo.unary main_v76 main_v77 (Host.exp : (⟨S800000, .f32⟩ : BufTy).Contents (Elt F) → (⟨S800000, .f32⟩ : BufTy).Contents (Elt F)),
    StableHlo.nullary main_cst_16 (constant S_ .f32 0x00000000#32),
    StableHlo.binary main_v77 main_cst_16 main_v78 ((fun x v => Host.reduceAdd x v reducesTo_S800000_S_d0 h_S_) : (⟨S800000, .f32⟩ : BufTy).Contents (Elt F) → (⟨S_, .f32⟩ : BufTy).Contents (Elt F) → (⟨S_, .f32⟩ : BufTy).Contents (Elt F)),
    StableHlo.unary main_v78 main_v79 (broadcastInDim S1 ![] bcast_S_S1 : (⟨S_, .f32⟩ : BufTy).Contents (Elt F) → (⟨S1, .f32⟩ : BufTy).Contents (Elt F)),
    StableHlo.unary main_v79 main_v80 (broadcastInDim S800000 ![0] bcast_S1_S800000_0 : (⟨S1, .f32⟩ : BufTy).Contents (Elt F) → (⟨S800000, .f32⟩ : BufTy).Contents (Elt F)),
    StableHlo.binary main_v77 main_v80 main_v81 (Host.divf : (⟨S800000, .f32⟩ : BufTy).Contents (Elt F) → (⟨S800000, .f32⟩ : BufTy).Contents (Elt F) → (⟨S800000, .f32⟩ : BufTy).Contents (Elt F)) ]

/-- From the weights and the gathered rows to the step's result, then the next launch's weight and bias row. -/
abbrev kFin1 : List (HloOp τ sig (Elt F)) :=
  [ StableHlo.unary main_v81 main_v82 (broadcastInDim S800000x1 ![0] bcast_S800000_S800000x1_0 : (⟨S800000, .f32⟩ : BufTy).Contents (Elt F) → (⟨S800000x1, .f32⟩ : BufTy).Contents (Elt F)),
    StableHlo.unary main_v82 main_v83 (broadcastInDim S800000x128 ![0, 1] bcast_S800000x1_S800000x128_0_1 : (⟨S800000x1, .f32⟩ : BufTy).Contents (Elt F) → (⟨S800000x128, .f32⟩ : BufTy).Contents (Elt F)),
    StableHlo.binary main_v83 main_v68 main_v84 (mulf : (⟨S800000x128, .f32⟩ : BufTy).Contents (Elt F) → (⟨S800000x128, .f32⟩ : BufTy).Contents (Elt F) → (⟨S800000x128, .f32⟩ : BufTy).Contents (Elt F)),
    StableHlo.nullary main_cst_17 (constant S_ .f32 0x00000000#32),
    StableHlo.unary main_cst_17 main_v85 (broadcastInDim S50000x128 ![] bcast_S_S50000x128 : (⟨S_, .f32⟩ : BufTy).Contents (Elt F) → (⟨S50000x128, .f32⟩ : BufTy).Contents (Elt F)),
    StableHlo.unary main_v1 main_v86 (broadcastInDim S800000x1 ![0] bcast_S800000_S800000x1_0 : (⟨S800000, .i32⟩ : BufTy).Contents (Elt F) → (⟨S800000x1, .i32⟩ : BufTy).Contents (Elt F)),
    StableHlo.ternary main_v85 main_v86 main_v84 main_v87 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v87 main_v88 ((truncf .bf16 · bitsLt_bf16_f32) : (⟨S50000x128, .f32⟩ : BufTy).Contents (Elt F) → (⟨S50000x128, .bf16⟩ : BufTy).Contents (Elt F)),
    StableHlo.unary main_arg6 main_v89 ((truncf .bf16 · bitsLt_bf16_f32) : (⟨S128x128, .f32⟩ : BufTy).Contents (Elt F) → (⟨S128x128, .bf16⟩ : BufTy).Contents (Elt F)),
    StableHlo.reshape main_arg7 main_v90 rfl shapeCasts_S128_S1x128 ]

theorem kCut1 : (hostOps2_2 (F := F)) = kSoft1 ++ kFin1 := rfl
end

section
open Cert.ReferenceIdeal Cert.ReferenceIdeal.Gen Idealize.ShloMosaic.TcCoe
variable {F : FTy → Type} [FloatOps F]
/-- The reference: the two gathers, the inner products, and the rectifier's slope. -/
abbrev rScore1 : List (HloOp τ sig (Elt F)) :=
  [ StableHlo.nullary main_c_10 (constantI S_ 32 0#32),
    StableHlo.unary main_c_10 main_v58 (broadcastInDim S800000 ![] bcast_S_S800000 : (⟨S_, .i32⟩ : BufTy).Contents (Elt F) → (⟨S800000, .i32⟩ : BufTy).Contents (Elt F)),
    StableHlo.binary main_v1 main_v58 main_v59 (cmpi .slt : (⟨S800000, .i32⟩ : BufTy).Contents (Elt F) → (⟨S800000, .i32⟩ : BufTy).Contents (Elt F) → (⟨S800000, .i1⟩ : BufTy).Contents (Elt F)),
    StableHlo.nullary main_c_11 (constantI S_ 32 50000#32),
    StableHlo.unary main_c_11 main_v60 (broadcastInDim S800000 ![] bcast_S_S800000 : (⟨S_, .i32⟩ : BufTy).Contents (Elt F) → (⟨S800000, .i32⟩ : BufTy).Contents (Elt F)),
    StableHlo.binary main_v1 main_v60 main_v61 (addi : (⟨S800000, .i32⟩ : BufTy).Contents (Elt F) → (⟨S800000, .i32⟩ : BufTy).Contents (Elt F) → (⟨S800000, .i32⟩ : BufTy).Contents (Elt F)),
    StableHlo.ternary main_v59 main_v61 main_v1 main_v62 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v62 main_v63 (broadcastInDim S800000x1 ![0] bcast_S800000_S800000x1_0 : (⟨S800000, .i32⟩ : BufTy).Contents (Elt F) → (⟨S800000x1, .i32⟩ : BufTy).Contents (Elt F)),
    StableHlo.binary main_v57 main_v63 main_v64 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_c_12 (constantI S_ 32 0#32),
    StableHlo.unary main_c_12 main_v65 (broadcastInDim S800000 ![] bcast_S_S800000 : (⟨S_, .i32⟩ : BufTy).Contents (Elt F) → (⟨S800000, .i32⟩ : BufTy).Contents (Elt F)),
    StableHlo.binary main_v3 main_v65 main_v66 (cmpi .slt : (⟨S800000, .i32⟩ : BufTy).Contents (Elt F) → (⟨S800000, .i32⟩ : BufTy).Contents (Elt F) → (⟨S800000, .i1⟩ : BufTy).Contents (Elt F)),
    StableHlo.nullary main_c_13 (constantI S_ 32 50000#32),
    StableHlo.unary main_c_13 main_v67 (broadcastInDim S800000 ![] bcast_S_S800000 : (⟨S_, .i32⟩ : BufTy).Contents (Elt F) → (⟨S800000, .i32⟩ : BufTy).Contents (Elt F)),
    StableHlo.binary main_v3 main_v67 main_v68 (addi : (⟨S800000, .i32⟩ : BufTy).Contents (Elt F) → (⟨S800000, .i32⟩ : BufTy).Contents (Elt F) → (⟨S800000, .i32⟩ : BufTy).Contents (Elt F)),
    StableHlo.ternary main_v66 main_v68 main_v3 main_v69 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v69 main_v70 (broadcastInDim S800000x1 ![0] bcast_S800000_S800000x1_0 : (⟨S800000, .i32⟩ : BufTy).Contents (Elt F) → (⟨S800000x1, .i32⟩ : BufTy).Contents (Elt F)),
    StableHlo.binary main_v57 main_v70 main_v71 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.binary main_v64 main_v71 main_v72 (mulf : (⟨S800000x128, .f32⟩ : BufTy).Contents (Elt F) → (⟨S800000x128, .f32⟩ : BufTy).Contents (Elt F) → (⟨S800000x128, .f32⟩ : BufTy).Contents (Elt F)),
    StableHlo.nullary main_cst_14 (constant S_ .f32 0x00000000#32),
    StableHlo.binary main_v72 main_cst_14 main_v73 ((fun x v => Host.reduceAdd x v reducesTo_S800000x128_S800000_d1 h_S_) : (⟨S800000x128, .f32⟩ : BufTy).Contents (Elt F) → (⟨S_, .f32⟩ : BufTy).Contents (Elt F) → (⟨S800000, .f32⟩ : BufTy).Contents (Elt F)),
    StableHlo.nullary main_cst_15 (constant S_ .f32 0x3E4CCCCD#32) ]

/-- The reference: the leaky rectifier. -/
abbrev rLeaky1 : List (HloOp τ sig (Elt F)) :=
  [ StableHlo.TRef.nullary main_call3.cst (constant S_ .f32 0x00000000#32),
    StableHlo.TRef.unary main_call3.cst main_call3.v0 (broadcastInDim S800000 ![] bcast_S_S800000),
    StableHlo.TRef.binary (.of main_v73 : StableHlo.TRef sig ⟨S800000, .f32⟩) main_call3.v0 main_call3.v1 (cmpf .oge),
    StableHlo.TRef.unary (.of main_cst_15 : StableHlo.TRef sig ⟨S_, .f32⟩) main_call3.v2 id,
    StableHlo.TRef.unary main_call3.v2 main_call3.v3 (broadcastInDim S800000 ![] bcast_S_S800000),
    StableHlo.TRef.binary main_call3.v3 (.of main_v73 : StableHlo.TRef sig ⟨S800000, .f32⟩) main_call3.v4 mulf,
    StableHlo.TRef.ternary main_call3.v1 (.of main_v73 : StableHlo.TRef sig ⟨S800000, .f32⟩) main_call3.v4 main_call3.call0.v0 select ]

/-- The reference: the softmax over the scores. -/
abbrev rSoft1 : List (HloOp τ sig (Elt F)) :=
  [ StableHlo.nullary main_cst_16 (constant S_ .f32 0xFF800000#32),
    StableHlo.binary main_v74 main_cst_16 main_v75 ((fun x v => Host.reduce FloatOps.maximumf x v reducesTo_S800000_S_d0 h_S_) : (⟨S800000, .f32⟩ : BufTy).Contents (Elt F) → (⟨S_, .f32⟩ : BufTy).Contents (Elt F) → (⟨S_, .f32⟩ : BufTy).Contents (Elt F)),
    StableHlo.nullary main_cst_17 (constant S_ .f32 0xFF800000#32),
    StableHlo.binary main_cst_17 main_v75 main_v76 (maximumf : (⟨S_, .f32⟩ : BufTy).Contents (Elt F) → (⟨S_, .f32⟩ : BufTy).Contents (Elt F) → (⟨S_, .f32⟩ : BufTy).Contents (Elt F)),
    StableHlo.unary main_v76 main_v77 (broadcastInDim S1 ![] bcast_S_S1 : (⟨S_, .f32⟩ : BufTy).Contents (Elt F) → (⟨S1, .f32⟩ : BufTy).Contents (Elt F)),
    StableHlo.unary main_v77 main_v78 (broadcastInDim S800000 ![0] bcast_S1_S800000_0 : (⟨S1, .f32⟩ : BufTy).Contents (Elt F) → (⟨S800000, .f32⟩ : BufTy).Contents (Elt F)),
    StableHlo.binary main_v74 main_v78 main_v79 (subf : (⟨S800000, .f32⟩ : BufTy).Contents (Elt F) → (⟨S800000, .f32⟩ : BufTy).Contents (Elt F) → (⟨S800000, .f32⟩ : BufTy).Contents (Elt F)),
    StableHlo.unary main_v79 main_v80 (Host.exp : (⟨S800000, .f32⟩ : BufTy).Contents (Elt F) → (⟨S800000, .f32⟩ : BufTy).Contents (Elt F)),
    StableHlo.nullary main_cst_18 (constant S_ .f32 0x00000000#32),
    StableHlo.binary main_v80 main_cst_18 main_v81 ((fun x v => Host.reduceAdd x v reducesTo_S800000_S_d0 h_S_) : (⟨S800000, .f32⟩ : BufTy).Contents (Elt F) → (⟨S_, .f32⟩ : BufTy).Contents (Elt F) → (⟨S_, .f32⟩ : BufTy).Contents (Elt F)),
    StableHlo.unary main_v81 main_v82 (broadcastInDim S1 ![] bcast_S_S1 : (⟨S_, .f32⟩ : BufTy).Contents (Elt F) → (⟨S1, .f32⟩ : BufTy).Contents (Elt F)),
    StableHlo.unary main_v82 main_v83 (broadcastInDim S800000 ![0] bcast_S1_S800000_0 : (⟨S1, .f32⟩ : BufTy).Contents (Elt F) → (⟨S800000, .f32⟩ : BufTy).Contents (Elt F)),
    StableHlo.binary main_v80 main_v83 main_v84 (Host.divf : (⟨S800000, .f32⟩ : BufTy).Contents (Elt F) → (⟨S800000, .f32⟩ : BufTy).Contents (Elt F) → (⟨S800000, .f32⟩ : BufTy).Contents (Elt F)) ]

/-- The reference: the second rows gathered again, weighted, and added into the rows named by the first index vector. -/
abbrev rFin1 : List (HloOp τ sig (Elt F)) :=
  [ StableHlo.unary main_v84 main_v85 (broadcastInDim S800000x1 ![0] bcast_S800000_S800000x1_0 : (⟨S800000, .f32⟩ : BufTy).Contents (Elt F) → (⟨S800000x1, .f32⟩ : BufTy).Contents (Elt F)),
    StableHlo.nullary main_c_19 (constantI S_ 32 0#32),
    StableHlo.unary main_c_19 main_v86 (broadcastInDim S800000 ![] bcast_S_S800000 : (⟨S_, .i32⟩ : BufTy).Contents (Elt F) → (⟨S800000, .i32⟩ : BufTy).Contents (Elt F)),
    StableHlo.binary main_v3 main_v86 main_v87 (cmpi .slt : (⟨S800000, .i32⟩ : BufTy).Contents (Elt F) → (⟨S800000, .i32⟩ : BufTy).Contents (Elt F) → (⟨S800000, .i1⟩ : BufTy).Contents (Elt F)),
    StableHlo.nullary main_c_20 (constantI S_ 32 50000#32),
    StableHlo.unary main_c_20 main_v88 (broadcastInDim S800000 ![] bcast_S_S800000 : (⟨S_, .i32⟩ : BufTy).Contents (Elt F) → (⟨S800000, .i32⟩ : BufTy).Contents (Elt F)),
    StableHlo.binary main_v3 main_v88 main_v89 (addi : (⟨S800000, .i32⟩ : BufTy).Contents (Elt F) → (⟨S800000, .i32⟩ : BufTy).Contents (Elt F) → (⟨S800000, .i32⟩ : BufTy).Contents (Elt F)),
    StableHlo.ternary main_v87 main_v89 main_v3 main_v90 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v90 main_v91 (broadcastInDim S800000x1 ![0] bcast_S800000_S800000x1_0 : (⟨S800000, .i32⟩ : BufTy).Contents (Elt F) → (⟨S800000x1, .i32⟩ : BufTy).Contents (Elt F)),
    StableHlo.binary main_v57 main_v91 main_v92 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_v85 main_v93 (broadcastInDim S800000x128 ![0, 1] bcast_S800000x1_S800000x128_0_1 : (⟨S800000x1, .f32⟩ : BufTy).Contents (Elt F) → (⟨S800000x128, .f32⟩ : BufTy).Contents (Elt F)),
    StableHlo.binary main_v93 main_v92 main_v94 (mulf : (⟨S800000x128, .f32⟩ : BufTy).Contents (Elt F) → (⟨S800000x128, .f32⟩ : BufTy).Contents (Elt F) → (⟨S800000x128, .f32⟩ : BufTy).Contents (Elt F)),
    StableHlo.nullary main_cst_21 (constant S_ .f32 0x00000000#32),
    StableHlo.unary main_cst_21 main_v95 (broadcastInDim S50000x128 ![] bcast_S_S50000x128 : (⟨S_, .f32⟩ : BufTy).Contents (Elt F) → (⟨S50000x128, .f32⟩ : BufTy).Contents (Elt F)),
    StableHlo.unary main_v1 main_v96 (broadcastInDim S800000x1 ![0] bcast_S800000_S800000x1_0 : (⟨S800000, .i32⟩ : BufTy).Contents (Elt F) → (⟨S800000x1, .i32⟩ : BufTy).Contents (Elt F)),
    StableHlo.ternary main_v95 main_v96 main_v94 main_v97 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ]

theorem rCut1 : (Cert.ReferenceIdeal.Line.attend1 (F := F)) = rScore1 ++ (rLeaky1 ++ (rSoft1 ++ rFin1)) := rfl
end

/-! ### Attention step 2, stage by stage -/

attribute [local irreducible] Host.gather Host.reduceAdd in
/-- Scores: from contents agreeing on the input and the two index vectors, both programs compute the same inner
    products of the gathered pairs of rows. -/
theorem score1_t (V : KV) (U : RV) (hh : V (Proc.devRef .tc Cert.KernelIdeal.main_v51) = U (Proc.devRef .tc Cert.ReferenceIdeal.main_v57)) (hr : V (Proc.devRef .tc Cert.KernelIdeal.main_v1) = U (Proc.devRef .tc Cert.ReferenceIdeal.main_v1)) (hc : V (Proc.devRef .tc Cert.KernelIdeal.main_v3) = U (Proc.devRef .tc Cert.ReferenceIdeal.main_v3)) :
    after (Cert.KernelIdeal.Gen.hostOps2 (F := Ideal)) V (Proc.devRef .tc Cert.KernelIdeal.main_v70) = after (rScore1 (F := Ideal)) U (Proc.devRef .tc Cert.ReferenceIdeal.main_v73) := by
  after_results_simp
  rw [hh, hr, hc]
  simp only [truncf_id, extf_id]
  rfl

attribute [local irreducible] Host.gather in
/-- The kernel program's gathered second rows are the rows of the reference's input named by its second index vector. -/
theorem score1_xc (V : KV) (U : RV) (hh : V (Proc.devRef .tc Cert.KernelIdeal.main_v51) = U (Proc.devRef .tc Cert.ReferenceIdeal.main_v57)) (hc : V (Proc.devRef .tc Cert.KernelIdeal.main_v3) = U (Proc.devRef .tc Cert.ReferenceIdeal.main_v3)) :
    after (Cert.KernelIdeal.Gen.hostOps2 (F := Ideal)) V (Proc.devRef .tc Cert.KernelIdeal.main_v68) = rowsOf (U (Proc.devRef .tc Cert.ReferenceIdeal.main_v57)) (U (Proc.devRef .tc Cert.ReferenceIdeal.main_v3)) := by
  after_results_simp
  rw [hh, hc]
  simp only [truncf_id, extf_id]
  rfl

/-- The rectifier's slope is the same constant. -/
theorem score1_a (V : KV) (U : RV) : after (Cert.KernelIdeal.Gen.hostOps2 (F := Ideal)) V (Proc.devRef .tc Cert.KernelIdeal.main_cst_13) = after (rScore1 (F := Ideal)) U (Proc.devRef .tc Cert.ReferenceIdeal.main_cst_15) := by
  after_results_simp
theorem score1_keepK_row (V : KV) : after (Cert.KernelIdeal.Gen.hostOps2 (F := Ideal)) V (Proc.devRef .tc Cert.KernelIdeal.main_v1) = V (Proc.devRef .tc Cert.KernelIdeal.main_v1) := by after_results_simp
theorem score1_keepR_h (U : RV) : after (rScore1 (F := Ideal)) U (Proc.devRef .tc Cert.ReferenceIdeal.main_v57) = U (Proc.devRef .tc Cert.ReferenceIdeal.main_v57) := by after_results_simp
theorem score1_keepR_row (U : RV) : after (rScore1 (F := Ideal)) U (Proc.devRef .tc Cert.ReferenceIdeal.main_v1) = U (Proc.devRef .tc Cert.ReferenceIdeal.main_v1) := by after_results_simp
theorem score1_keepR_col (U : RV) : after (rScore1 (F := Ideal)) U (Proc.devRef .tc Cert.ReferenceIdeal.main_v3) = U (Proc.devRef .tc Cert.ReferenceIdeal.main_v3) := by after_results_simp

/-- Leaky rectifier: equal scores and equal slope give equal rectified scores. -/
theorem leaky1_s (V : KV) (U : RV) (ht : V (Proc.devRef .tc Cert.KernelIdeal.main_v70) = U (Proc.devRef .tc Cert.ReferenceIdeal.main_v73)) (ha : V (Proc.devRef .tc Cert.KernelIdeal.main_cst_13) = U (Proc.devRef .tc Cert.ReferenceIdeal.main_cst_15)) :
    after (Cert.KernelIdeal.Gen.hostOps2_1 (F := Ideal)) V (Proc.devRef .tc Cert.KernelIdeal.main_v71) = after (rLeaky1 (F := Ideal)) U (Proc.devRef .tc Cert.ReferenceIdeal.main_v74) := by
  after_results_simp
  rw [ht, ha]
theorem leaky1_keepK_xc (V : KV) : after (Cert.KernelIdeal.Gen.hostOps2_1 (F := Ideal)) V (Proc.devRef .tc Cert.KernelIdeal.main_v68) = V (Proc.devRef .tc Cert.KernelIdeal.main_v68) := by after_results_simp
theorem leaky1_keepK_row (V : KV) : after (Cert.KernelIdeal.Gen.hostOps2_1 (F := Ideal)) V (Proc.devRef .tc Cert.KernelIdeal.main_v1) = V (Proc.devRef .tc Cert.KernelIdeal.main_v1) := by after_results_simp
theorem leaky1_keepR_h (U : RV) : after (rLeaky1 (F := Ideal)) U (Proc.devRef .tc Cert.ReferenceIdeal.main_v57) = U (Proc.devRef .tc Cert.ReferenceIdeal.main_v57) := by after_results_simp
theorem leaky1_keepR_row (U : RV) : after (rLeaky1 (F := Ideal)) U (Proc.devRef .tc Cert.ReferenceIdeal.main_v1) = U (Proc.devRef .tc Cert.ReferenceIdeal.main_v1) := by after_results_simp
theorem leaky1_keepR_col (U : RV) : after (rLeaky1 (F := Ideal)) U (Proc.devRef .tc Cert.ReferenceIdeal.main_v3) = U (Proc.devRef .tc Cert.ReferenceIdeal.main_v3) := by after_results_simp

attribute [local irreducible] Host.reduce Host.reduceAdd in
/-- Softmax: equal rectified scores give equal weights. -/
theorem soft1_w (V : KV) (U : RV) (hs : V (Proc.devRef .tc Cert.KernelIdeal.main_v71) = U (Proc.devRef .tc Cert.ReferenceIdeal.main_v74)) :
    after (kSoft1 (F := Ideal)) V (Proc.devRef .tc Cert.KernelIdeal.main_v81) = after (rSoft1 (F := Ideal)) U (Proc.devRef .tc Cert.ReferenceIdeal.main_v84) := by
  after_results_simp
  rw [hs]
theorem soft1_keepK_xc (V : KV) : after (kSoft1 (F := Ideal)) V (Proc.devRef .tc Cert.KernelIdeal.main_v68) = V (Proc.devRef .tc Cert.KernelIdeal.main_v68) := by after_results_simp
theorem soft1_keepK_row (V : KV) : after (kSoft1 (F := Ideal)) V (Proc.devRef .tc Cert.KernelIdeal.main_v1) = V (Proc.devRef .tc Cert.KernelIdeal.main_v1) := by after_results_simp
theorem soft1_keepR_h (U : RV) : after (rSoft1 (F := Ideal)) U (Proc.devRef .tc Cert.ReferenceIdeal.main_v57) = U (Proc.devRef .tc Cert.ReferenceIdeal.main_v57) := by after_results_simp
theorem soft1_keepR_row (U : RV) : after (rSoft1 (F := Ideal)) U (Proc.devRef .tc Cert.ReferenceIdeal.main_v1) = U (Proc.devRef .tc Cert.ReferenceIdeal.main_v1) := by after_results_simp
theorem soft1_keepR_col (U : RV) : after (rSoft1 (F := Ideal)) U (Proc.devRef .tc Cert.ReferenceIdeal.main_v3) = U (Proc.devRef .tc Cert.ReferenceIdeal.main_v3) := by after_results_simp

attribute [local irreducible] Host.gather Host.scatterAdd in
/-- The weighted rows added up: equal weights, the same gathered second rows and the same first index vector give the
    same array of sums. -/
theorem fin1_sum (V : KV) (U : RV) (hw : V (Proc.devRef .tc Cert.KernelIdeal.main_v81) = U (Proc.devRef .tc Cert.ReferenceIdeal.main_v84)) (hxc : V (Proc.devRef .tc Cert.KernelIdeal.main_v68) = rowsOf (U (Proc.devRef .tc Cert.ReferenceIdeal.main_v57)) (U (Proc.devRef .tc Cert.ReferenceIdeal.main_v3)))
    (hr : V (Proc.devRef .tc Cert.KernelIdeal.main_v1) = U (Proc.devRef .tc Cert.ReferenceIdeal.main_v1)) :
    after (kFin1 (F := Ideal)) V (Proc.devRef .tc Cert.KernelIdeal.main_v87) = after (rFin1 (F := Ideal)) U (Proc.devRef .tc Cert.ReferenceIdeal.main_v97) := by
  after_results_simp
  rw [hw, hxc, hr]
  rfl

/-- The kernel program then narrows the float format of the sums, which is the identity on exact values. -/
theorem fin1_narrow (V : KV) : after (kFin1 (F := Ideal)) V (Proc.devRef .tc Cert.KernelIdeal.main_v88) = after (kFin1 (F := Ideal)) V (Proc.devRef .tc Cert.KernelIdeal.main_v87) := by
  after_results_simp
  exact truncf_id _ _

/-- Attention step 2 is the same function of its input and the two index vectors in both programs: the kernel
    program's stretch of host operations and the reference's part, started from buffer contents that agree on those
    three arrays, leave the same array. -/
theorem attend1_eq (V : KV) (U : RV)
    (hh : V (Proc.devRef .tc Cert.KernelIdeal.main_v51) = U (Proc.devRef .tc Cert.ReferenceIdeal.main_v57)) (hr : V (Proc.devRef .tc Cert.KernelIdeal.main_v1) = U (Proc.devRef .tc Cert.ReferenceIdeal.main_v1)) (hc : V (Proc.devRef .tc Cert.KernelIdeal.main_v3) = U (Proc.devRef .tc Cert.ReferenceIdeal.main_v3)) :
    after (Cert.KernelIdeal.Gen.hostOps2_2 (F := Ideal)) (after (Cert.KernelIdeal.Gen.hostOps2_1 (F := Ideal)) (after (Cert.KernelIdeal.Gen.hostOps2 (F := Ideal)) V)) (Proc.devRef .tc Cert.KernelIdeal.main_v88)
      = after (Cert.ReferenceIdeal.Line.attend1 (F := Ideal)) U (Proc.devRef .tc Cert.ReferenceIdeal.main_v97) := by
  rw [kCut1 (F := Ideal), rCut1 (F := Ideal), after_append, after_append, after_append, after_append]
  have t1 := score1_t V U hh hr hc
  have x1 := score1_xc V U hh hc
  have a1 := score1_a V U
  have r1 : after (Cert.KernelIdeal.Gen.hostOps2 (F := Ideal)) V (Proc.devRef .tc Cert.KernelIdeal.main_v1) = after (rScore1 (F := Ideal)) U (Proc.devRef .tc Cert.ReferenceIdeal.main_v1) :=
    (score1_keepK_row V).trans (hr.trans (score1_keepR_row U).symm)
  have x1' : after (Cert.KernelIdeal.Gen.hostOps2 (F := Ideal)) V (Proc.devRef .tc Cert.KernelIdeal.main_v68) = rowsOf (after (rScore1 (F := Ideal)) U (Proc.devRef .tc Cert.ReferenceIdeal.main_v57)) (after (rScore1 (F := Ideal)) U (Proc.devRef .tc Cert.ReferenceIdeal.main_v3)) := by
    rw [score1_keepR_h, score1_keepR_col]; exact x1
  have s2 := leaky1_s (after (Cert.KernelIdeal.Gen.hostOps2 (F := Ideal)) V) (after (rScore1 (F := Ideal)) U) t1 a1
  have x2 : after (Cert.KernelIdeal.Gen.hostOps2_1 (F := Ideal)) (after (Cert.KernelIdeal.Gen.hostOps2 (F := Ideal)) V) (Proc.devRef .tc Cert.KernelIdeal.main_v68)
      = rowsOf (after (rLeaky1 (F := Ideal)) (after (rScore1 (F := Ideal)) U) (Proc.devRef .tc Cert.ReferenceIdeal.main_v57)) (after (rLeaky1 (F := Ideal)) (after (rScore1 (F := Ideal)) U) (Proc.devRef .tc Cert.ReferenceIdeal.main_v3)) := by
    rw [leaky1_keepK_xc, leaky1_keepR_h, leaky1_keepR_col]; exact x1'
  have r2 : after (Cert.KernelIdeal.Gen.hostOps2_1 (F := Ideal)) (after (Cert.KernelIdeal.Gen.hostOps2 (F := Ideal)) V) (Proc.devRef .tc Cert.KernelIdeal.main_v1) = after (rLeaky1 (F := Ideal)) (after (rScore1 (F := Ideal)) U) (Proc.devRef .tc Cert.ReferenceIdeal.main_v1) := by
    rw [leaky1_keepK_row, leaky1_keepR_row]; exact r1
  have w3 := soft1_w (after (Cert.KernelIdeal.Gen.hostOps2_1 (F := Ideal)) (after (Cert.KernelIdeal.Gen.hostOps2 (F := Ideal)) V)) (after (rLeaky1 (F := Ideal)) (after (rScore1 (F := Ideal)) U)) s2
  have x3 : after (kSoft1 (F := Ideal)) (after (Cert.KernelIdeal.Gen.hostOps2_1 (F := Ideal)) (after (Cert.KernelIdeal.Gen.hostOps2 (F := Ideal)) V)) (Proc.devRef .tc Cert.KernelIdeal.main_v68)
      = rowsOf (after (rSoft1 (F := Ideal)) (after (rLeaky1 (F := Ideal)) (after (rScore1 (F := Ideal)) U)) (Proc.devRef .tc Cert.ReferenceIdeal.main_v57)) (after (rSoft1 (F := Ideal)) (after (rLeaky1 (F := Ideal)) (after (rScore1 (F := Ideal)) U)) (Proc.devRef .tc Cert.ReferenceIdeal.main_v3)) := by
    rw [soft1_keepK_xc, soft1_keepR_h, soft1_keepR_col]; exact x2
  have r3 : after (kSoft1 (F := Ideal)) (after (Cert.KernelIdeal.Gen.hostOps2_1 (F := Ideal)) (after (Cert.KernelIdeal.Gen.hostOps2 (F := Ideal)) V)) (Proc.devRef .tc Cert.KernelIdeal.main_v1) = after (rSoft1 (F := Ideal)) (after (rLeaky1 (F := Ideal)) (after (rScore1 (F := Ideal)) U)) (Proc.devRef .tc Cert.ReferenceIdeal.main_v1) := by
    rw [soft1_keepK_row, soft1_keepR_row]; exact r2
  exact (fin1_narrow _).trans (fin1_sum _ _ w3 x3 r3)

end Cert.Bridge

end
-- ==== Proof.Assemble.lean ====
/-
  The two programs compute the same array.

  Both programs are three dense layers with an attention step after each of the first two.  The kernel program computes
  each layer in a kernel launch, block of rows by block of rows; the reference computes it on the host in one product.
  Entry by entry both are  Σ_c x(p, c) · W(c, q) + bias(q)  (followed, in the first two layers, by the maximum with zero),
  a sum of the same 128 products, so the layers agree whenever their inputs do; no property of the numbers is used
  beyond that, so the inputs may be any extended reals.  The attention steps are the same host operations in both
  programs.  So, walking the two programs side by side from arguments that agree — after the first layer, after the
  first attention step, after the second layer, after the second attention step, after the last layer — the array
  passed on is the same at every stage, and so is everything both programs still read: the two index vectors and the
  weights and biases of the layers to come.
-/
import proofs.«142639_j6081673691821_2_alg».proof.Proof.KRun
import proofs.«142639_j6081673691821_2_alg».proof.Proof.KLayer0
import proofs.«142639_j6081673691821_2_alg».proof.Proof.KLayer1
import proofs.«142639_j6081673691821_2_alg».proof.Proof.KLayer2
import proofs.«142639_j6081673691821_2_alg».proof.Proof.KStretch
import proofs.«142639_j6081673691821_2_alg».proof.Proof.RefLayers
import proofs.«142639_j6081673691821_2_alg».proof.Proof.BridgeAttend

noncomputable section

namespace Cert.Bridge

open Idealize.ShloMosaic Idealize.ShloMosaic.StableHlo Idealize.ShloMosaic.TcCoe Idealize.ShloMosaic.ValueIdx
open Cert.Lib.Dense Idealize.SL.Sem

/-- A bias vector laid out as a 1 × 128 row, read back along the row, is the vector. -/
theorem bRow_apply (b : FVec Ideal Cert.KernelIdeal.S128 .f32) :
    (fun q : Fin 128 => Cert.KernelIdeal.Stretch.bRow b (ix2 (0 : Fin 1) q)) = fun q => b (ix1 q) :=
  funext fun q => by unfold Cert.KernelIdeal.Stretch.bRow; exact shapeCast_vec_row_apply b _ q

/-- The first launch's output, with the bias given as a row made from a vector, is the reference's first layer. -/
theorem G0_eq (X : FVec Ideal Cert.KernelIdeal.S50000x128 .f32) (Wt : FVec Ideal Cert.KernelIdeal.S128x128 .f32) (b : FVec Ideal Cert.KernelIdeal.S128 .f32) :
    Cert.KernelIdeal.Layer0.G X Wt (Cert.KernelIdeal.Stretch.bRow b) = Cert.ReferenceIdeal.Line.denseRelu X Wt b := by
  funext i
  show max (dense X Wt (fun q => Cert.KernelIdeal.Stretch.bRow b (ix2 (0 : Fin 1) q)) i) _ = max (dense X Wt (fun q => b (ix1 q)) i) _
  rw [bRow_apply]

/-- The same for the second launch and the second layer. -/
theorem G1_eq (X : FVec Ideal Cert.KernelIdeal.S50000x128 .f32) (Wt : FVec Ideal Cert.KernelIdeal.S128x128 .f32) (b : FVec Ideal Cert.KernelIdeal.S128 .f32) :
    Cert.KernelIdeal.Layer1.G X Wt (Cert.KernelIdeal.Stretch.bRow b) = Cert.ReferenceIdeal.Line.denseRelu X Wt b := by
  funext i
  show max (dense X Wt (fun q => Cert.KernelIdeal.Stretch.bRow b (ix2 (0 : Fin 1) q)) i) _ = max (dense X Wt (fun q => b (ix1 q)) i) _
  rw [bRow_apply]

/-- The third launch's output is the last layer, which has no maximum. -/
theorem G2_eq (X : FVec Ideal Cert.KernelIdeal.S50000x128 .f32) (Wt : FVec Ideal Cert.KernelIdeal.S128x128 .f32) (b : FVec Ideal Cert.KernelIdeal.S128 .f32) :
    Cert.KernelIdeal.Layer2.G X Wt (Cert.KernelIdeal.Stretch.bRow b) = dense X Wt (fun q => b (ix1 q)) := by
  funext i
  show dense X Wt (fun q => Cert.KernelIdeal.Stretch.bRow b (ix2 (0 : Fin 1) q)) i = dense X Wt (fun q => b (ix1 q)) i
  rw [bRow_apply]

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

/-- From memories that agree on the eight arguments, the reference's result (what its operations leave in its result
    buffer) is the kernel program's (what its last segment boundary holds in its result buffer). -/
theorem result_eq (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    after (Cert.ReferenceIdeal.Line.ops (F := Ideal)) (launchContents m' c) (Proc.devRef .tc Cert.ReferenceIdeal.main_v101) = Cert.KernelIdeal.Gen.W10 m ρ c (Proc.devRef .tc Cert.KernelIdeal.main_v91) := by
  -- the arguments as the two programs find them
  have a0 : (Cert.KernelIdeal.Gen.W0 m ρ c) (Proc.devRef .tc Cert.KernelIdeal.main_arg0) = (launchContents m' c) (Proc.devRef .tc Cert.ReferenceIdeal.main_arg0) := h0.symm
  have a1 : (Cert.KernelIdeal.Gen.W0 m ρ c) (Proc.devRef .tc Cert.KernelIdeal.main_arg1) = (launchContents m' c) (Proc.devRef .tc Cert.ReferenceIdeal.main_arg1) := h1.symm
  have a2 : (Cert.KernelIdeal.Gen.W0 m ρ c) (Proc.devRef .tc Cert.KernelIdeal.main_arg2) = (launchContents m' c) (Proc.devRef .tc Cert.ReferenceIdeal.main_arg2) := h2.symm
  have a3 : (Cert.KernelIdeal.Gen.W0 m ρ c) (Proc.devRef .tc Cert.KernelIdeal.main_arg3) = (launchContents m' c) (Proc.devRef .tc Cert.ReferenceIdeal.main_arg3) := h3.symm
  have a4 : (Cert.KernelIdeal.Gen.W0 m ρ c) (Proc.devRef .tc Cert.KernelIdeal.main_arg4) = (launchContents m' c) (Proc.devRef .tc Cert.ReferenceIdeal.main_arg4) := h4.symm
  have a5 : (Cert.KernelIdeal.Gen.W0 m ρ c) (Proc.devRef .tc Cert.KernelIdeal.main_arg5) = (launchContents m' c) (Proc.devRef .tc Cert.ReferenceIdeal.main_arg5) := h5.symm
  have a6 : (Cert.KernelIdeal.Gen.W0 m ρ c) (Proc.devRef .tc Cert.KernelIdeal.main_arg6) = (launchContents m' c) (Proc.devRef .tc Cert.ReferenceIdeal.main_arg6) := h6.symm
  have a7 : (Cert.KernelIdeal.Gen.W0 m ρ c) (Proc.devRef .tc Cert.KernelIdeal.main_arg7) = (launchContents m' c) (Proc.devRef .tc Cert.ReferenceIdeal.main_arg7) := h7.symm
  -- what the first launch takes: the input, the first weight as a matrix, the first bias as a row
  have e8 : Cert.KernelIdeal.Gen.V1 m ρ c Cert.KernelIdeal.main_v8 = (launchContents m' c) (Proc.devRef .tc Cert.ReferenceIdeal.main_arg0) := (Cert.KernelIdeal.Stretch.s0_v8 (Cert.KernelIdeal.Gen.W0 m ρ c)).trans a0
  have e9 : Cert.KernelIdeal.Gen.V1 m ρ c Cert.KernelIdeal.main_v9 = Cert.ReferenceIdeal.Line.wOf ((launchContents m' c) (Proc.devRef .tc Cert.ReferenceIdeal.main_arg2)) := by
    have := Cert.KernelIdeal.Stretch.s0_v9 (Cert.KernelIdeal.Gen.W0 m ρ c); rw [a2] at this; exact this
  have e10 : Cert.KernelIdeal.Gen.V1 m ρ c Cert.KernelIdeal.main_v10 = Cert.KernelIdeal.Stretch.bRow (Cert.ReferenceIdeal.Line.bOf ((launchContents m' c) (Proc.devRef .tc Cert.ReferenceIdeal.main_arg3))) := by
    have := Cert.KernelIdeal.Stretch.s0_v10 (Cert.KernelIdeal.Gen.W0 m ρ c); rw [a3] at this; exact this
  -- after the first layer
  have act1 : (Cert.KernelIdeal.Gen.W2 m ρ c) (Proc.devRef .tc Cert.KernelIdeal.main_v11) = (after (Cert.ReferenceIdeal.Line.layer0 (F := Ideal)) (launchContents m' c)) (Proc.devRef .tc Cert.ReferenceIdeal.main_v10) :=
    calc (Cert.KernelIdeal.Gen.W2 m ρ c) (Proc.devRef .tc Cert.KernelIdeal.main_v11)
      _ = (Cert.KernelIdeal.Gen.dat0 (Cert.KernelIdeal.Gen.V1 m ρ) c).arrAt 3 Cert.KernelIdeal.cfg0.N := Cert.KernelIdeal.Gen.W2_arr m ρ c 3
      _ = Cert.KernelIdeal.Layer0.G (Cert.KernelIdeal.Gen.V1 m ρ c Cert.KernelIdeal.main_v8) (Cert.KernelIdeal.Gen.V1 m ρ c Cert.KernelIdeal.main_v9) (Cert.KernelIdeal.Gen.V1 m ρ c Cert.KernelIdeal.main_v10) :=
          Cert.KernelIdeal.Layer0.final (Cert.KernelIdeal.Gen.V1 m ρ) c
      _ = Cert.KernelIdeal.Layer0.G ((launchContents m' c) (Proc.devRef .tc Cert.ReferenceIdeal.main_arg0)) (Cert.ReferenceIdeal.Line.wOf ((launchContents m' c) (Proc.devRef .tc Cert.ReferenceIdeal.main_arg2))) (Cert.KernelIdeal.Stretch.bRow (Cert.ReferenceIdeal.Line.bOf ((launchContents m' c) (Proc.devRef .tc Cert.ReferenceIdeal.main_arg3)))) := by
          rw [e8, e9, e10]
      _ = Cert.ReferenceIdeal.Line.denseRelu ((launchContents m' c) (Proc.devRef .tc Cert.ReferenceIdeal.main_arg0)) (Cert.ReferenceIdeal.Line.wOf ((launchContents m' c) (Proc.devRef .tc Cert.ReferenceIdeal.main_arg2))) (Cert.ReferenceIdeal.Line.bOf ((launchContents m' c) (Proc.devRef .tc Cert.ReferenceIdeal.main_arg3))) := G0_eq _ _ _
      _ = (after (Cert.ReferenceIdeal.Line.layer0 (F := Ideal)) (launchContents m' c)) (Proc.devRef .tc Cert.ReferenceIdeal.main_v10) := (Cert.ReferenceIdeal.Line.layer0_out (launchContents m' c)).symm
  have r1 : (Cert.KernelIdeal.Gen.W2 m ρ c) (Proc.devRef .tc Cert.KernelIdeal.main_v1) = (after (Cert.ReferenceIdeal.Line.layer0 (F := Ideal)) (launchContents m' c)) (Proc.devRef .tc Cert.ReferenceIdeal.main_v1) := by
    have := Cert.KernelIdeal.Stretch.s0_v1 (Cert.KernelIdeal.Gen.W0 m ρ c); rw [a1] at this
    exact (Cert.KernelIdeal.Gen.W2_of_ne m ρ c Cert.KernelIdeal.main_v1 (by decide)).trans (this.trans (Cert.ReferenceIdeal.Line.layer0_row (launchContents m' c)).symm)
  have c1 : (Cert.KernelIdeal.Gen.W2 m ρ c) (Proc.devRef .tc Cert.KernelIdeal.main_v3) = (after (Cert.ReferenceIdeal.Line.layer0 (F := Ideal)) (launchContents m' c)) (Proc.devRef .tc Cert.ReferenceIdeal.main_v3) := by
    have := Cert.KernelIdeal.Stretch.s0_v3 (Cert.KernelIdeal.Gen.W0 m ρ c); rw [a1] at this
    exact (Cert.KernelIdeal.Gen.W2_of_ne m ρ c Cert.KernelIdeal.main_v3 (by decide)).trans (this.trans (Cert.ReferenceIdeal.Line.layer0_col (launchContents m' c)).symm)
  have w1 : (Cert.KernelIdeal.Gen.W2 m ρ c) (Proc.devRef .tc Cert.KernelIdeal.main_v6) = Cert.ReferenceIdeal.Line.wOf ((after (Cert.ReferenceIdeal.Line.layer0 (F := Ideal)) (launchContents m' c)) (Proc.devRef .tc Cert.ReferenceIdeal.main_arg4)) := by
    have := Cert.KernelIdeal.Stretch.s0_v6 (Cert.KernelIdeal.Gen.W0 m ρ c); rw [a4] at this
    rw [Cert.ReferenceIdeal.Line.layer0_keep_arg4]
    exact (Cert.KernelIdeal.Gen.W2_of_ne m ρ c Cert.KernelIdeal.main_v6 (by decide)).trans this
  have b1 : (Cert.KernelIdeal.Gen.W2 m ρ c) (Proc.devRef .tc Cert.KernelIdeal.main_v7) = Cert.ReferenceIdeal.Line.bOf ((after (Cert.ReferenceIdeal.Line.layer0 (F := Ideal)) (launchContents m' c)) (Proc.devRef .tc Cert.ReferenceIdeal.main_arg5)) := by
    have := Cert.KernelIdeal.Stretch.s0_v7 (Cert.KernelIdeal.Gen.W0 m ρ c); rw [a5] at this
    rw [Cert.ReferenceIdeal.Line.layer0_keep_arg5]
    exact (Cert.KernelIdeal.Gen.W2_of_ne m ρ c Cert.KernelIdeal.main_v7 (by decide)).trans this
  have w2 : (Cert.KernelIdeal.Gen.W2 m ρ c) (Proc.devRef .tc Cert.KernelIdeal.main_arg6) = (after (Cert.ReferenceIdeal.Line.layer0 (F := Ideal)) (launchContents m' c)) (Proc.devRef .tc Cert.ReferenceIdeal.main_arg6) := by
    rw [Cert.ReferenceIdeal.Line.layer0_keep_arg6]
    exact (Cert.KernelIdeal.Gen.W2_of_ne m ρ c Cert.KernelIdeal.main_arg6 (by decide)).trans ((Cert.KernelIdeal.Stretch.s0_keep_arg6 (Cert.KernelIdeal.Gen.W0 m ρ c)).trans a6)
  have b2 : (Cert.KernelIdeal.Gen.W2 m ρ c) (Proc.devRef .tc Cert.KernelIdeal.main_arg7) = (after (Cert.ReferenceIdeal.Line.layer0 (F := Ideal)) (launchContents m' c)) (Proc.devRef .tc Cert.ReferenceIdeal.main_arg7) := by
    rw [Cert.ReferenceIdeal.Line.layer0_keep_arg7]
    exact (Cert.KernelIdeal.Gen.W2_of_ne m ρ c Cert.KernelIdeal.main_arg7 (by decide)).trans ((Cert.KernelIdeal.Stretch.s0_keep_arg7 (Cert.KernelIdeal.Gen.W0 m ρ c)).trans a7)
  -- after the first attention step
  have act2 : Cert.KernelIdeal.Gen.V5 m ρ c Cert.KernelIdeal.main_v48 = (after (Cert.ReferenceIdeal.Line.attend0 (F := Ideal)) (after (Cert.ReferenceIdeal.Line.layer0 (F := Ideal)) (launchContents m' c))) (Proc.devRef .tc Cert.ReferenceIdeal.main_v50) := attend0_eq (Cert.KernelIdeal.Gen.W2 m ρ c) (after (Cert.ReferenceIdeal.Line.layer0 (F := Ideal)) (launchContents m' c)) act1 r1 c1
  have f49 : Cert.KernelIdeal.Gen.V5 m ρ c Cert.KernelIdeal.main_v49 = Cert.ReferenceIdeal.Line.wOf ((after (Cert.ReferenceIdeal.Line.attend0 (F := Ideal)) (after (Cert.ReferenceIdeal.Line.layer0 (F := Ideal)) (launchContents m' c))) (Proc.devRef .tc Cert.ReferenceIdeal.main_arg4)) := by
    rw [Cert.ReferenceIdeal.Line.attend0_keep_arg4]
    exact (Cert.KernelIdeal.Stretch.s1_v49 (Cert.KernelIdeal.Gen.W2 m ρ c)).trans w1
  have f50 : Cert.KernelIdeal.Gen.V5 m ρ c Cert.KernelIdeal.main_v50 = Cert.KernelIdeal.Stretch.bRow (Cert.ReferenceIdeal.Line.bOf ((after (Cert.ReferenceIdeal.Line.attend0 (F := Ideal)) (after (Cert.ReferenceIdeal.Line.layer0 (F := Ideal)) (launchContents m' c))) (Proc.devRef .tc Cert.ReferenceIdeal.main_arg5))) := by
    rw [Cert.ReferenceIdeal.Line.attend0_keep_arg5]
    exact (Cert.KernelIdeal.Stretch.s1_v50 (Cert.KernelIdeal.Gen.W2 m ρ c)).trans (congrArg Cert.KernelIdeal.Stretch.bRow b1)
  -- after the second layer
  have act3 : (Cert.KernelIdeal.Gen.W6 m ρ c) (Proc.devRef .tc Cert.KernelIdeal.main_v51) = (after (Cert.ReferenceIdeal.Line.layer1 (F := Ideal)) (after (Cert.ReferenceIdeal.Line.attend0 (F := Ideal)) (after (Cert.ReferenceIdeal.Line.layer0 (F := Ideal)) (launchContents m' c)))) (Proc.devRef .tc Cert.ReferenceIdeal.main_v57) :=
    calc (Cert.KernelIdeal.Gen.W6 m ρ c) (Proc.devRef .tc Cert.KernelIdeal.main_v51)
      _ = (Cert.KernelIdeal.Gen.dat1 (Cert.KernelIdeal.Gen.V5 m ρ) c).arrAt 3 Cert.KernelIdeal.cfg1.N := Cert.KernelIdeal.Gen.W6_arr m ρ c 3
      _ = Cert.KernelIdeal.Layer1.G (Cert.KernelIdeal.Gen.V5 m ρ c Cert.KernelIdeal.main_v48) (Cert.KernelIdeal.Gen.V5 m ρ c Cert.KernelIdeal.main_v49) (Cert.KernelIdeal.Gen.V5 m ρ c Cert.KernelIdeal.main_v50) :=
          Cert.KernelIdeal.Layer1.final (Cert.KernelIdeal.Gen.V5 m ρ) c
      _ = Cert.KernelIdeal.Layer1.G ((after (Cert.ReferenceIdeal.Line.attend0 (F := Ideal)) (after (Cert.ReferenceIdeal.Line.layer0 (F := Ideal)) (launchContents m' c))) (Proc.devRef .tc Cert.ReferenceIdeal.main_v50)) (Cert.ReferenceIdeal.Line.wOf ((after (Cert.ReferenceIdeal.Line.attend0 (F := Ideal)) (after (Cert.ReferenceIdeal.Line.layer0 (F := Ideal)) (launchContents m' c))) (Proc.devRef .tc Cert.ReferenceIdeal.main_arg4))) (Cert.KernelIdeal.Stretch.bRow (Cert.ReferenceIdeal.Line.bOf ((after (Cert.ReferenceIdeal.Line.attend0 (F := Ideal)) (after (Cert.ReferenceIdeal.Line.layer0 (F := Ideal)) (launchContents m' c))) (Proc.devRef .tc Cert.ReferenceIdeal.main_arg5)))) := by
          rw [act2, f49, f50]
      _ = Cert.ReferenceIdeal.Line.denseRelu ((after (Cert.ReferenceIdeal.Line.attend0 (F := Ideal)) (after (Cert.ReferenceIdeal.Line.layer0 (F := Ideal)) (launchContents m' c))) (Proc.devRef .tc Cert.ReferenceIdeal.main_v50)) (Cert.ReferenceIdeal.Line.wOf ((after (Cert.ReferenceIdeal.Line.attend0 (F := Ideal)) (after (Cert.ReferenceIdeal.Line.layer0 (F := Ideal)) (launchContents m' c))) (Proc.devRef .tc Cert.ReferenceIdeal.main_arg4))) (Cert.ReferenceIdeal.Line.bOf ((after (Cert.ReferenceIdeal.Line.attend0 (F := Ideal)) (after (Cert.ReferenceIdeal.Line.layer0 (F := Ideal)) (launchContents m' c))) (Proc.devRef .tc Cert.ReferenceIdeal.main_arg5))) := G1_eq _ _ _
      _ = (after (Cert.ReferenceIdeal.Line.layer1 (F := Ideal)) (after (Cert.ReferenceIdeal.Line.attend0 (F := Ideal)) (after (Cert.ReferenceIdeal.Line.layer0 (F := Ideal)) (launchContents m' c)))) (Proc.devRef .tc Cert.ReferenceIdeal.main_v57) := (Cert.ReferenceIdeal.Line.layer1_out (after (Cert.ReferenceIdeal.Line.attend0 (F := Ideal)) (after (Cert.ReferenceIdeal.Line.layer0 (F := Ideal)) (launchContents m' c)))).symm
  have r3 : (Cert.KernelIdeal.Gen.W6 m ρ c) (Proc.devRef .tc Cert.KernelIdeal.main_v1) = (after (Cert.ReferenceIdeal.Line.layer1 (F := Ideal)) (after (Cert.ReferenceIdeal.Line.attend0 (F := Ideal)) (after (Cert.ReferenceIdeal.Line.layer0 (F := Ideal)) (launchContents m' c)))) (Proc.devRef .tc Cert.ReferenceIdeal.main_v1) := by
    rw [Cert.ReferenceIdeal.Line.layer1_keep_v1, Cert.ReferenceIdeal.Line.attend0_keep_v1]
    exact (Cert.KernelIdeal.Gen.W6_of_ne m ρ c Cert.KernelIdeal.main_v1 (by decide)).trans ((Cert.KernelIdeal.Stretch.s1_keep_v1 (Cert.KernelIdeal.Gen.W2 m ρ c)).trans r1)
  have c3 : (Cert.KernelIdeal.Gen.W6 m ρ c) (Proc.devRef .tc Cert.KernelIdeal.main_v3) = (after (Cert.ReferenceIdeal.Line.layer1 (F := Ideal)) (after (Cert.ReferenceIdeal.Line.attend0 (F := Ideal)) (after (Cert.ReferenceIdeal.Line.layer0 (F := Ideal)) (launchContents m' c)))) (Proc.devRef .tc Cert.ReferenceIdeal.main_v3) := by
    rw [Cert.ReferenceIdeal.Line.layer1_keep_v3, Cert.ReferenceIdeal.Line.attend0_keep_v3]
    exact (Cert.KernelIdeal.Gen.W6_of_ne m ρ c Cert.KernelIdeal.main_v3 (by decide)).trans ((Cert.KernelIdeal.Stretch.s1_keep_v3 (Cert.KernelIdeal.Gen.W2 m ρ c)).trans c1)
  have w23 : (Cert.KernelIdeal.Gen.W6 m ρ c) (Proc.devRef .tc Cert.KernelIdeal.main_arg6) = (after (Cert.ReferenceIdeal.Line.layer1 (F := Ideal)) (after (Cert.ReferenceIdeal.Line.attend0 (F := Ideal)) (after (Cert.ReferenceIdeal.Line.layer0 (F := Ideal)) (launchContents m' c)))) (Proc.devRef .tc Cert.ReferenceIdeal.main_arg6) := by
    rw [Cert.ReferenceIdeal.Line.layer1_keep_arg6, Cert.ReferenceIdeal.Line.attend0_keep_arg6]
    exact (Cert.KernelIdeal.Gen.W6_of_ne m ρ c Cert.KernelIdeal.main_arg6 (by decide)).trans ((Cert.KernelIdeal.Stretch.s1_keep_arg6 (Cert.KernelIdeal.Gen.W2 m ρ c)).trans w2)
  have b23 : (Cert.KernelIdeal.Gen.W6 m ρ c) (Proc.devRef .tc Cert.KernelIdeal.main_arg7) = (after (Cert.ReferenceIdeal.Line.layer1 (F := Ideal)) (after (Cert.ReferenceIdeal.Line.attend0 (F := Ideal)) (after (Cert.ReferenceIdeal.Line.layer0 (F := Ideal)) (launchContents m' c)))) (Proc.devRef .tc Cert.ReferenceIdeal.main_arg7) := by
    rw [Cert.ReferenceIdeal.Line.layer1_keep_arg7, Cert.ReferenceIdeal.Line.attend0_keep_arg7]
    exact (Cert.KernelIdeal.Gen.W6_of_ne m ρ c Cert.KernelIdeal.main_arg7 (by decide)).trans ((Cert.KernelIdeal.Stretch.s1_keep_arg7 (Cert.KernelIdeal.Gen.W2 m ρ c)).trans b2)
  -- after the second attention step
  have act4 : Cert.KernelIdeal.Gen.V9 m ρ c Cert.KernelIdeal.main_v88 = (after (Cert.ReferenceIdeal.Line.attend1 (F := Ideal)) (after (Cert.ReferenceIdeal.Line.layer1 (F := Ideal)) (after (Cert.ReferenceIdeal.Line.attend0 (F := Ideal)) (after (Cert.ReferenceIdeal.Line.layer0 (F := Ideal)) (launchContents m' c))))) (Proc.devRef .tc Cert.ReferenceIdeal.main_v97) := attend1_eq (Cert.KernelIdeal.Gen.W6 m ρ c) (after (Cert.ReferenceIdeal.Line.layer1 (F := Ideal)) (after (Cert.ReferenceIdeal.Line.attend0 (F := Ideal)) (after (Cert.ReferenceIdeal.Line.layer0 (F := Ideal)) (launchContents m' c)))) act3 r3 c3
  have g89 : Cert.KernelIdeal.Gen.V9 m ρ c Cert.KernelIdeal.main_v89 = (after (Cert.ReferenceIdeal.Line.attend1 (F := Ideal)) (after (Cert.ReferenceIdeal.Line.layer1 (F := Ideal)) (after (Cert.ReferenceIdeal.Line.attend0 (F := Ideal)) (after (Cert.ReferenceIdeal.Line.layer0 (F := Ideal)) (launchContents m' c))))) (Proc.devRef .tc Cert.ReferenceIdeal.main_arg6) := by
    rw [Cert.ReferenceIdeal.Line.attend1_keep_arg6]
    exact (Cert.KernelIdeal.Stretch.s2_v89 (Cert.KernelIdeal.Gen.W6 m ρ c)).trans w23
  have g90 : Cert.KernelIdeal.Gen.V9 m ρ c Cert.KernelIdeal.main_v90 = Cert.KernelIdeal.Stretch.bRow ((after (Cert.ReferenceIdeal.Line.attend1 (F := Ideal)) (after (Cert.ReferenceIdeal.Line.layer1 (F := Ideal)) (after (Cert.ReferenceIdeal.Line.attend0 (F := Ideal)) (after (Cert.ReferenceIdeal.Line.layer0 (F := Ideal)) (launchContents m' c))))) (Proc.devRef .tc Cert.ReferenceIdeal.main_arg7)) := by
    rw [Cert.ReferenceIdeal.Line.attend1_keep_arg7]
    exact (Cert.KernelIdeal.Stretch.s2_v90 (Cert.KernelIdeal.Gen.W6 m ρ c)).trans (congrArg Cert.KernelIdeal.Stretch.bRow b23)
  -- after the last layer
  rw [Cert.ReferenceIdeal.Line.ops_cut]
  exact (calc Cert.KernelIdeal.Gen.W10 m ρ c (Proc.devRef .tc Cert.KernelIdeal.main_v91)
      _ = (Cert.KernelIdeal.Gen.dat2 (Cert.KernelIdeal.Gen.V9 m ρ) c).arrAt 3 Cert.KernelIdeal.cfg2.N := Cert.KernelIdeal.Gen.W10_arr m ρ c 3
      _ = Cert.KernelIdeal.Layer2.G (Cert.KernelIdeal.Gen.V9 m ρ c Cert.KernelIdeal.main_v88) (Cert.KernelIdeal.Gen.V9 m ρ c Cert.KernelIdeal.main_v89) (Cert.KernelIdeal.Gen.V9 m ρ c Cert.KernelIdeal.main_v90) :=
          Cert.KernelIdeal.Layer2.final (Cert.KernelIdeal.Gen.V9 m ρ) c
      _ = Cert.KernelIdeal.Layer2.G ((after (Cert.ReferenceIdeal.Line.attend1 (F := Ideal)) (after (Cert.ReferenceIdeal.Line.layer1 (F := Ideal)) (after (Cert.ReferenceIdeal.Line.attend0 (F := Ideal)) (after (Cert.ReferenceIdeal.Line.layer0 (F := Ideal)) (launchContents m' c))))) (Proc.devRef .tc Cert.ReferenceIdeal.main_v97)) ((after (Cert.ReferenceIdeal.Line.attend1 (F := Ideal)) (after (Cert.ReferenceIdeal.Line.layer1 (F := Ideal)) (after (Cert.ReferenceIdeal.Line.attend0 (F := Ideal)) (after (Cert.ReferenceIdeal.Line.layer0 (F := Ideal)) (launchContents m' c))))) (Proc.devRef .tc Cert.ReferenceIdeal.main_arg6)) (Cert.KernelIdeal.Stretch.bRow ((after (Cert.ReferenceIdeal.Line.attend1 (F := Ideal)) (after (Cert.ReferenceIdeal.Line.layer1 (F := Ideal)) (after (Cert.ReferenceIdeal.Line.attend0 (F := Ideal)) (after (Cert.ReferenceIdeal.Line.layer0 (F := Ideal)) (launchContents m' c))))) (Proc.devRef .tc Cert.ReferenceIdeal.main_arg7))) := by
          rw [act4, g89, g90]
      _ = dense ((after (Cert.ReferenceIdeal.Line.attend1 (F := Ideal)) (after (Cert.ReferenceIdeal.Line.layer1 (F := Ideal)) (after (Cert.ReferenceIdeal.Line.attend0 (F := Ideal)) (after (Cert.ReferenceIdeal.Line.layer0 (F := Ideal)) (launchContents m' c))))) (Proc.devRef .tc Cert.ReferenceIdeal.main_v97) : FVec Ideal Cert.ReferenceIdeal.S50000x128 .f32) ((after (Cert.ReferenceIdeal.Line.attend1 (F := Ideal)) (after (Cert.ReferenceIdeal.Line.layer1 (F := Ideal)) (after (Cert.ReferenceIdeal.Line.attend0 (F := Ideal)) (after (Cert.ReferenceIdeal.Line.layer0 (F := Ideal)) (launchContents m' c))))) (Proc.devRef .tc Cert.ReferenceIdeal.main_arg6) : FVec Ideal Cert.ReferenceIdeal.S128x128 .f32)
            (fun q => ((after (Cert.ReferenceIdeal.Line.attend1 (F := Ideal)) (after (Cert.ReferenceIdeal.Line.layer1 (F := Ideal)) (after (Cert.ReferenceIdeal.Line.attend0 (F := Ideal)) (after (Cert.ReferenceIdeal.Line.layer0 (F := Ideal)) (launchContents m' c))))) (Proc.devRef .tc Cert.ReferenceIdeal.main_arg7) : FVec Ideal Cert.ReferenceIdeal.S128 .f32) (ix1 q)) := G2_eq _ _ _
      _ = after (Cert.ReferenceIdeal.Line.layer2 (F := Ideal)) (after (Cert.ReferenceIdeal.Line.attend1 (F := Ideal)) (after (Cert.ReferenceIdeal.Line.layer1 (F := Ideal)) (after (Cert.ReferenceIdeal.Line.attend0 (F := Ideal)) (after (Cert.ReferenceIdeal.Line.layer0 (F := Ideal)) (launchContents m' c))))) (Proc.devRef .tc Cert.ReferenceIdeal.main_v101) := (Cert.ReferenceIdeal.Line.layer2_out (after (Cert.ReferenceIdeal.Line.attend1 (F := Ideal)) (after (Cert.ReferenceIdeal.Line.layer1 (F := Ideal)) (after (Cert.ReferenceIdeal.Line.attend0 (F := Ideal)) (after (Cert.ReferenceIdeal.Line.layer0 (F := Ideal)) (launchContents m' c)))))).symm).symm

end Cert.Bridge

end
-- ==== Proof.lean ====
/-
  The certificate: the kernel program, its idealization and the reference all run to the end from any memory with
  their arguments left as launched; the idealization rewrote nothing, so it is the program's own text read at the exact
  values; and at the exact values the idealized kernel program and the reference, run from memories that agree on the
  eight arguments, end with the same result array.

  The result is the same because both programs are the same five stages — three dense layers with an attention step
  after each of the first two.  The kernel program's layers run as kernel launches, ten blocks of 5000 rows each, and
  a launch's output array is the dense layer of the arrays it is entered with; the reference's layers are one host
  product each; entry by entry the two are the same sum.  The attention steps are the same host operations in both.
  No property of the input numbers is used, so the precondition is never opened.
-/
import proofs.«142639_j6081673691821_2_alg».proof.Defs
import proofs.«142639_j6081673691821_2_alg».proof.Proof.Gen.Kernel
import proofs.«142639_j6081673691821_2_alg».proof.Proof.Gen.Kernel.Frame
import proofs.«142639_j6081673691821_2_alg».proof.Proof.Gen.KernelIdeal
import proofs.«142639_j6081673691821_2_alg».proof.Proof.Gen.KernelIdeal.Frame
import proofs.«142639_j6081673691821_2_alg».proof.Proof.Gen.ReferenceIdeal
import proofs.«142639_j6081673691821_2_alg».proof.Proof.Gen.Pre_finite_inputs
import proofs.«142639_j6081673691821_2_alg».proof.Proof.KRun
import proofs.«142639_j6081673691821_2_alg».proof.Proof.RefLine
import proofs.«142639_j6081673691821_2_alg».proof.Proof.RefFrame
import proofs.«142639_j6081673691821_2_alg».proof.Proof.Assemble
import Idealize.ShloMosaic.Adequacy
import Idealize.ShloMosaic.Init

noncomputable section

namespace Cert.Proof

open Idealize.ShloMosaic Idealize.ShloMosaic.TcCoe Idealize.ShloMosaic.StableHlo Idealize.SL.Sem

/-- The kernel program as printed runs to the end with its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a line of host operations none of which writes an argument. -/
theorem frame_ri : Cert.frame_ReferenceIdeal := fun m ρ _ =>
  (θ_run Cert.ReferenceIdeal.defs _ _).mono (fun r h c =>
    ⟨(h c Cert.ReferenceIdeal.main_arg0).trans (Cert.ReferenceIdeal.Line.ops_keep_arg0 _),
     (h c Cert.ReferenceIdeal.main_arg1).trans (Cert.ReferenceIdeal.Line.ops_keep_arg1 _),
     (h c Cert.ReferenceIdeal.main_arg2).trans (Cert.ReferenceIdeal.Line.ops_keep_arg2 _),
     (h c Cert.ReferenceIdeal.main_arg3).trans (Cert.ReferenceIdeal.Line.ops_keep_arg3 _),
     (h c Cert.ReferenceIdeal.main_arg4).trans (Cert.ReferenceIdeal.Line.ops_keep_arg4 _),
     (h c Cert.ReferenceIdeal.main_arg5).trans (Cert.ReferenceIdeal.Line.ops_keep_arg5 _),
     (h c Cert.ReferenceIdeal.main_arg6).trans (Cert.ReferenceIdeal.Line.ops_keep_arg6 _),
     (h c Cert.ReferenceIdeal.main_arg7).trans (Cert.ReferenceIdeal.Line.ops_keep_arg7 _)⟩)
    (Cert.ReferenceIdeal.Line.run_line (F := Ideal) m ρ)

/-- The idealization rewrote no operation. -/
theorem preserves : Cert.preserves_Kernel_KernelIdeal := trivial

/-- At the exact values the two programs end with the same result array: the kernel program's is what its last
    segment boundary holds in its result buffer, and the reference's line leaves the same array there. -/
theorem algebraic : Cert.algebraic_KernelIdeal_ReferenceIdeal := by
  intro m ρ m' ρ' _ hagree
  refine ⟨fun c => Cert.KernelIdeal.Gen.W10 m ρ c (Proc.devRef .tc Cert.KernelIdeal.main_v91),
    Cert.KernelIdeal.Whole.run_result (F := Ideal) m ρ, ?_⟩
  refine (θ_run Cert.ReferenceIdeal.defs _ _).mono (fun r h c => ?_) (Cert.ReferenceIdeal.Line.run_line (F := Ideal) m' ρ')
  exact ⟨(h c Cert.ReferenceIdeal.main_v101).trans
      (Cert.Bridge.result_eq m ρ m' c (hagree c).1 (hagree c).2.1 (hagree c).2.2.1 (hagree c).2.2.2.1 (hagree c).2.2.2.2.1 (hagree c).2.2.2.2.2.1 (hagree c).2.2.2.2.2.2.1 (hagree c).2.2.2.2.2.2.2),
     (h c Cert.ReferenceIdeal.main_arg0).trans (Cert.ReferenceIdeal.Line.ops_keep_arg0 _),
     (h c Cert.ReferenceIdeal.main_arg1).trans (Cert.ReferenceIdeal.Line.ops_keep_arg1 _),
     (h c Cert.ReferenceIdeal.main_arg2).trans (Cert.ReferenceIdeal.Line.ops_keep_arg2 _),
     (h c Cert.ReferenceIdeal.main_arg3).trans (Cert.ReferenceIdeal.Line.ops_keep_arg3 _),
     (h c Cert.ReferenceIdeal.main_arg4).trans (Cert.ReferenceIdeal.Line.ops_keep_arg4 _),
     (h c Cert.ReferenceIdeal.main_arg5).trans (Cert.ReferenceIdeal.Line.ops_keep_arg5 _),
     (h c Cert.ReferenceIdeal.main_arg6).trans (Cert.ReferenceIdeal.Line.ops_keep_arg6 _),
     (h c Cert.ReferenceIdeal.main_arg7).trans (Cert.ReferenceIdeal.Line.ops_keep_arg7 _)⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
